-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x64 : Shape := ⟨2, ![400000, 64]⟩
abbrev S400000x6 : Shape := ⟨2, ![400000, 6]⟩
abbrev S64x32 : Shape := ⟨2, ![64, 32]⟩
abbrev S32 : Shape := ⟨1, ![32]⟩
abbrev S198x32 : Shape := ⟨2, ![198, 32]⟩
abbrev S32x32 : Shape := ⟨2, ![32, 32]⟩
abbrev S32x6 : Shape := ⟨2, ![32, 6]⟩
abbrev S6 : Shape := ⟨1, ![6]⟩
abbrev S32x1 : Shape := ⟨2, ![32, 1]⟩
abbrev S1 : Shape := ⟨1, ![1]⟩
abbrev S_ : Shape := ⟨0, ![]⟩

class Facts : Prop where
  bcast_S_S400000x64 : S_.BroadcastsInDim S400000x64 (![] : Fin 0 → Fin S400000x64.rank)
  reducesTo_S400000x64_S_d0_1 : S400000x64.ReducesTo [0, 1] S_
  h_S_ : 0 < S_.numel
  bcast_S_S400000x6 : S_.BroadcastsInDim S400000x6 (![] : Fin 0 → Fin S400000x6.rank)
  reducesTo_S400000x6_S_d0_1 : S400000x6.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S198x32 : S_.BroadcastsInDim S198x32 (![] : Fin 0 → Fin S198x32.rank)
  reducesTo_S198x32_S_d0_1 : S198x32.ReducesTo [0, 1] S_
  bcast_S_S32x32 : S_.BroadcastsInDim S32x32 (![] : Fin 0 → Fin S32x32.rank)
  reducesTo_S32x32_S_d0_1 : S32x32.ReducesTo [0, 1] S_
  bcast_S_S32x6 : S_.BroadcastsInDim S32x6 (![] : Fin 0 → Fin S32x6.rank)
  reducesTo_S32x6_S_d0_1 : S32x6.ReducesTo [0, 1] S_
  bcast_S_S6 : S_.BroadcastsInDim S6 (![] : Fin 0 → Fin S6.rank)
  reducesTo_S6_S_d0 : S6.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S32x1 .f32) (main_arg16 : FVec F S1 .f32) (main_v63 : IVec S_ 1) (main_v67 : IVec S_ 1) : IVec S_ 1 :=
  let main_v68 : IVec S_ 1 := andi main_v63 main_v67
  let main_v69 : FVec F S32x1 .f32 := Host.absf main_arg15
  let main_cst_26 : FVec F S_ .f32 := constant S_ .f32 0x7F800000#32
  let main_v70 : FVec F S32x1 .f32 := broadcastInDim S32x1 ![] bcast_S_S32x1 main_cst_26
  let main_v71 : IVec S32x1 1 := cmpf .olt main_v69 main_v70
  let main_c_27 : IVec S_ 1 := constantI S_ 1 1#1
  let main_v72 : IVec S_ 1 := (fun x v => Host.reduce IntOp.andi x v reducesTo_S32x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S32 .f32) (main_arg13 : FVec F S32x32 .f32) (main_arg14 : FVec F S32 .f32) (main_arg15 : FVec F S32x1 .f32) (main_arg16 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_v63 main_v67

def fn_part2 {F : FTy → Type} [FloatOps F] (main_arg8 : FVec F S32 .f32) (main_arg9 : FVec F S32x6 .f32) (main_arg10 : FVec F S6 .f32) (main_arg11 : FVec F S64x32 .f32) (main_arg12 : FVec F S32 .f32) (main_arg13 : FVec F S32x32 .f32) (main_arg14 : FVec F S32 .f32) (main_arg15 : FVec F S32x1 .f32) (main_arg16 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x6 .f32 := Host.absf main_arg9
  let main_cst_14 : FVec F S_ .f32 := constant S_ .f32 0x7F800000#32
  let main_v40 : FVec F S32x6 .f32 := broadcastInDim S32x6 ![] bcast_S_S32x6 main_cst_14
  let main_v41 : IVec S32x6 1 := cmpf .olt main_v39 main_v40
  let main_c_15 : IVec S_ 1 := constantI S_ 1 1#1
  let main_v42 : IVec S_ 1 := (fun x v => Host.reduce IntOp.andi x v reducesTo_S32x6_S_d0_1 h_S_) main_v41 main_c_15
  let main_v43 : IVec S_ 1 := andi main_v38 main_v42
  let main_v44 : FVec F S6 .f32 := Host.absf main_arg10
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg12 main_arg13 main_arg14 main_arg15 main_arg16 main_v48 main_v49 main_v50

def fn_part1 {F : FTy → Type} [FloatOps F] (main_arg5 : FVec F S198x32 .f32) (main_arg6 : FVec F S32 .f32) (main_arg7 : FVec F S32x32 .f32) (main_arg8 : FVec F S32 .f32) (main_arg9 : FVec F S32x6 .f32) (main_arg10 : FVec F S6 .f32) (main_arg11 : FVec F S64x32 .f32) (main_arg12 : FVec F S32 .f32) (main_arg13 : FVec F S32x32 .f32) (main_arg14 : FVec F S32 .f32) (main_arg15 : FVec F S32x1 .f32) (main_arg16 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S198x32 .f32 := Host.absf main_arg5
  let main_cst_6 : FVec F S_ .f32 := constant S_ .f32 0x7F800000#32
  let main_v20 : FVec F S198x32 .f32 := broadcastInDim S198x32 ![] bcast_S_S198x32 main_cst_6
  let main_v21 : IVec S198x32 1 := cmpf .olt main_v19 main_v20
  let main_c_7 : IVec S_ 1 := constantI S_ 1 1#1
  let main_v22 : IVec S_ 1 := (fun x v => Host.reduce IntOp.andi x v reducesTo_S198x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S400000x64 .f32) (main_arg1 : FVec F S400000x6 .f32) (main_arg2 : IVec S400000x6 32) (main_arg3 : FVec F S64x32 .f32) (main_arg4 : FVec F S32 .f32) (main_arg5 : FVec F S198x32 .f32) (main_arg6 : FVec F S32 .f32) (main_arg7 : FVec F S32x32 .f32) (main_arg8 : FVec F S32 .f32) (main_arg9 : FVec F S32x6 .f32) (main_arg10 : FVec F S6 .f32) (main_arg11 : FVec F S64x32 .f32) (main_arg12 : FVec F S32 .f32) (main_arg13 : FVec F S32x32 .f32) (main_arg14 : FVec F S32 .f32) (main_arg15 : FVec F S32x1 .f32) (main_arg16 : FVec F S1 .f32) : IVec S_ 1 :=
  let main_v0 : FVec F S400000x64 .f32 := Host.absf main_arg0
  let main_cst : FVec F S_ .f32 := constant S_ .f32 0x7F800000#32
  let main_v1 : FVec F S400000x64 .f32 := broadcastInDim S400000x64 ![] bcast_S_S400000x64 main_cst
  let main_v2 : IVec S400000x64 1 := cmpf .olt main_v0 main_v1
  let main_c : IVec S_ 1 := constantI S_ 1 1#1
  let main_v3 : IVec S_ 1 := (fun x v => Host.reduce IntOp.andi x v reducesTo_S400000x64_S_d0_1 h_S_) main_v2 main_c
  let main_v4 : FVec F S400000x6 .f32 := Host.absf main_arg1
  let main_cst_0 : FVec F S_ .f32 := constant S_ .f32 0x7F800000#32
  let main_v5 : FVec F S400000x6 .f32 := broadcastInDim S400000x6 ![] bcast_S_S400000x6 main_cst_0
  let main_v6 : IVec S400000x6 1 := cmpf .olt main_v4 main_v5
  let main_c_1 : IVec S_ 1 := constantI S_ 1 1#1
  let main_v7 : IVec S_ 1 := (fun x v => Host.reduce IntOp.andi x v reducesTo_S400000x6_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S400000x64 : Shape := ⟨2, ![400000, 64]⟩
abbrev S400000x6 : Shape := ⟨2, ![400000, 6]⟩
abbrev S64x32 : Shape := ⟨2, ![64, 32]⟩
abbrev S32 : Shape := ⟨1, ![32]⟩
abbrev S198x32 : Shape := ⟨2, ![198, 32]⟩
abbrev S32x32 : Shape := ⟨2, ![32, 32]⟩
abbrev S32x6 : Shape := ⟨2, ![32, 6]⟩
abbrev S6 : Shape := ⟨1, ![6]⟩
abbrev S32x1 : Shape := ⟨2, ![32, 1]⟩
abbrev S1 : Shape := ⟨1, ![1]⟩
abbrev S400000x32 : Shape := ⟨2, ![400000, 32]⟩
abbrev S400000x1 : Shape := ⟨2, ![400000, 1]⟩
abbrev S10000x64 : Shape := ⟨2, ![10000, 64]⟩
abbrev S10000x32 : Shape := ⟨2, ![10000, 32]⟩
abbrev S10000x1 : Shape := ⟨2, ![10000, 1]⟩
abbrev S1x32 : Shape := ⟨2, ![1, 32]⟩
abbrev S1x1 : Shape := ⟨2, ![1, 1]⟩
abbrev S_ : Shape := ⟨0, ![]⟩
abbrev S400000x6x1 : Shape := ⟨3, ![400000, 6, 1]⟩
abbrev S400000x6x32 : Shape := ⟨3, ![400000, 6, 32]⟩
abbrev S400000x7 : Shape := ⟨2, ![400000, 7]⟩
abbrev S2000x32 : Shape := ⟨2, ![2000, 32]⟩
abbrev S2000x6x32 : Shape := ⟨3, ![2000, 6, 32]⟩
abbrev S2000x6 : Shape := ⟨2, ![2000, 6]⟩
abbrev S2000x1 : Shape := ⟨2, ![2000, 1]⟩
abbrev S2000x7 : Shape := ⟨2, ![2000, 7]⟩
abbrev S2000x1x32 : Shape := ⟨3, ![2000, 1, 32]⟩
abbrev S1x6 : Shape := ⟨2, ![1, 6]⟩
abbrev S2000 : Shape := ⟨1, ![2000]⟩

abbrev nBuf : Space → Nat
  | .hbm => 41
  | .vmem => 30
  | .smem => 0
  | _ => 0

abbrev bufTy : (tb : Table) → Fin (tcTables nBuf tb) → BufTy
  | .hbm, ⟨0, _⟩ => ⟨S400000x64, .f32⟩
  | .hbm, ⟨1, _⟩ => ⟨S400000x6, .f32⟩
  | .hbm, ⟨2, _⟩ => ⟨S400000x6, .i32⟩
  | .hbm, ⟨3, _⟩ => ⟨S64x32, .f32⟩
  | .hbm, ⟨4, _⟩ => ⟨S32, .f32⟩
  | .hbm, ⟨5, _⟩ => ⟨S198x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x6, .f32⟩
  | .hbm, ⟨10, _⟩ => ⟨S6, .f32⟩
  | .hbm, ⟨11, _⟩ => ⟨S64x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x1, .f32⟩
  | .hbm, ⟨16, _⟩ => ⟨S1, .f32⟩
  | .hbm, ⟨17, _⟩ => ⟨S400000x32, .f32⟩
  | .hbm, ⟨18, _⟩ => ⟨S400000x1, .f32⟩
  | .hbm, ⟨19, _⟩ => ⟨S_, .i32⟩
  | .hbm, ⟨20, _⟩ => ⟨S400000x6, .i32⟩
  | .hbm, ⟨21, _⟩ => ⟨S400000x6, .i32⟩
  | .hbm, ⟨22, _⟩ => ⟨S_, .i32⟩
  | .hbm, ⟨23, _⟩ => ⟨S400000x6, .i32⟩
  | .hbm, ⟨24, _⟩ => ⟨S400000x6, .i1⟩
  | .hbm, ⟨25, _⟩ => ⟨S_, .i32⟩
  | .hbm, ⟨26, _⟩ => ⟨S400000x6, .i32⟩
  | .hbm, ⟨27, _⟩ => ⟨S400000x6, .i32⟩
  | .hbm, ⟨28, _⟩ => ⟨S400000x6, .i32⟩
  | .hbm, ⟨29, _⟩ => ⟨S400000x6x1, .i32⟩
  | .hbm, ⟨30, _⟩ => ⟨S400000x6x32, .f32⟩
  | .hbm, ⟨31, _⟩ => ⟨S_, .i32⟩
  | .hbm, ⟨32, _⟩ => ⟨S400000x6, .i32⟩
  | .hbm, ⟨33, _⟩ => ⟨S400000x6, .i1⟩
  | .hbm, ⟨34, _⟩ => ⟨S400000x6x1, .i1⟩
  | .hbm, ⟨35, _⟩ => ⟨S_, .f32⟩
  | .hbm, ⟨36, _⟩ => ⟨S_, .f32⟩
  | .hbm, ⟨37, _⟩ => ⟨S400000x6x32, .i1⟩
  | .hbm, ⟨38, _⟩ => ⟨S400000x6x32, .f32⟩
  | .hbm, ⟨39, _⟩ => ⟨S400000x6x32, .f32⟩
  | .hbm, ⟨40, _⟩ => ⟨S400000x7, .f32⟩
  | .local _ .vmem, ⟨0, _⟩ => ⟨S10000x64, .f32⟩
  | .local _ .vmem, ⟨1, _⟩ => ⟨S10000x64, .f32⟩
  | .local _ .vmem, ⟨2, _⟩ => ⟨S64x32, .f32⟩
  | .local _ .vmem, ⟨3, _⟩ => ⟨S32, .f32⟩
  | .local _ .vmem, ⟨4, _⟩ => ⟨S64x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S32x1, .f32⟩
  | .local _ .vmem, ⟨9, _⟩ => ⟨S1, .f32⟩
  | .local _ .vmem, ⟨10, _⟩ => ⟨S10000x32, .f32⟩
  | .local _ .vmem, ⟨11, _⟩ => ⟨S10000x32, .f32⟩
  | .local _ .vmem, ⟨12, _⟩ => ⟨S10000x1, .f32⟩
  | .local _ .vmem, ⟨13, _⟩ => ⟨S10000x1, .f32⟩
  | .local _ .vmem, ⟨14, _⟩ => ⟨S2000x32, .f32⟩
  | .local _ .vmem, ⟨15, _⟩ => ⟨S2000x32, .f32⟩
  | .local _ .vmem, ⟨16, _⟩ => ⟨S2000x6x32, .f32⟩
  | .local _ .vmem, ⟨17, _⟩ => ⟨S2000x6x32, .f32⟩
  | .local _ .vmem, ⟨18, _⟩ => ⟨S2000x6, .f32⟩
  | .local _ .vmem, ⟨19, _⟩ => ⟨S2000x6, .f32⟩
  | .local _ .vmem, ⟨20, _⟩ => ⟨S2000x1, .f32⟩
  | .local _ .vmem, ⟨21, _⟩ => ⟨S2000x1, .f32⟩
  | .local _ .vmem, ⟨22, _⟩ => ⟨S198x32, .f32⟩
  | .local _ .vmem, ⟨23, _⟩ => ⟨S32, .f32⟩
  | .local _ .vmem, ⟨24, _⟩ => ⟨S32x32, .f32⟩
  | .local _ .vmem, ⟨25, _⟩ => ⟨S32, .f32⟩
  | .local _ .vmem, ⟨26, _⟩ => ⟨S32x6, .f32⟩
  | .local _ .vmem, ⟨27, _⟩ => ⟨S6, .f32⟩
  | .local _ .vmem, ⟨28, _⟩ => ⟨S2000x7, .f32⟩
  | .local _ .vmem, ⟨29, _⟩ => ⟨S2000x7, .f32⟩
  | _, _ => ⟨S400000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v13 : Ref sig .tc := ⟨.hbm, 39, rfl⟩
abbrev main_v14 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S10000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x6x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x6 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S198x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x6 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S6 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x7 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  bcast_S_S400000x6 : S_.BroadcastsInDim S400000x6 (![] : Fin 0 → Fin S400000x6.rank)
  bcast_S400000x6_S400000x6x1_0_1 : S400000x6.BroadcastsInDim S400000x6x1 (![0, 1] : Fin 2 → Fin S400000x6x1.rank)
  bcast_S400000x6x1_S400000x6x32_0_1_2 : S400000x6x1.BroadcastsInDim S400000x6x32 (![0, 1, 2] : Fin 3 → Fin S400000x6x32.rank)
  bcast_S_S400000x6x32 : S_.BroadcastsInDim S400000x6x32 (![] : Fin 0 → Fin S400000x6x32.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x6x32_S2000x6x32_0_0_0 : ∀ a, (![0, 0, 0] : Fin 3 → Nat) a + S2000x6x32.size a ≤ S2000x6x32.size a
  h_S2000x6x32 : 0 < S2000x6x32.numel
  shapeCasts_S2000x6x32_S2000x6x32 : S2000x6x32.ShapeCasts S2000x6x32
  inb_S2000x6_S2000x6_0_0 : ∀ a, (![0, 0] : Fin 2 → Nat) a + S2000x6.size a ≤ S2000x6.size a
  h_S2000x6 : 0 < S2000x6.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S198x32_S198x32_0_0 : ∀ a, (![0, 0] : Fin 2 → Nat) a + S198x32.size a ≤ S198x32.size a
  h_S198x32 : 0 < S198x32.numel
  slices_S2000x6x32_o0_0_0_S2000x1x32 : S2000x6x32.Slices ![0, 0, 0] S2000x1x32
  shapeCasts_S2000x1x32_S2000x32 : S2000x1x32.ShapeCasts S2000x32
  slices_S2000x6_o0_0_S2000x1 : S2000x6.Slices ![0, 0] S2000x1
  slices_S198x32_o0_0_S32x32 : S198x32.Slices ![0, 0] S32x32
  slices_S198x32_o32_0_S1x32 : S198x32.Slices ![32, 0] S1x32
  broadcasts_S2000x1_S2000x32 : S2000x1.Broadcasts S2000x32
  broadcasts_S1x32_S2000x32 : S1x32.Broadcasts S2000x32
  slices_S2000x6x32_o0_1_0_S2000x1x32 : S2000x6x32.Slices ![0, 1, 0] S2000x1x32
  slices_S2000x6_o0_1_S2000x1 : S2000x6.Slices ![0, 1] S2000x1
  slices_S198x32_o33_0_S32x32 : S198x32.Slices ![33, 0] S32x32
  slices_S198x32_o65_0_S1x32 : S198x32.Slices ![65, 0] S1x32
  slices_S2000x6x32_o0_2_0_S2000x1x32 : S2000x6x32.Slices ![0, 2, 0] S2000x1x32
  slices_S2000x6_o0_2_S2000x1 : S2000x6.Slices ![0, 2] S2000x1
  slices_S198x32_o66_0_S32x32 : S198x32.Slices ![66, 0] S32x32
  slices_S198x32_o98_0_S1x32 : S198x32.Slices ![98, 0] S1x32
  slices_S2000x6x32_o0_3_0_S2000x1x32 : S2000x6x32.Slices ![0, 3, 0] S2000x1x32
  slices_S2000x6_o0_3_S2000x1 : S2000x6.Slices ![0, 3] S2000x1
  slices_S198x32_o99_0_S32x32 : S198x32.Slices ![99, 0] S32x32
  slices_S198x32_o131_0_S1x32 : S198x32.Slices ![131, 0] S1x32
  slices_S2000x6x32_o0_4_0_S2000x1x32 : S2000x6x32.Slices ![0, 4, 0] S2000x1x32
  slices_S2000x6_o0_4_S2000x1 : S2000x6.Slices ![0, 4] S2000x1
  slices_S198x32_o132_0_S32x32 : S198x32.Slices ![132, 0] S32x32
  slices_S198x32_o164_0_S1x32 : S198x32.Slices ![164, 0] S1x32
  slices_S2000x6x32_o0_5_0_S2000x1x32 : S2000x6x32.Slices ![0, 5, 0] S2000x1x32
  slices_S2000x6_o0_5_S2000x1 : S2000x6.Slices ![0, 5] S2000x1
  slices_S198x32_o165_0_S32x32 : S198x32.Slices ![165, 0] S32x32
  slices_S198x32_o197_0_S1x32 : S198x32.Slices ![197, 0] S1x32
  inb_S32x6_S32x6_0_0 : ∀ a, (![0, 0] : Fin 2 → Nat) a + S32x6.size a ≤ S32x6.size a
  h_S32x6 : 0 < S32x6.numel
  inb_S6_S6_0 : ∀ a, (![0] : Fin 1 → Nat) a + S6.size a ≤ S6.size a
  h_S6 : 0 < S6.numel
  shapeCasts_S6_S1x6 : S6.ShapeCasts S1x6
  broadcasts_S1x6_S2000x6 : S1x6.Broadcasts S2000x6
  concatenates_S2000x1_S2000x6_S2000x7_d1 : Shape.Concatenates [S2000x1, S2000x6] S2000x7 1
  reduces_S2000x7_S2000 : S2000x7.Reduces [1] S2000
  shapeCasts_S2000_S2000x1 : S2000.ShapeCasts S2000x1
  broadcasts_S2000x1_S2000x7 : S2000x1.Broadcasts S2000x7
  inb_S2000x7_S2000x7_0_0 : ∀ a, (![0, 0] : Fin 2 → Nat) a + S2000x7.size a ≤ S2000x7.size a
  h_S2000x7 : 0 < S2000x7.numel
  dot_S10000x64_S64x32_S10000x32_1_0_0_1_n_n_wf : DotDims.WF S10000x64 S64x32 S10000x32 [1] [0] [0] [1] [] []
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  gather_S400000x32_S400000x6x1_S400000x6x32_2_0_n_n_0_2_132_wf : GatherDims.WF S400000x32 S400000x6x1 S400000x6x32 [2] [0] [] [0] [] 2 ![1, 32]
  dot_S2000x32_S32x32_S2000x32_1_0_0_1_n_n_wf : DotDims.WF S2000x32 S32x32 S2000x32 [1] [0] [0] [1] [] []
  dot_S2000x32_S32x6_S2000x6_1_0_0_1_n_n_wf : DotDims.WF S2000x32 S32x6 S2000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S400000x64.size a
  hwx0_0 : ∀ i : grid0.Coords, EltTy.bits .f32 = 32 ∨ (Rect.block (s := S400000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x32.size a ≤ S400000x32.size a
  hwx0_9 : ∀ i : grid0.Coords, EltTy.bits .f32 = 32 ∨ (Rect.block (s := S400000x32) S10000x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x1.size a ≤ S400000x1.size a
  hwx0_10 : ∀ i : grid0.Coords, EltTy.bits .f32 = 32 ∨ (Rect.block (s := S400000x1) S10000x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S400000x32.size a
  hwx1_0 : ∀ i : grid1.Coords, EltTy.bits .f32 = 32 ∨ (Rect.block (s := S400000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x6x32.size a ≤ S400000x6x32.size a
  hwx1_1 : ∀ i : grid1.Coords, EltTy.bits .f32 = 32 ∨ (Rect.block (s := S400000x6x32) S2000x6x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x6.size a ≤ S400000x6.size a
  hwx1_2 : ∀ i : grid1.Coords, EltTy.bits .f32 = 32 ∨ (Rect.block (s := S400000x6) S2000x6.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S400000x1.size a
  hwx1_3 : ∀ i : grid1.Coords, EltTy.bits .f32 = 32 ∨ (Rect.block (s := S400000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S198x32.size a ≤ S198x32.size a
  hwx1_4 : ∀ i : grid1.Coords, EltTy.bits .f32 = 32 ∨ (Rect.block (s := S198x32) S198x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x32.size a ≤ S32x32.size a
  hwx1_6 : ∀ i : grid1.Coords, EltTy.bits .f32 = 32 ∨ (Rect.block (s := S32x32) S32x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32.size a ≤ S32.size a
  hwx1_7 : ∀ i : grid1.Coords, EltTy.bits .f32 = 32 ∨ (Rect.block (s := S32) S32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x6.size a ≤ S32x6.size a
  hwx1_8 : ∀ i : grid1.Coords, EltTy.bits .f32 = 32 ∨ (Rect.block (s := S32x6) S32x6.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S6.size a ≤ S6.size a
  hwx1_9 : ∀ i : grid1.Coords, EltTy.bits .f32 = 32 ∨ (Rect.block (s := S6) S6.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x7.size a ≤ S400000x7.size a
  hwx1_10 : ∀ i : grid1.Coords, EltTy.bits .f32 = 32 ∨ (Rect.block (s := S400000x7) S2000x7.size (cc1_transform_10 i) (hinb1_10 i)).WholeWords (EltTy.packing .f32)

variable [Facts₀]

def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S400000x32_S400000x6x1_S400000x6x32_2_0_n_n_0_2_132 : GatherDims S400000x32 S400000x6x1 S400000x6x32 where
  offsetDims := [2]
  collapsedSliceDims := [0]
  operandBatchingDims := []
  startIndicesBatchingDims := []
  startIndexMap := [0]
  indexVectorDim := 2
  sliceSizes := ![1, 32]
  wf := gather_S400000x32_S400000x6x1_S400000x6x32_2_0_n_n_0_2_132_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x6_S2000x6_1_0_0_1_n_n : DotDims S2000x32 S32x6 S2000x6 where
  lhsContracting := [1]
  rhsContracting := [0]
  lhsNonContracting := [0]
  rhsNonContracting := [1]
  lhsBatch := []
  rhsBatch := []
  wf := dot_S2000x32_S32x6_S2000x6_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg15) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S10000x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S10000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v0_0) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x6x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x6.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S198x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S32x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S32x6.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S6.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v14) S2000x7.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S400000x64 : Shape := ⟨2, ![400000, 64]⟩
abbrev S400000x6 : Shape := ⟨2, ![400000, 6]⟩
abbrev S64x32 : Shape := ⟨2, ![64, 32]⟩
abbrev S32 : Shape := ⟨1, ![32]⟩
abbrev S198x32 : Shape := ⟨2, ![198, 32]⟩
abbrev S32x32 : Shape := ⟨2, ![32, 32]⟩
abbrev S32x6 : Shape := ⟨2, ![32, 6]⟩
abbrev S6 : Shape := ⟨1, ![6]⟩
abbrev S32x1 : Shape := ⟨2, ![32, 1]⟩
abbrev S1 : Shape := ⟨1, ![1]⟩
abbrev S400000x32 : Shape := ⟨2, ![400000, 32]⟩
abbrev S1x32 : Shape := ⟨2, ![1, 32]⟩
abbrev S_ : Shape := ⟨0, ![]⟩
abbrev S400000x6x1 : Shape := ⟨3, ![400000, 6, 1]⟩
abbrev S400000x6x32 : Shape := ⟨3, ![400000, 6, 32]⟩
abbrev S400000x1x32 : Shape := ⟨3, ![400000, 1, 32]⟩
abbrev S400000x6x33 : Shape := ⟨3, ![400000, 6, 33]⟩
abbrev S400000x198 : Shape := ⟨2, ![400000, 198]⟩
abbrev S1x6 : Shape := ⟨2, ![1, 6]⟩
abbrev S400000x1 : Shape := ⟨2, ![400000, 1]⟩
abbrev S1x1 : Shape := ⟨2, ![1, 1]⟩
abbrev S400000x7 : Shape := ⟨2, ![400000, 7]⟩
abbrev S400000 : Shape := ⟨1, ![400000]⟩

abbrev nBuf : Space → Nat
  | .hbm => 162
  | .vmem => 0
  | .smem => 0
  | _ => 0

abbrev hbmTy0_0 (i : Nat) : BufTy := match i % 128 with
  | 0 => ⟨S400000x64, .f32⟩
  | 1 => ⟨S400000x6, .f32⟩
  | 2 => ⟨S400000x6, .i32⟩
  | 3 => ⟨S64x32, .f32⟩
  | 4 => ⟨S32, .f32⟩
  | 5 => ⟨S198x32, .f32⟩
  | 6 => ⟨S32, .f32⟩
  | 7 => ⟨S32x32, .f32⟩
  | 8 => ⟨S32, .f32⟩
  | 9 => ⟨S32x6, .f32⟩
  | 10 => ⟨S6, .f32⟩
  | 11 => ⟨S64x32, .f32⟩
  | 12 => ⟨S32, .f32⟩
  | 13 => ⟨S32x32, .f32⟩
  | 14 => ⟨S32, .f32⟩
  | 15 => ⟨S32x1, .f32⟩
  | 16 => ⟨S1, .f32⟩
  | 17 => ⟨S400000x32, .f32⟩
  | 18 => ⟨S1x32, .f32⟩
  | 19 => ⟨S400000x32, .f32⟩
  | 20 => ⟨S400000x32, .f32⟩
  | 21 => ⟨S_, .f32⟩
  | 22 => ⟨S400000x32, .f32⟩
  | 23 => ⟨S400000x32, .i1⟩
  | 24 => ⟨S_, .f32⟩
  | 25 => ⟨S400000x32, .f32⟩
  | 26 => ⟨S400000x32, .i1⟩
  | 27 => ⟨S_, .f32⟩
  | 28 => ⟨S_, .f32⟩
  | 29 => ⟨S400000x32, .f32⟩
  | 30 => ⟨S400000x32, .f32⟩
  | 31 => ⟨S400000x32, .f32⟩
  | 32 => ⟨S_, .f32⟩
  | 33 => ⟨S400000x32, .f32⟩
  | 34 => ⟨S400000x32, .f32⟩
  | 35 => ⟨S400000x32, .f32⟩
  | 36 => ⟨S_, .i32⟩
  | 37 => ⟨S400000x6, .i32⟩
  | 38 => ⟨S400000x6, .i32⟩
  | 39 => ⟨S_, .i32⟩
  | 40 => ⟨S400000x6, .i32⟩
  | 41 => ⟨S400000x6, .i1⟩
  | 42 => ⟨S_, .i32⟩
  | 43 => ⟨S400000x6, .i32⟩
  | 44 => ⟨S400000x6, .i32⟩
  | 45 => ⟨S400000x6, .i32⟩
  | 46 => ⟨S400000x6x1, .i32⟩
  | 47 => ⟨S400000x6x32, .f32⟩
  | 48 => ⟨S400000x6x1, .i32⟩
  | 49 => ⟨S_, .i32⟩
  | 50 => ⟨S400000x6x1, .i32⟩
  | 51 => ⟨S400000x6x1, .i1⟩
  | 52 => ⟨S_, .f32⟩
  | 53 => ⟨S_, .f32⟩
  | 54 => ⟨S400000x6x32, .i1⟩
  | 55 => ⟨S400000x6x32, .f32⟩
  | 56 => ⟨S400000x6x32, .f32⟩
  | 57 => ⟨S400000x1x32, .f32⟩
  | 58 => ⟨S400000x6x32, .f32⟩
  | 59 => ⟨S400000x6x32, .f32⟩
  | 60 => ⟨S400000x6x1, .f32⟩
  | 61 => ⟨S400000x6x33, .f32⟩
  | 62 => ⟨S400000x198, .f32⟩
  | 63 => ⟨S400000x32, .f32⟩
  | 64 => ⟨S1x32, .f32⟩
  | 65 => ⟨S400000x32, .f32⟩
  | 66 => ⟨S400000x32, .f32⟩
  | 67 => ⟨S_, .f32⟩
  | 68 => ⟨S400000x32, .f32⟩
  | 69 => ⟨S400000x32, .i1⟩
  | 70 => ⟨S_, .f32⟩
  | 71 => ⟨S400000x32, .f32⟩
  | 72 => ⟨S400000x32, .i1⟩
  | 73 => ⟨S_, .f32⟩
  | 74 => ⟨S_, .f32⟩
  | 75 => ⟨S400000x32, .f32⟩
  | 76 => ⟨S400000x32, .f32⟩
  | 77 => ⟨S400000x32, .f32⟩
  | 78 => ⟨S_, .f32⟩
  | 79 => ⟨S400000x32, .f32⟩
  | 80 => ⟨S400000x32, .f32⟩
  | 81 => ⟨S400000x32, .f32⟩
  | 82 => ⟨S400000x32, .f32⟩
  | 83 => ⟨S1x32, .f32⟩
  | 84 => ⟨S400000x32, .f32⟩
  | 85 => ⟨S400000x32, .f32⟩
  | 86 => ⟨S_, .f32⟩
  | 87 => ⟨S400000x32, .f32⟩
  | 88 => ⟨S400000x32, .i1⟩
  | 89 => ⟨S_, .f32⟩
  | 90 => ⟨S400000x32, .f32⟩
  | 91 => ⟨S400000x32, .i1⟩
  | 92 => ⟨S_, .f32⟩
  | 93 => ⟨S_, .f32⟩
  | 94 => ⟨S400000x32, .f32⟩
  | 95 => ⟨S400000x32, .f32⟩
  | 96 => ⟨S400000x32, .f32⟩
  | 97 => ⟨S_, .f32⟩
  | 98 => ⟨S400000x32, .f32⟩
  | 99 => ⟨S400000x32, .f32⟩
  | 100 => ⟨S400000x32, .f32⟩
  | 101 => ⟨S400000x6, .f32⟩
  | 102 => ⟨S1x6, .f32⟩
  | 103 => ⟨S400000x6, .f32⟩
  | 104 => ⟨S400000x6, .f32⟩
  | 105 => ⟨S400000x32, .f32⟩
  | 106 => ⟨S1x32, .f32⟩
  | 107 => ⟨S400000x32, .f32⟩
  | 108 => ⟨S400000x32, .f32⟩
  | 109 => ⟨S_, .f32⟩
  | 110 => ⟨S400000x32, .f32⟩
  | 111 => ⟨S400000x32, .i1⟩
  | 112 => ⟨S_, .f32⟩
  | 113 => ⟨S400000x32, .f32⟩
  | 114 => ⟨S400000x32, .i1⟩
  | 115 => ⟨S_, .f32⟩
  | 116 => ⟨S_, .f32⟩
  | 117 => ⟨S400000x32, .f32⟩
  | 118 => ⟨S400000x32, .f32⟩
  | 119 => ⟨S400000x32, .f32⟩
  | 120 => ⟨S_, .f32⟩
  | 121 => ⟨S400000x32, .f32⟩
  | 122 => ⟨S400000x32, .f32⟩
  | 123 => ⟨S400000x32, .f32⟩
  | 124 => ⟨S400000x32, .f32⟩
  | 125 => ⟨S1x32, .f32⟩
  | 126 => ⟨S400000x32, .f32⟩
  | 127 => ⟨S400000x32, .f32⟩
  | _ => ⟨S400000x64, .f32⟩

abbrev hbmTy0_1 (i : Nat) : BufTy := match i % 128 with
  | 0 => ⟨S_, .f32⟩
  | 1 => ⟨S400000x32, .f32⟩
  | 2 => ⟨S400000x32, .i1⟩
  | 3 => ⟨S_, .f32⟩
  | 4 => ⟨S400000x32, .f32⟩
  | 5 => ⟨S400000x32, .i1⟩
  | 6 => ⟨S_, .f32⟩
  | 7 => ⟨S_, .f32⟩
  | 8 => ⟨S400000x32, .f32⟩
  | 9 => ⟨S400000x32, .f32⟩
  | 10 => ⟨S400000x32, .f32⟩
  | 11 => ⟨S_, .f32⟩
  | 12 => ⟨S400000x32, .f32⟩
  | 13 => ⟨S400000x32, .f32⟩
  | 14 => ⟨S400000x32, .f32⟩
  | 15 => ⟨S400000x1, .f32⟩
  | 16 => ⟨S1x1, .f32⟩
  | 17 => ⟨S400000x1, .f32⟩
  | 18 => ⟨S400000x1, .f32⟩
  | 19 => ⟨S400000x7, .f32⟩
  | 20 => ⟨S_, .f32⟩
  | 21 => ⟨S400000, .f32⟩
  | 22 => ⟨S_, .f32⟩
  | 23 => ⟨S400000, .f32⟩
  | 24 => ⟨S400000, .f32⟩
  | 25 => ⟨S400000x1, .f32⟩
  | 26 => ⟨S400000x7, .f32⟩
  | 27 => ⟨S400000x7, .f32⟩
  | 28 => ⟨S400000x7, .f32⟩
  | 29 => ⟨S_, .f32⟩
  | 30 => ⟨S400000, .f32⟩
  | 31 => ⟨S400000x1, .f32⟩
  | 32 => ⟨S400000x7, .f32⟩
  | 33 => ⟨S400000x7, .f32⟩
  | _ => ⟨S400000x64, .f32⟩

abbrev hbmTy (i : Nat) : BufTy := match i / 128 with
  | 0 => hbmTy0_0 i
  | 1 => hbmTy0_1 i
  | _ => ⟨S400000x64, .f32⟩

abbrev bufTy : (tb : Table) → Fin (tcTables nBuf tb) → BufTy
  | .hbm, ⟨i, _⟩ => hbmTy i
  | _, _ => ⟨S400000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_cst_1 : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_v4 : Ref sig .tc := ⟨.hbm, 30, rfl⟩
abbrev main_call0_v5 : Ref sig .tc := ⟨.hbm, 31, rfl⟩
abbrev main_call0_cst_2 : Ref sig .tc := ⟨.hbm, 32, rfl⟩
abbrev main_call0_v6 : Ref sig .tc := ⟨.hbm, 33, rfl⟩
abbrev main_call0_v7 : Ref sig .tc := ⟨.hbm, 34, rfl⟩
abbrev main_v4 : Ref sig .tc := ⟨.hbm, 35, rfl⟩
abbrev main_c : Ref sig .tc := ⟨.hbm, 36, rfl⟩
abbrev main_v5 : Ref sig .tc := ⟨.hbm, 37, rfl⟩
abbrev main_v6 : Ref sig .tc := ⟨.hbm, 38, rfl⟩
abbrev main_c_0 : Ref sig .tc := ⟨.hbm, 39, rfl⟩
abbrev main_v7 : Ref sig .tc := ⟨.hbm, 40, rfl⟩
abbrev main_v8 : Ref sig .tc := ⟨.hbm, 41, rfl⟩
abbrev main_c_1 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_2 : Ref sig .tc := ⟨.hbm, 49, rfl⟩
abbrev main_v15 : Ref sig .tc := ⟨.hbm, 50, rfl⟩
abbrev main_v16 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_cst_0 : Ref sig .tc := ⟨.hbm, 70, rfl⟩
abbrev main_call2_v2 : Ref sig .tc := ⟨.hbm, 71, rfl⟩
abbrev main_call2_v3 : Ref sig .tc := ⟨.hbm, 72, rfl⟩
abbrev main_call2_cst_1 : Ref sig .tc := ⟨.hbm, 73, rfl⟩
abbrev main_call2_call0_v0 : Ref sig .tc := ⟨.hbm, 74, rfl⟩
abbrev main_call2_call0_v1 : Ref sig .tc := ⟨.hbm, 75, rfl⟩
abbrev main_call2_v4 : Ref sig .tc := ⟨.hbm, 76, rfl⟩
abbrev main_call2_v5 : Ref sig .tc := ⟨.hbm, 77, rfl⟩
abbrev main_call2_cst_2 : Ref sig .tc := ⟨.hbm, 78, rfl⟩
abbrev main_call2_v6 : Ref sig .tc := ⟨.hbm, 79, rfl⟩
abbrev main_call2_v7 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_cst_0 : Ref sig .tc := ⟨.hbm, 89, rfl⟩
abbrev main_call3_v2 : Ref sig .tc := ⟨.hbm, 90, rfl⟩
abbrev main_call3_v3 : Ref sig .tc := ⟨.hbm, 91, rfl⟩
abbrev main_call3_cst_1 : Ref sig .tc := ⟨.hbm, 92, rfl⟩
abbrev main_call3_call0_v0 : Ref sig .tc := ⟨.hbm, 93, rfl⟩
abbrev main_call3_call0_v1 : Ref sig .tc := ⟨.hbm, 94, rfl⟩
abbrev main_call3_v4 : Ref sig .tc := ⟨.hbm, 95, rfl⟩
abbrev main_call3_v5 : Ref sig .tc := ⟨.hbm, 96, rfl⟩
abbrev main_call3_cst_2 : Ref sig .tc := ⟨.hbm, 97, rfl⟩
abbrev main_call3_v6 : Ref sig .tc := ⟨.hbm, 98, rfl⟩
abbrev main_call3_v7 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_call4_cst : Ref sig .tc := ⟨.hbm, 109, rfl⟩
abbrev main_call4_v0 : Ref sig .tc := ⟨.hbm, 110, rfl⟩
abbrev main_call4_v1 : Ref sig .tc := ⟨.hbm, 111, rfl⟩
abbrev main_call4_cst_0 : Ref sig .tc := ⟨.hbm, 112, rfl⟩
abbrev main_call4_v2 : Ref sig .tc := ⟨.hbm, 113, rfl⟩
abbrev main_call4_v3 : Ref sig .tc := ⟨.hbm, 114, rfl⟩
abbrev main_call4_cst_1 : Ref sig .tc := ⟨.hbm, 115, rfl⟩
abbrev main_call4_call0_v0 : Ref sig .tc := ⟨.hbm, 116, rfl⟩
abbrev main_call4_call0_v1 : Ref sig .tc := ⟨.hbm, 117, rfl⟩
abbrev main_call4_v4 : Ref sig .tc := ⟨.hbm, 118, rfl⟩
abbrev main_call4_v5 : Ref sig .tc := ⟨.hbm, 119, rfl⟩
abbrev main_call4_cst_2 : Ref sig .tc := ⟨.hbm, 120, rfl⟩
abbrev main_call4_v6 : Ref sig .tc := ⟨.hbm, 121, rfl⟩
abbrev main_call4_v7 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_call5_cst : Ref sig .tc := ⟨.hbm, 128, rfl⟩
abbrev main_call5_v0 : Ref sig .tc := ⟨.hbm, 129, rfl⟩
abbrev main_call5_v1 : Ref sig .tc := ⟨.hbm, 130, rfl⟩
abbrev main_call5_cst_0 : Ref sig .tc := ⟨.hbm, 131, rfl⟩
abbrev main_call5_v2 : Ref sig .tc := ⟨.hbm, 132, rfl⟩
abbrev main_call5_v3 : Ref sig .tc := ⟨.hbm, 133, rfl⟩
abbrev main_call5_cst_1 : Ref sig .tc := ⟨.hbm, 134, rfl⟩
abbrev main_call5_call0_v0 : Ref sig .tc := ⟨.hbm, 135, rfl⟩
abbrev main_call5_call0_v1 : Ref sig .tc := ⟨.hbm, 136, rfl⟩
abbrev main_call5_v4 : Ref sig .tc := ⟨.hbm, 137, rfl⟩
abbrev main_call5_v5 : Ref sig .tc := ⟨.hbm, 138, rfl⟩
abbrev main_call5_cst_2 : Ref sig .tc := ⟨.hbm, 139, rfl⟩
abbrev main_call5_v6 : Ref sig .tc := ⟨.hbm, 140, rfl⟩
abbrev main_call5_v7 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_cst_3 : Ref sig .tc := ⟨.hbm, 148, rfl⟩
abbrev main_v53 : Ref sig .tc := ⟨.hbm, 149, rfl⟩
abbrev main_cst_4 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_cst_5 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S400000x32_0_1 : S1x32.BroadcastsInDim S400000x32 (![0, 1] : Fin 2 → Fin S400000x32.rank)
  bcast_S_S400000x32 : S_.BroadcastsInDim S400000x32 (![] : Fin 0 → Fin S400000x32.rank)
  bcast_S_S400000x6 : S_.BroadcastsInDim S400000x6 (![] : Fin 0 → Fin S400000x6.rank)
  bcast_S400000x6_S400000x6x1_0_1 : S400000x6.BroadcastsInDim S400000x6x1 (![0, 1] : Fin 2 → Fin S400000x6x1.rank)
  bcast_S_S400000x6x1 : S_.BroadcastsInDim S400000x6x1 (![] : Fin 0 → Fin S400000x6x1.rank)
  bcast_S400000x6x1_S400000x6x32_0_1_2 : S400000x6x1.BroadcastsInDim S400000x6x32 (![0, 1, 2] : Fin 3 → Fin S400000x6x32.rank)
  bcast_S_S400000x6x32 : S_.BroadcastsInDim S400000x6x32 (![] : Fin 0 → Fin S400000x6x32.rank)
  bcast_S400000x32_S400000x1x32_0_2 : S400000x32.BroadcastsInDim S400000x1x32 (![0, 2] : Fin 2 → Fin S400000x1x32.rank)
  bcast_S400000x1x32_S400000x6x32_0_1_2 : S400000x1x32.BroadcastsInDim S400000x6x32 (![0, 1, 2] : Fin 3 → Fin S400000x6x32.rank)
  concatenates_S400000x6x32_S400000x6x1_S400000x6x33_d2 : Shape.Concatenates [S400000x6x32, S400000x6x1] S400000x6x33 2
  shapeCasts_S400000x6x33_S400000x198 : S400000x6x33.ShapeCasts S400000x198
  bcast_S6_S1x6_1 : S6.BroadcastsInDim S1x6 (![1] : Fin 1 → Fin S1x6.rank)
  bcast_S1x6_S400000x6_0_1 : S1x6.BroadcastsInDim S400000x6 (![0, 1] : Fin 2 → Fin S400000x6.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  concatenates_S400000x1_S400000x6_S400000x7_d1 : Shape.Concatenates [S400000x1, S400000x6] S400000x7 1
  reducesTo_S400000x7_S400000_d1 : S400000x7.ReducesTo [1] S400000
  h_S_ : 0 < S_.numel
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x7_0_1 : S400000x1.BroadcastsInDim S400000x7 (![0, 1] : Fin 2 → Fin S400000x7.rank)
  dot_S400000x64_S64x32_S400000x32_1_0_0_1_n_n_wf : DotDims.WF S400000x64 S64x32 S400000x32 [1] [0] [0] [1] [] []
  gather_S400000x32_S400000x6x1_S400000x6x32_2_0_n_n_0_2_132_wf : GatherDims.WF S400000x32 S400000x6x1 S400000x6x32 [2] [0] [] [0] [] 2 ![1, 32]
  dot_S400000x198_S198x32_S400000x32_1_0_0_1_n_n_wf : DotDims.WF S400000x198 S198x32 S400000x32 [1] [0] [0] [1] [] []
  dot_S400000x32_S32x32_S400000x32_1_0_0_1_n_n_wf : DotDims.WF S400000x32 S32x32 S400000x32 [1] [0] [0] [1] [] []
  dot_S400000x32_S32x6_S400000x6_1_0_0_1_n_n_wf : DotDims.WF S400000x32 S32x6 S400000x6 [1] [0] [0] [1] [] []
  dot_S400000x32_S32x1_S400000x1_1_0_0_1_n_n_wf : DotDims.WF S400000x32 S32x1 S400000x1 [1] [0] [0] [1] [] []

variable [Facts₀]

def dot_S400000x64_S64x32_S400000x32_1_0_0_1_n_n : DotDims S400000x64 S64x32 S400000x32 where
  lhsContracting := [1]
  rhsContracting := [0]
  lhsNonContracting := [0]
  rhsNonContracting := [1]
  lhsBatch := []
  rhsBatch := []
  wf := dot_S400000x64_S64x32_S400000x32_1_0_0_1_n_n_wf
def gather_S400000x32_S400000x6x1_S400000x6x32_2_0_n_n_0_2_132 : GatherDims S400000x32 S400000x6x1 S400000x6x32 where
  offsetDims := [2]
  collapsedSliceDims := [0]
  operandBatchingDims := []
  startIndicesBatchingDims := []
  startIndexMap := [0]
  indexVectorDim := 2
  sliceSizes := ![1, 32]
  wf := gather_S400000x32_S400000x6x1_S400000x6x32_2_0_n_n_0_2_132_wf
def dot_S400000x198_S198x32_S400000x32_1_0_0_1_n_n : DotDims S400000x198 S198x32 S400000x32 where
  lhsContracting := [1]
  rhsContracting := [0]
  lhsNonContracting := [0]
  rhsNonContracting := [1]
  lhsBatch := []
  rhsBatch := []
  wf := dot_S400000x198_S198x32_S400000x32_1_0_0_1_n_n_wf
def dot_S400000x32_S32x32_S400000x32_1_0_0_1_n_n : DotDims S400000x32 S32x32 S400000x32 where
  lhsContracting := [1]
  rhsContracting := [0]
  lhsNonContracting := [0]
  rhsNonContracting := [1]
  lhsBatch := []
  rhsBatch := []
  wf := dot_S400000x32_S32x32_S400000x32_1_0_0_1_n_n_wf
def dot_S400000x32_S32x6_S400000x6_1_0_0_1_n_n : DotDims S400000x32 S32x6 S400000x6 where
  lhsContracting := [1]
  rhsContracting := [0]
  lhsNonContracting := [0]
  rhsNonContracting := [1]
  lhsBatch := []
  rhsBatch := []
  wf := dot_S400000x32_S32x6_S400000x6_1_0_0_1_n_n_wf
def dot_S400000x32_S32x1_S400000x1_1_0_0_1_n_n : DotDims S400000x32 S32x1 S400000x1 where
  lhsContracting := [1]
  rhsContracting := [0]
  lhsNonContracting := [0]
  rhsNonContracting := [1]
  lhsBatch := []
  rhsBatch := []
  wf := dot_S400000x32_S32x1_S400000x1_1_0_0_1_n_n_wf

class Facts : Prop extends Facts₀ where

variable [Facts]
-- ==== Proof.KernelRun.lean ====
/-
  The idealized kernel program's run with its result named: every weakly fair execution of @main terminates without a
  fault, leaves the argument arrays as launched, and leaves the result array at the contents the last region's
  write-backs give it (the fold `W4` of the generated frame: the launch memory, region 0's write-backs, the host
  operations between the regions, region 1's write-backs).
-/
import proofs.«133679_j23562190586025_2_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, at any float instance: the launch over @main's four segments (region, host operations, host operations,
    region), the last thread state read against the final state; the result array and each argument array read off
    the final contents `W4`. -/
theorem run : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c)⟩)

end Cert.KernelRun

end
-- ==== Proof.KernelHost.lean ====
/-
  The buffer contents the second region finds.  Between the two regions the host normalises the neighbour indices, gathers
  the neighbours' rows of the first region's feature array, and zeroes the rows whose index is negative; nothing else the
  second region reads is written after the first region: its feature array and self logits are the first region's outputs,
  the distances and the edge weights the launch contents.
-/
import proofs.«133679_j23562190586025_2_alg».proof.Proof.Gen.KernelIdeal.Frame
import Idealize.ShloMosaic.Lib.StableHlo.Run

set_option maxRecDepth 16384

noncomputable section

namespace Cert.KernelHost

open Idealize.ShloMosaic Idealize.ShloMosaic.TcCoe Idealize.ShloMosaic.Tactic Idealize.SL.Sem
open Cert.KernelIdeal Cert.KernelIdeal.Gen

variable {F : FTy → Type} [FloatOps F]

/-- The host operations between the regions as one function of the feature array f and the neighbour indices n: the
    rows of f at max(n, 0) (plus 400000 where that is negative), and 0.0 where n is negative. -/
def chain (f : FVec F S400000x32 .f32) (n : IVec S400000x6 32) : FVec F S400000x6x32 .f32 :=
  select
    (broadcastInDim S400000x6x32 ![0, 1, 2] bcast_S400000x6x1_S400000x6x32_0_1_2
      (broadcastInDim S400000x6x1 ![0, 1] bcast_S400000x6_S400000x6x1_0_1
        (cmpi CmpIPredicate.slt n (broadcastInDim S400000x6 ![] bcast_S_S400000x6 (constantI S_ 32 0#32)))))
    (broadcastInDim S400000x6x32 ![] bcast_S_S400000x6x32 (id (constant S_ FTy.f32 0x00000000#32)))
    (Host.gather gather_S400000x32_S400000x6x1_S400000x6x32_2_0_n_n_0_2_132 f
      (broadcastInDim S400000x6x1 ![0, 1] bcast_S400000x6_S400000x6x1_0_1
        (select
          (cmpi CmpIPredicate.slt
            (maxsi n (broadcastInDim S400000x6 ![] bcast_S_S400000x6 (constantI S_ 32 0#32)))
            (broadcastInDim S400000x6 ![] bcast_S_S400000x6 (constantI S_ 32 0#32)))
          (addi (maxsi n (broadcastInDim S400000x6 ![] bcast_S_S400000x6 (constantI S_ 32 0#32)))
            (broadcastInDim S400000x6 ![] bcast_S_S400000x6 (constantI S_ 32 400000#32)))
          (maxsi n (broadcastInDim S400000x6 ![] bcast_S_S400000x6 (constantI S_ 32 0#32))))))

variable (m : (ℓ : Loc nD τ sig) → Buf (Elt F) ℓ) (ρ : Dev nD → PrngReg)

set_option maxHeartbeats 2000000 in
/-- The gathered neighbour features the second region finds. -/
theorem gathered_eq (c : Dev nD) :
    W3 m ρ c (Proc.devRef .tc main_v13) = chain (W1 m ρ c (Proc.devRef .tc main_v0_0)) (W1 m ρ c (Proc.devRef .tc main_arg2)) := by
  dsimp only [W3, W2]
  after_results
  rfl

/-- A buffer no host operation between the regions writes holds what the first region left. -/
theorem keep (c : Dev nD) (b : Ref sig .tc)
    (h1 : ∀ op ∈ (hostOps1_1 : List (HloOp τ sig (Elt F))), Proc.devRef .tc b ∉ op.writes)
    (h0 : ∀ op ∈ (hostOps1 : List (HloOp τ sig (Elt F))), Proc.devRef .tc b ∉ op.writes) :
    W3 m ρ c (Proc.devRef .tc b) = W1 m ρ c (Proc.devRef .tc b) :=
  (StableHlo.after_of_forall_not_mem (b := Proc.devRef .tc b) _ _ h1).trans
    (StableHlo.after_of_forall_not_mem (b := Proc.devRef .tc b) _ _ h0)

end Cert.KernelHost

end
-- ==== Proof.Spec.lean ====
/-
  What the network computes at one node, on the extended reals, written once and index by index: both programs are
  shown to compute these functions of their argument arrays.

  A node r has a feature row x[r, ·] (64 numbers), six neighbours with squared distances d[r, ·], and the network's
  weights.  With elu v = v for v > 0 and e^v − 1 otherwise, and dense h W b j = ∑_q h_q · W[q, j] + b[j]:
    * the pre-dense feature        xp[r, j] = elu (dense x[r, ·] Wp bp j)                               (32 per node)
    * the self logit               xs[r]    = dense (elu (dense (elu (dense x[r, ·] Ws1 bs1)) Ws2 bs2)) Ws3 bs3
    * the edge layer's input, neighbour by neighbour: for neighbour k the 32 differences xp[r, p] − g[r, k, p] meet
      rows 33k … 33k+31 of We1 and the distance d[r, k] meets row 33k+32 (g the neighbours' gathered features)
    * six edge logits, from two more dense layers, and the softmax of the seven logits (self first).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix, a vector and a rank-3 array of extended reals, over literal extents. -/
abbrev Mat (a b : ℕ) := (⟨2, ![a, b]⟩ : Shape).Idx → EReal
abbrev Vc (a : ℕ) := (⟨1, ![a]⟩ : Shape).Idx → EReal
abbrev Ten (a b c : ℕ) := (⟨3, ![a, b, c]⟩ : Shape).Idx → EReal

/-- The exponential linear unit: v above zero, e^v − 1 otherwise. -/
def elu (v : EReal) : EReal := Scalar.select (Ideal.cmp .ogt v 0) v (Ideal.exp v - 1)

/-- One output of a dense layer: the inputs against column j of the weights, plus the bias. -/
def dense {K N : ℕ} (h : Fin K → EReal) (W : Mat K N) (b : Vc N) (j : Fin N) : EReal :=
  (∑ q : Fin K, h q * W (ix2 q j)) + b (ix1 j)

/-- The pre-dense feature j of node r. -/
def xp (x : Mat 400000 64) (Wp : Mat 64 32) (bp : Vc 32) (r : Fin 400000) (j : Fin 32) : EReal :=
  elu (dense (fun q => x (ix2 r q)) Wp bp j)

/-- The self logit of node r: three dense layers, the first two followed by elu. -/
def xs (x : Mat 400000 64) (Ws1 : Mat 64 32) (bs1 : Vc 32) (Ws2 : Mat 32 32) (bs2 : Vc 32) (Ws3 : Mat 32 1) (bs3 : Vc 1)
    (r : Fin 400000) : EReal :=
  dense (fun q2 => elu (dense (fun q1 => elu (dense (fun q => x (ix2 r q)) Ws1 bs1 q1)) Ws2 bs2 q2)) Ws3 bs3 (0 : Fin 1)

/-- The pre-dense features as an array. -/
def xpArr (x : Mat 400000 64) (Wp : Mat 64 32) (bp : Vc 32) : Mat 400000 32 := fun i => xp x Wp bp (i 0) (i 1)

/-- The self logits as a column. -/
def xsArr (x : Mat 400000 64) (Ws1 : Mat 64 32) (bs1 : Vc 32) (Ws2 : Mat 32 32) (bs2 : Vc 32) (Ws3 : Mat 32 1) (bs3 : Vc 1) :
    Mat 400000 1 := fun i => xs x Ws1 bs1 Ws2 bs2 Ws3 bs3 (i 0)

/-- Row 33k + p of the first edge weight matrix. -/
abbrev erow (k : Fin 6) (p : Fin 33) : Fin 198 := ⟨33 * k.val + p.val, by omega⟩

/-- Output j of the first edge layer before the bias, summed neighbour by neighbour: the 32 feature differences of
    neighbour k against rows 33k … 33k+31, its squared distance against row 33k+32. -/
def edgeIn (f : Fin 32 → EReal) (g : Fin 6 → Fin 32 → EReal) (d : Fin 6 → EReal) (We1 : Mat 198 32) (j : Fin 32) : EReal :=
  ∑ k : Fin 6, ((∑ p : Fin 32, (f p - g k p) * We1 (ix2 (erow k ⟨p.val, by omega⟩) j)) + d k * We1 (ix2 (erow k ⟨32, by omega⟩) j))

/-- The six edge logits of a node from its own features f, its neighbours' g and the distances d. -/
def edgeLogit (f : Fin 32 → EReal) (g : Fin 6 → Fin 32 → EReal) (d : Fin 6 → EReal) (We1 : Mat 198 32) (be1 : Vc 32)
    (We2 : Mat 32 32) (be2 : Vc 32) (We3 : Mat 32 6) (be3 : Vc 6) (n : Fin 6) : EReal :=
  dense (fun q2 => elu (dense (fun q1 => elu (edgeIn f g d We1 q1 + be1 (ix1 q1))) We2 be2 q2)) We3 be3 n

/-- The seven logits of a node: the self logit first, then the six edge logits. -/
def logit (s : EReal) (e : Fin 6 → EReal) (c : Fin 7) : EReal :=
  if h : c.val = 0 then s else e ⟨c.val - 1, by omega⟩

/-- The largest of seven extended reals. -/
def top (z : Fin 7 → EReal) : EReal := (Finset.univ : Finset (Fin 7)).fold max ⊥ z

/-- The softmax of seven logits, shifted by their maximum. -/
def softmax (z : Fin 7 → EReal) (c : Fin 7) : EReal :=
  Ideal.div (Ideal.exp (z c - top z)) (∑ c' : Fin 7, Ideal.exp (z c' - top z))

/-- The output for node r, class c, from the arrays the last stage reads: the pre-dense features f, the gathered
    neighbour features g, the squared distances d, the self logits s, and the edge weights. -/
def outOf (f : Mat 400000 32) (g : Ten 400000 6 32) (d : Mat 400000 6) (s : Mat 400000 1)
    (We1 : Mat 198 32) (be1 : Vc 32) (We2 : Mat 32 32) (be2 : Vc 32) (We3 : Mat 32 6) (be3 : Vc 6)
    (r : Fin 400000) (c : Fin 7) : EReal :=
  softmax (logit (s (ix2 r (0 : Fin 1)))
    (edgeLogit (fun p => f (ix2 r p)) (fun k p => g (ix3 r k p)) (fun k => d (ix2 r k)) We1 be1 We2 be2 We3 be3)) c

/-- The last stage's output as an array. -/
def outOfArr (f : Mat 400000 32) (g : Ten 400000 6 32) (d : Mat 400000 6) (s : Mat 400000 1)
    (We1 : Mat 198 32) (be1 : Vc 32) (We2 : Mat 32 32) (be2 : Vc 32) (We3 : Mat 32 6) (be3 : Vc 6) : Mat 400000 7 :=
  fun i => outOf f g d s We1 be1 We2 be2 We3 be3 (i 0) (i 1)

/-- The network's output for node r, class c, from the arguments and the gathered neighbour features g. -/
def out (x : Mat 400000 64) (distsq : Mat 400000 6) (g : Ten 400000 6 32) (Wp : Mat 64 32) (bp : Vc 32)
    (We1 : Mat 198 32) (be1 : Vc 32) (We2 : Mat 32 32) (be2 : Vc 32) (We3 : Mat 32 6) (be3 : Vc 6)
    (Ws1 : Mat 64 32) (bs1 : Vc 32) (Ws2 : Mat 32 32) (bs2 : Vc 32) (Ws3 : Mat 32 1) (bs3 : Vc 1)
    (r : Fin 400000) (c : Fin 7) : EReal :=
  outOf (xpArr x Wp bp) g distsq (xsArr x Ws1 bs1 Ws2 bs2 Ws3 bs3) We1 be1 We2 be2 We3 be3 r c

/-- The output as an array. -/
def outArr (x : Mat 400000 64) (distsq : Mat 400000 6) (g : Ten 400000 6 32) (Wp : Mat 64 32) (bp : Vc 32)
    (We1 : Mat 198 32) (be1 : Vc 32) (We2 : Mat 32 32) (be2 : Vc 32) (We3 : Mat 32 6) (be3 : Vc 6)
    (Ws1 : Mat 64 32) (bs1 : Vc 32) (Ws2 : Mat 32 32) (bs2 : Vc 32) (Ws3 : Mat 32 1) (bs3 : Vc 1) : Mat 400000 7 :=
  fun i => out x distsq g Wp bp We1 be1 We2 be2 We3 be3 Ws1 bs1 Ws2 bs2 Ws3 bs3 (i 0) (i 1)

/-- The float words the programs spell: 0.0, 1.0 and −∞. -/
theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
theorem ofBits_neg_inf : Ideal.ofBits .f32 0xFF800000#32 = ⊥ := by simp [Ideal.ofBits, Ideal.ieee]

end Cert.Spec

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.RegionAPay.lean ====
/-
  What the first kernel's body computes from the blocks it loads, entry by entry.

  The body loads a block of 10000 feature rows x (64 numbers each) and the weights, and stores two blocks:
    * the pre-dense features: elu (x · Wp + bp), one row of 32 per feature row;
    * the self logit: ((elu (elu (x · Ws1 + bs1) · Ws2 + bs2)) · Ws3 + bs3), one number per feature row.
  Each product is a plain matrix product into a zero accumulator (the roundings to a shorter float format on the way
  in are the identity on the extended reals), each bias a vector laid out as a row and repeated down the rows, and
  elu is spelt as a selection between v and e^v − 1 on the comparison v > 0.  Read at row p and column j, each layer is
  the dense layer of the specification, and elu is the specification's elu.
-/
import proofs.«133679_j23562190586025_2_alg».proof.Proof.Spec
import proofs.«133679_j23562190586025_2_alg».proof.Proof.LibPlainDot
import proofs.«133679_j23562190586025_2_alg».proof.Proof.LibRowBroadcast
import proofs.«133679_j23562190586025_2_alg».proof.Proof.Gen.KernelIdeal.Skeleton

noncomputable section

namespace Cert.RegionAPay

open Idealize.ShloMosaic Idealize.ShloMosaic.ValueIdx
open Cert.KernelIdeal Cert.KernelIdeal.Gen

/-- The selection between v and e^v − 1 on v > z, with z the zero word's value and the one word subtracted, is elu,
    entry by entry. -/
theorem elu_apply {s : Shape} (v : FVec Ideal s .f32) (z : Ideal .f32) (hz : z = 0) (i : s.Idx) :
    select (cmpf .ogt v (broadcast s z)) v
      (subf (exp v) (broadcast s (Scalar.ofBits (F := Ideal) .f32 0x3F800000#32))) i = Spec.elu (v i) := by
  subst hz
  rw [select_apply, cmpf_apply, subf_apply, broadcast_apply, broadcast_apply]
  show Scalar.select (Ideal.cmp .ogt (v i) 0) (v i) (Ideal.exp (v i) - Ideal.ofBits .f32 0x3F800000#32) = _
  rw [Spec.ofBits_one]
  rfl

/-- A bias vector laid out as a row and repeated down 10000 rows reads, at (p, j), its entry j. -/
theorem bias_apply {N : ℕ} (b : (⟨1, ![N]⟩ : Shape).Idx → EReal)
    (hc : (⟨1, ![N]⟩ : Shape).ShapeCasts ⟨2, ![1, N]⟩) (hb : (⟨2, ![1, N]⟩ : Shape).Broadcasts ⟨2, ![10000, N]⟩)
    (p : Fin 10000) (j : Fin N) :
    broadcastTo ⟨2, ![10000, N]⟩ (shapeCast ⟨2, ![1, N]⟩ b hc) hb (ix2 p j) = b (ix1 j) := by
  rw [LibRowBroadcast.broadcastTo_1b_ab_apply]
  refine shapeCast_apply b hc _ _ ?_
  rw [Shape.rowMajor_val_two, Shape.rowMajor_val_one]
  show j.val = 0 * N + j.val
  omega

/-- One layer before its elu: the product of a block of 10000 rows with the weights into a zero accumulator, plus the
    bias row, is at (p, j) the dense layer of row p. -/
theorem layer_apply {K N : ℕ} {φ : FTy} (D : DotDims ⟨2, ![10000, K]⟩ ⟨2, ![K, N]⟩ ⟨2, ![10000, N]⟩)
    (hD : D = DotDims.plain 10000 K N) (l : FVec Ideal ⟨2, ![10000, K]⟩ φ) (W : FVec Ideal ⟨2, ![K, N]⟩ .f32)
    (b : FVec Ideal ⟨1, ![N]⟩ .f32) (hlt : FTy.bits .bf16 < FTy.bits .f32)
    (hc : (⟨1, ![N]⟩ : Shape).ShapeCasts ⟨2, ![1, N]⟩) (hb : (⟨2, ![1, N]⟩ : Shape).Broadcasts ⟨2, ![10000, N]⟩)
    (p : Fin 10000) (j : Fin N) :
    addf (matmul D none l (truncf .bf16 W hlt) (constant (F := Ideal) ⟨2, ![10000, N]⟩ .f32 0x00000000#32))
        (broadcastTo ⟨2, ![10000, N]⟩ (shapeCast ⟨2, ![1, N]⟩ b hc) hb) (ix2 p j)
      = Spec.dense (fun q => l (ix2 p q)) W b j := by
  rw [addf_apply, PlainDot.matmul_zero_ix2 D hD, bias_apply]
  rfl

/-- The block of pre-dense features: entry (p, j) is elu of the dense layer of feature row p. -/
theorem xp_block (x0 : Vec Ideal S10000x64 .f32) (w : Vec Ideal S64x32 .f32) (b : Vec Ideal S32 .f32)
    (p : Fin 10000) (j : Fin 32) :
    k0_pay3 x0 w b (ix2 p j) = Spec.elu (Spec.dense (fun q => x0 (ix2 p q)) w b j) := by
  unfold k0_pay3 k0_pay2
  refine (elu_apply _ _ Spec.ofBits_zero _).trans ?_
  exact congrArg Spec.elu (layer_apply _ rfl _ w b _ _ _ p j)

/-- The block of the second hidden layer before its elu: entry (p, j) is the dense layer of the first hidden layer
    of feature row p. -/
theorem hidden_block (x0 : Vec Ideal S10000x64 .f32) (w1 : Vec Ideal S64x32 .f32) (b1 : Vec Ideal S32 .f32)
    (w2 : Vec Ideal S32x32 .f32) (b2 : Vec Ideal S32 .f32) (p : Fin 10000) (j : Fin 32) :
    k0_pay4 x0 w1 b1 w2 b2 (ix2 p j)
      = Spec.dense (fun q1 => Spec.elu (Spec.dense (fun q => x0 (ix2 p q)) w1 b1 q1)) w2 b2 j := by
  unfold k0_pay4 k0_pay2
  refine (layer_apply _ rfl _ w2 b2 _ _ _ p j).trans ?_
  refine congrArg (fun h => Spec.dense h w2 b2 j) (funext fun q1 => ?_)
  refine (elu_apply _ _ Spec.ofBits_zero _).trans ?_
  exact congrArg Spec.elu (layer_apply _ rfl _ w1 b1 _ _ _ p q1)

/-- The block of self logits from the second hidden layer's block h: entry (p, 0) is the last dense layer of elu of
    row p of h. -/
theorem logit_block (h : FVec Ideal S10000x32 .f32) (z : Ideal .f32) (hz : z = 0) (w3 : Vec Ideal S32x1 .f32)
    (b3 : Vec Ideal S1 .f32) (p : Fin 10000) (u : Fin 1) :
    k0_pay1 h z w3 b3 (ix2 p u) = Spec.dense (fun q2 => Spec.elu (h (ix2 p q2))) w3 b3 u := by
  unfold k0_pay1
  refine (layer_apply _ rfl _ w3 b3 _ _ _ p u).trans ?_
  exact congrArg (fun g => Spec.dense g w3 b3 u) (funext fun q2 => elu_apply h z hz _)

/-- The block of self logits from the loaded blocks: entry (p, 0) is the self logit of feature row p. -/
theorem xs_block (x0 : Vec Ideal S10000x64 .f32) (w1 : Vec Ideal S64x32 .f32) (b1 : Vec Ideal S32 .f32)
    (w2 : Vec Ideal S32x32 .f32) (b2 : Vec Ideal S32 .f32) (w3 : Vec Ideal S32x1 .f32) (b3 : Vec Ideal S1 .f32)
    (p : Fin 10000) (u : Fin 1) :
    k0_pay1 (k0_pay4 x0 w1 b1 w2 b2) (Scalar.ofBits (F := Ideal) .f32 0x00000000#32) w3 b3 (ix2 p u)
      = Spec.dense (fun q2 => Spec.elu (Spec.dense (fun q1 => Spec.elu (Spec.dense (fun q => x0 (ix2 p q)) w1 b1 q1))
          w2 b2 q2)) w3 b3 u := by
  refine (logit_block _ _ Spec.ofBits_zero w3 b3 p u).trans ?_
  exact congrArg (fun g => Spec.dense g w3 b3 u)
    (funext fun q2 => congrArg Spec.elu (hidden_block x0 w1 b1 w2 b2 p q2))

end Cert.RegionAPay

end
-- ==== Proof.RegionA.lean ====
/-
  The first kernel's two result arrays, after all of its grid points, as functions of the arrays it was given.

  The kernel walks 40 grid points.  At point t it is handed rows 10000 t … 10000 t + 9999 of the feature array x
  (a block of 10000 rows) and the whole of each weight matrix and bias vector, and it writes back rows
  10000 t … 10000 t + 9999 of its two results: the pre-dense features (32 per row) and the self logits (one per row).
  An entry of a block sits, on each axis, at the block's index times the block's extent plus its own coordinate; the
  block index of x and of the two results at point t is (t, 0), that of every weight is zero on every axis.  So entry
  (p, j) of what point t writes back depends on row 10000 t + p of x only, and is the specification's value for that
  row; the 40 row blocks cover all 400000 rows (row r lies in the block of point r / 10000), hence each result array
  ends as the specification's array.
-/
import proofs.«133679_j23562190586025_2_alg».proof.Proof.Spec
import proofs.«133679_j23562190586025_2_alg».proof.Proof.RegionAPay
import proofs.«133679_j23562190586025_2_alg».proof.Proof.Gen.KernelIdeal.Frame
import Idealize.ShloMosaic.Lib.Pipeline.Value

set_option maxRecDepth 16384

noncomputable section

namespace Cert.RegionA

open Idealize.ShloMosaic Idealize.ShloMosaic.TcCoe Idealize.ShloMosaic.ValueIdx Idealize.SL.Sem
open Idealize.ShloMosaic.Pipeline (Dat)
open Cert.KernelIdeal Cert.KernelIdeal.Gen

/- The arrays as the kernel finds them. -/
variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-! ## Where the blocks sit -/

/-- The block index of x and of the two results at point t is (t, 0). -/
theorem row_blocks : ∀ t : Fin cfg0.N, win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The block index of every weight matrix and bias vector is zero on every axis, at every point. -/
theorem weight_blocks : ∀ t : Fin cfg0.N, win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## The blocks the body loads, read off the arrays -/

/-- Entry (p, q) of the block of x at point t is entry (10000 t + p, q) of x. -/
theorem x_block (c : Dev nD) (t : Fin cfg0.N) (p : Fin 10000) (q : Fin 64) (r : Fin 400000)
    (hr : r.val = 10000 * t.val + p.val) :
    (iblk0 V c 0 t : Vec Ideal S10000x64 .f32) (ix2 p q) = (V c (Pipeline.arrRef spec0 0) : Spec.Mat 400000 64) (ix2 r q) := by
  obtain ⟨e0, e1, -⟩ := row_blocks t
  unfold iblk0
  rw [View.read_apply]
  refine congrArg (V c (Pipeline.arrRef spec0 0) : Spec.Mat 400000 64) ?_
  funext a
  apply Fin.ext
  match a with
  | ⟨0, _⟩ => show win0_0.index t 0 * 10000 + 1 * p.val = r.val; rw [e0, hr]; omega
  | ⟨1, _⟩ => show win0_0.index t 1 * 64 + 1 * q.val = q.val; rw [e1]; omega

/-- The block of Wp at any point is Wp. -/
theorem wp_block (c : Dev nD) (t : Fin cfg0.N) :
    (iblk0 V c 1 t : Vec Ideal S64x32 .f32) = (V c (Pipeline.arrRef spec0 1) : Spec.Mat 64 32) := by
  obtain ⟨e0, e1, -⟩ := weight_blocks t
  funext y
  unfold iblk0
  rw [View.read_apply]
  refine congrArg (V c (Pipeline.arrRef spec0 1) : Spec.Mat 64 32) ?_
  funext a
  apply Fin.ext
  match a with
  | ⟨0, _⟩ => show win0_1.index t 0 * 64 + 1 * (y 0).val = (y 0).val; rw [e0]; omega
  | ⟨1, _⟩ => show win0_1.index t 1 * 32 + 1 * (y 1).val = (y 1).val; rw [e1]; omega

/-- The block of bp at any point is bp. -/
theorem bp_block (c : Dev nD) (t : Fin cfg0.N) :
    (iblk0 V c 2 t : Vec Ideal S32 .f32) = (V c (Pipeline.arrRef spec0 2) : Spec.Vc 32) := by
  obtain ⟨-, -, e0, -⟩ := weight_blocks t
  funext y
  unfold iblk0
  rw [View.read_apply]
  refine congrArg (V c (Pipeline.arrRef spec0 2) : Spec.Vc 32) ?_
  funext a
  apply Fin.ext
  match a with
  | ⟨0, _⟩ => show win0_2.index t 0 * 32 + 1 * (y 0).val = (y 0).val; rw [e0]; omega

/-- The block of Ws1 at any point is Ws1. -/
theorem ws1_block (c : Dev nD) (t : Fin cfg0.N) :
    (iblk0 V c 3 t : Vec Ideal S64x32 .f32) = (V c (Pipeline.arrRef spec0 3) : Spec.Mat 64 32) := by
  obtain ⟨-, -, -, e0, e1, -⟩ := weight_blocks t
  funext y
  unfold iblk0
  rw [View.read_apply]
  refine congrArg (V c (Pipeline.arrRef spec0 3) : Spec.Mat 64 32) ?_
  funext a
  apply Fin.ext
  match a with
  | ⟨0, _⟩ => show win0_3.index t 0 * 64 + 1 * (y 0).val = (y 0).val; rw [e0]; omega
  | ⟨1, _⟩ => show win0_3.index t 1 * 32 + 1 * (y 1).val = (y 1).val; rw [e1]; omega

/-- The block of bs1 at any point is bs1. -/
theorem bs1_block (c : Dev nD) (t : Fin cfg0.N) :
    (iblk0 V c 4 t : Vec Ideal S32 .f32) = (V c (Pipeline.arrRef spec0 4) : Spec.Vc 32) := by
  obtain ⟨-, -, -, -, -, e0, -⟩ := weight_blocks t
  funext y
  unfold iblk0
  rw [View.read_apply]
  refine congrArg (V c (Pipeline.arrRef spec0 4) : Spec.Vc 32) ?_
  funext a
  apply Fin.ext
  match a with
  | ⟨0, _⟩ => show win0_4.index t 0 * 32 + 1 * (y 0).val = (y 0).val; rw [e0]; omega

/-- The block of Ws2 at any point is Ws2. -/
theorem ws2_block (c : Dev nD) (t : Fin cfg0.N) :
    (iblk0 V c 5 t : Vec Ideal S32x32 .f32) = (V c (Pipeline.arrRef spec0 5) : Spec.Mat 32 32) := by
  obtain ⟨-, -, -, -, -, -, e0, e1, -⟩ := weight_blocks t
  funext y
  unfold iblk0
  rw [View.read_apply]
  refine congrArg (V c (Pipeline.arrRef spec0 5) : Spec.Mat 32 32) ?_
  funext a
  apply Fin.ext
  match a with
  | ⟨0, _⟩ => show win0_5.index t 0 * 32 + 1 * (y 0).val = (y 0).val; rw [e0]; omega
  | ⟨1, _⟩ => show win0_5.index t 1 * 32 + 1 * (y 1).val = (y 1).val; rw [e1]; omega

/-- The block of bs2 at any point is bs2. -/
theorem bs2_block (c : Dev nD) (t : Fin cfg0.N) :
    (iblk0 V c 6 t : Vec Ideal S32 .f32) = (V c (Pipeline.arrRef spec0 6) : Spec.Vc 32) := by
  obtain ⟨-, -, -, -, -, -, -, -, e0, -⟩ := weight_blocks t
  funext y
  unfold iblk0
  rw [View.read_apply]
  refine congrArg (V c (Pipeline.arrRef spec0 6) : Spec.Vc 32) ?_
  funext a
  apply Fin.ext
  match a with
  | ⟨0, _⟩ => show win0_6.index t 0 * 32 + 1 * (y 0).val = (y 0).val; rw [e0]; omega

/-- The block of Ws3 at any point is Ws3. -/
theorem ws3_block (c : Dev nD) (t : Fin cfg0.N) :
    (iblk0 V c 7 t : Vec Ideal S32x1 .f32) = (V c (Pipeline.arrRef spec0 7) : Spec.Mat 32 1) := by
  obtain ⟨-, -, -, -, -, -, -, -, -, e0, e1, -⟩ := weight_blocks t
  funext y
  unfold iblk0
  rw [View.read_apply]
  refine congrArg (V c (Pipeline.arrRef spec0 7) : Spec.Mat 32 1) ?_
  funext a
  apply Fin.ext
  match a with
  | ⟨0, _⟩ => show win0_7.index t 0 * 32 + 1 * (y 0).val = (y 0).val; rw [e0]; omega
  | ⟨1, _⟩ => show win0_7.index t 1 * 1 + 1 * (y 1).val = (y 1).val; rw [e1]; omega

/-- The block of bs3 at any point is bs3. -/
theorem bs3_block (c : Dev nD) (t : Fin cfg0.N) :
    (iblk0 V c 8 t : Vec Ideal S1 .f32) = (V c (Pipeline.arrRef spec0 8) : Spec.Vc 1) := by
  obtain ⟨-, -, -, -, -, -, -, -, -, -, -, e0⟩ := weight_blocks t
  funext y
  unfold iblk0
  rw [View.read_apply]
  refine congrArg (V c (Pipeline.arrRef spec0 8) : Spec.Vc 1) ?_
  funext a
  apply Fin.ext
  match a with
  | ⟨0, _⟩ => show win0_8.index t 0 * 1 + 1 * (y 0).val = (y 0).val; rw [e0]; omega

/-! ## One entry of what a point stores, over any blocks that agree with the arrays on the row it reads -/

/-- If row p of the block x0 is row r of x and the weight blocks are the weights, entry (p, j) of the stored block of
    pre-dense features is the specification's entry (r, j). -/
theorem xp_point (X : Spec.Mat 400000 64) (Wp : Spec.Mat 64 32) (bp : Spec.Vc 32)
    (x0 : Vec Ideal S10000x64 .f32) (w : Vec Ideal S64x32 .f32) (b : Vec Ideal S32 .f32)
    (r : Fin 400000) (p : Fin 10000) (j : Fin 32)
    (hx : ∀ q : Fin 64, x0 (ix2 p q) = X (ix2 r q)) (hw : w = Wp) (hb : b = bp) :
    k0_pay3 x0 w b (ix2 p j) = Spec.xpArr X Wp bp (ix2 r j) := by
  subst hw hb
  rw [RegionAPay.xp_block]
  show _ = Spec.elu (Spec.dense (fun q => X (ix2 r q)) w b j)
  simp only [hx]

/-- The same for the stored block of self logits: entry (p, 0) is the specification's self logit of row r. -/
theorem xs_point (X : Spec.Mat 400000 64) (Ws1 : Spec.Mat 64 32) (bs1 : Spec.Vc 32) (Ws2 : Spec.Mat 32 32)
    (bs2 : Spec.Vc 32) (Ws3 : Spec.Mat 32 1) (bs3 : Spec.Vc 1)
    (x0 : Vec Ideal S10000x64 .f32) (w1 : Vec Ideal S64x32 .f32) (b1 : Vec Ideal S32 .f32)
    (w2 : Vec Ideal S32x32 .f32) (b2 : Vec Ideal S32 .f32) (w3 : Vec Ideal S32x1 .f32) (b3 : Vec Ideal S1 .f32)
    (r : Fin 400000) (p : Fin 10000) (u : Fin 1)
    (hx : ∀ q : Fin 64, x0 (ix2 p q) = X (ix2 r q)) (h1 : w1 = Ws1) (g1 : b1 = bs1) (h2 : w2 = Ws2) (g2 : b2 = bs2)
    (h3 : w3 = Ws3) (g3 : b3 = bs3) :
    k0_pay1 (k0_pay4 x0 w1 b1 w2 b2) (Scalar.ofBits (F := Ideal) .f32 0x00000000#32) w3 b3 (ix2 p u)
      = Spec.xsArr X Ws1 bs1 Ws2 bs2 Ws3 bs3 (ix2 r u) := by
  subst h1 g1 h2 g2 h3 g3
  obtain rfl : u = 0 := Subsingleton.elim _ _
  rw [RegionAPay.xs_block]
  show _ = Spec.dense (fun q2 => Spec.elu (Spec.dense (fun q1 => Spec.elu (Spec.dense (fun q => X (ix2 r q)) w1 b1 q1))
    w2 b2 q2)) w3 b3 (0 : Fin 1)
  simp only [hx]

/-! ## The pre-dense features -/

/-- What point t writes back of the pre-dense features is block t of the specification's array. -/
theorem xp_written (c : Dev nD) (t : Fin cfg0.N) :
    (dat0 (F := Ideal) V c).flushed 9 t = ((cfg0.win 9).blk t).view.read (Elt Ideal)
      (Spec.xpArr (V c (Pipeline.arrRef spec0 0)) (V c (Pipeline.arrRef spec0 1)) (V c (Pipeline.arrRef spec0 2))) := by
  show (cfg0.win 9).cut (grid0.coords t) ((dat0 V c).after 9 t) = _
  rw [after0_9]
  unfold out0_9
  rw [View.canon_unit_zero zero2]
  simp only [View.ld_unit_zero (S := S10000x64) zero2, View.ld_unit_zero (S := S64x32) zero2, View.ld_unit_zero (S := S32) zero1]
  obtain ⟨-, -, e2, e3, -⟩ := row_blocks t
  funext j
  obtain ⟨p, q, rfl⟩ : ∃ (p : Fin 10000) (q : Fin 32), j = ix2 p q := ⟨j 0, j 1, eq_ix2 j⟩
  have hN : cfg0.N = 40 := N_0
  have ht : t.val < 40 := hN ▸ t.isLt
  show k0_pay3 (iblk0 V c 0 t) (iblk0 V c 1 t) (iblk0 V c 2 t) (ix2 p q)
    = Spec.xpArr (V c (Pipeline.arrRef spec0 0)) (V c (Pipeline.arrRef spec0 1)) (V c (Pipeline.arrRef spec0 2))
        (((cfg0.win 9).blk t).view.emb (ix2 p q))
  refine (xp_point (V c (Pipeline.arrRef spec0 0)) (V c (Pipeline.arrRef spec0 1)) (V c (Pipeline.arrRef spec0 2))
    (iblk0 V c 0 t) (iblk0 V c 1 t) (iblk0 V c 2 t) ⟨10000 * t.val + p.val, by omega⟩ p q
    (fun q' => x_block V c t p q' _ rfl) (wp_block V c t) (bp_block V c t)).trans ?_
  refine congrArg (Spec.xpArr (V c (Pipeline.arrRef spec0 0)) (V c (Pipeline.arrRef spec0 1)) (V c (Pipeline.arrRef spec0 2))) ?_
  funext a
  apply Fin.ext
  match a with
  | ⟨0, _⟩ => show 10000 * t.val + p.val = win0_9.index t 0 * 10000 + 1 * p.val; rw [e2]; omega
  | ⟨1, _⟩ => show q.val = win0_9.index t 1 * 32 + 1 * q.val; rw [e3]; omega

/-- An index of the array of pre-dense features is in point t's block iff each coordinate is in the block's range. -/
theorem mem_xp_block (t : Fin cfg0.N) (i : S400000x32.Idx) :
    i ∈ ((cfg0.win 9).blk t).view.set ↔ ∀ a : Fin 2, win0_9.index t a * S10000x32.size a ≤ (i a).val
      ∧ (i a).val < win0_9.index t a * S10000x32.size a + S10000x32.size a := by
  show i ∈ ((View.whole main_v0_0).slice (win0_9.rect t)).set ↔ _
  rw [View.set_slice_whole, Rect.mem_set_unit]
  exact Iff.rfl

/-- Row r of the pre-dense features is written back by point r / 10000. -/
theorem xp_cover (i : S400000x32.Idx) :
    ∃ t : Fin cfg0.N, (cfg0.win 9).flush t = true ∧ i ∈ ((cfg0.win 9).blk t).view.set := by
  have hN : cfg0.N = 40 := N_0
  have hi0 : (i 0).val < 400000 := (i 0).isLt
  have hi1 : (i 1).val < 32 := (i 1).isLt
  let t : Fin cfg0.N := ⟨(i 0).val / 10000, by rw [hN]; omega⟩
  obtain ⟨-, -, e2, e3, -⟩ := row_blocks t
  have ht : t.val = (i 0).val / 10000 := rfl
  refine ⟨t, flush0_9 t, ?_⟩
  rw [mem_xp_block]
  intro a
  match a with
  | ⟨0, _⟩ =>
    show win0_9.index t (0 : Fin 2) * 10000 ≤ (i 0).val ∧ (i 0).val < win0_9.index t (0 : Fin 2) * 10000 + 10000
    rw [e2, ht]; omega
  | ⟨1, _⟩ =>
    show win0_9.index t (1 : Fin 2) * 32 ≤ (i 1).val ∧ (i 1).val < win0_9.index t (1 : Fin 2) * 32 + 32
    rw [e3]; omega

/-- After the last point the array of pre-dense features is the specification's, of x, Wp and bp as found. -/
theorem xp_final (c : Dev nD) : (dat0 (F := Ideal) V c).arrAt 9 cfg0.N
    = Spec.xpArr (V c (Pipeline.arrRef spec0 0)) (V c (Pipeline.arrRef spec0 1)) (V c (Pipeline.arrRef spec0 2)) :=
  (dat0 (F := Ideal) V c).arrAt_eq_of_cover 9 _ (fun t _ => xp_written V c t) xp_cover

/-! ## The self logits -/

/-- What point t writes back of the self logits is block t of the specification's column. -/
theorem xs_written (c : Dev nD) (t : Fin cfg0.N) :
    (dat0 (F := Ideal) V c).flushed 10 t = ((cfg0.win 10).blk t).view.read (Elt Ideal)
      (Spec.xsArr (V c (Pipeline.arrRef spec0 0)) (V c (Pipeline.arrRef spec0 3)) (V c (Pipeline.arrRef spec0 4))
        (V c (Pipeline.arrRef spec0 5)) (V c (Pipeline.arrRef spec0 6)) (V c (Pipeline.arrRef spec0 7))
        (V c (Pipeline.arrRef spec0 8))) := by
  show (cfg0.win 10).cut (grid0.coords t) ((dat0 V c).after 10 t) = _
  rw [after0_10]
  unfold out0_10
  rw [View.canon_unit_zero zero2]
  simp only [View.ld_unit_zero (S := S10000x64) zero2, View.ld_unit_zero (S := S64x32) zero2,
    View.ld_unit_zero (S := S32) zero1, View.ld_unit_zero (S := S32x32) zero2, View.ld_unit_zero (S := S32x1) zero2,
    View.ld_unit_zero (S := S1) zero1]
  obtain ⟨-, -, -, -, e4, e5⟩ := row_blocks t
  funext j
  obtain ⟨p, u, rfl⟩ : ∃ (p : Fin 10000) (u : Fin 1), j = ix2 p u := ⟨j 0, j 1, eq_ix2 j⟩
  have hN : cfg0.N = 40 := N_0
  have ht : t.val < 40 := hN ▸ t.isLt
  have hu : u.val = 0 := by omega
  show k0_pay1 (k0_pay4 (iblk0 V c 0 t) (iblk0 V c 3 t) (iblk0 V c 4 t) (iblk0 V c 5 t) (iblk0 V c 6 t))
      (Scalar.ofBits (F := Ideal) .f32 0x00000000#32) (iblk0 V c 7 t) (iblk0 V c 8 t) (ix2 p u)
    = Spec.xsArr (V c (Pipeline.arrRef spec0 0)) (V c (Pipeline.arrRef spec0 3)) (V c (Pipeline.arrRef spec0 4))
        (V c (Pipeline.arrRef spec0 5)) (V c (Pipeline.arrRef spec0 6)) (V c (Pipeline.arrRef spec0 7))
        (V c (Pipeline.arrRef spec0 8)) (((cfg0.win 10).blk t).view.emb (ix2 p u))
  refine (xs_point (V c (Pipeline.arrRef spec0 0)) (V c (Pipeline.arrRef spec0 3)) (V c (Pipeline.arrRef spec0 4))
    (V c (Pipeline.arrRef spec0 5)) (V c (Pipeline.arrRef spec0 6)) (V c (Pipeline.arrRef spec0 7))
    (V c (Pipeline.arrRef spec0 8))
    (iblk0 V c 0 t) (iblk0 V c 3 t) (iblk0 V c 4 t) (iblk0 V c 5 t) (iblk0 V c 6 t) (iblk0 V c 7 t) (iblk0 V c 8 t)
    ⟨10000 * t.val + p.val, by omega⟩ p u
    (fun q' => x_block V c t p q' _ rfl) (ws1_block V c t) (bs1_block V c t) (ws2_block V c t) (bs2_block V c t)
    (ws3_block V c t) (bs3_block V c t)).trans ?_
  refine congrArg (Spec.xsArr (V c (Pipeline.arrRef spec0 0)) (V c (Pipeline.arrRef spec0 3)) (V c (Pipeline.arrRef spec0 4))
    (V c (Pipeline.arrRef spec0 5)) (V c (Pipeline.arrRef spec0 6)) (V c (Pipeline.arrRef spec0 7))
    (V c (Pipeline.arrRef spec0 8))) ?_
  funext a
  apply Fin.ext
  match a with
  | ⟨0, _⟩ => show 10000 * t.val + p.val = win0_10.index t 0 * 10000 + 1 * p.val; rw [e4]; omega
  | ⟨1, _⟩ => show u.val = win0_10.index t 1 * 1 + 1 * u.val; rw [e5]; omega

/-- An index of the column of self logits is in point t's block iff each coordinate is in the block's range. -/
theorem mem_xs_block (t : Fin cfg0.N) (i : S400000x1.Idx) :
    i ∈ ((cfg0.win 10).blk t).view.set ↔ ∀ a : Fin 2, win0_10.index t a * S10000x1.size a ≤ (i a).val
      ∧ (i a).val < win0_10.index t a * S10000x1.size a + S10000x1.size a := by
  show i ∈ ((View.whole main_v0_1).slice (win0_10.rect t)).set ↔ _
  rw [View.set_slice_whole, Rect.mem_set_unit]
  exact Iff.rfl

/-- Row r of the self logits is written back by point r / 10000. -/
theorem xs_cover (i : S400000x1.Idx) :
    ∃ t : Fin cfg0.N, (cfg0.win 10).flush t = true ∧ i ∈ ((cfg0.win 10).blk t).view.set := by
  have hN : cfg0.N = 40 := N_0
  have hi0 : (i 0).val < 400000 := (i 0).isLt
  have hi1 : (i 1).val < 1 := (i 1).isLt
  let t : Fin cfg0.N := ⟨(i 0).val / 10000, by rw [hN]; omega⟩
  obtain ⟨-, -, -, -, e4, e5⟩ := row_blocks t
  have ht : t.val = (i 0).val / 10000 := rfl
  refine ⟨t, flush0_10 t, ?_⟩
  rw [mem_xs_block]
  intro a
  match a with
  | ⟨0, _⟩ =>
    show win0_10.index t (0 : Fin 2) * 10000 ≤ (i 0).val ∧ (i 0).val < win0_10.index t (0 : Fin 2) * 10000 + 10000
    rw [e4, ht]; omega
  | ⟨1, _⟩ =>
    show win0_10.index t (1 : Fin 2) * 1 ≤ (i 1).val ∧ (i 1).val < win0_10.index t (1 : Fin 2) * 1 + 1
    rw [e5]; omega

/-- After the last point the column of self logits is the specification's, of x and the three layers' weights as found. -/
theorem xs_final (c : Dev nD) : (dat0 (F := Ideal) V c).arrAt 10 cfg0.N
    = Spec.xsArr (V c (Pipeline.arrRef spec0 0)) (V c (Pipeline.arrRef spec0 3)) (V c (Pipeline.arrRef spec0 4))
        (V c (Pipeline.arrRef spec0 5)) (V c (Pipeline.arrRef spec0 6)) (V c (Pipeline.arrRef spec0 7))
        (V c (Pipeline.arrRef spec0 8)) :=
  (dat0 (F := Ideal) V c).arrAt_eq_of_cover 10 _ (fun t _ => xs_written V c t) xs_cover

end Cert.RegionA

end
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.KernelOps.lean ====
/-
  The vector operations of the two kernel bodies read at one entry, on the extended reals: the exponential linear unit as
  the kernels spell it, a dense layer (a product into the zero accumulator plus a bias row), one neighbour's
  contribution to the first edge layer, and the softmax of a row of seven logits.
-/
import proofs.«133679_j23562190586025_2_alg».proof.Proof.Spec
import proofs.«133679_j23562190586025_2_alg».proof.Proof.LibPlainDot
import proofs.«133679_j23562190586025_2_alg».proof.Proof.LibRowBroadcast
import proofs.«133679_j23562190586025_2_alg».proof.Proof.LibColBroadcast
import proofs.«133679_j23562190586025_2_alg».proof.Proof.LibMatrixLayout
import Idealize.ShloMosaic.Lib.ValueLayout
import Idealize.ShloMosaic.Lib.Pipeline.Value

noncomputable section

namespace Cert.KernelOps

open Idealize.ShloMosaic Idealize.ShloMosaic.ValueIdx

/-- select (v > 0.0) v (exp v − 1.0), entry by entry, is elu. -/
theorem elu_apply {s : Shape} (v : FVec Ideal s .f32) (i : s.Idx) :
    select (cmpf .ogt v (broadcast s (Scalar.ofBits (F := Ideal) .f32 0x00000000#32))) v
      (subf (exp v) (broadcast s (Scalar.ofBits (F := Ideal) .f32 0x3F800000#32))) i = Spec.elu (v i) := by
  show Scalar.select (Ideal.cmp .ogt (v i) (Ideal.ofBits .f32 0x00000000#32)) (v i)
    (Ideal.exp (v i) - Ideal.ofBits .f32 0x3F800000#32) = _
  rw [Spec.ofBits_zero, Spec.ofBits_one]
  rfl

/-- A dense layer at entry (p, j): the row p of the inputs against column j of the weights, plus the bias. -/
theorem dense_apply {M K N : ℕ} (D : DotDims ⟨2, ![M, K]⟩ ⟨2, ![K, N]⟩ ⟨2, ![M, N]⟩) (hD : D = DotDims.plain M K N)
    (h : FVec Ideal ⟨2, ![M, K]⟩ .f32) (W : FVec Ideal ⟨2, ![K, N]⟩ .f32) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (hl : FTy.bits .bf16 < FTy.bits .f32) (p : Fin M) (j : Fin N) :
    addf (matmul D none (truncf .bf16 h hl) (truncf .bf16 W hl) (constant (F := Ideal) ⟨2, ![M, N]⟩ .f32 0x00000000#32))
      (broadcastTo ⟨2, ![M, N]⟩ (shapeCast ⟨2, ![1, N]⟩ b hc) hb) (ix2 p j)
    = Spec.dense (fun q => h (ix2 p q)) W b j := by
  rw [addf_apply, Cert.PlainDot.matmul_zero_ix2 D hD, Cert.LibRowBroadcast.broadcastTo_1b_ab_apply,
    shapeCast_a_1a_apply]
  rfl

/-- One neighbour's contribution to the first edge layer, as the second kernel's body spells it: the node's features minus
    neighbour kk's (a slice of the gathered block along its middle axis) against 32 rows of the weights from row o1, plus
    the neighbour's squared distance (one column of the distances) times the weight row o2. -/
def part (f : FVec Ideal ⟨2, ![2000, 32]⟩ .f32) (g : FVec Ideal ⟨3, ![2000, 6, 32]⟩ .f32) (d : FVec Ideal ⟨2, ![2000, 6]⟩ .f32)
    (w : FVec Ideal ⟨2, ![198, 32]⟩ .f32) (kk o1 o2 : ℕ)
    (D : DotDims ⟨2, ![2000, 32]⟩ ⟨2, ![32, 32]⟩ ⟨2, ![2000, 32]⟩)
    (hg : (⟨3, ![2000, 6, 32]⟩ : Shape).Slices ![0, kk, 0] ⟨3, ![2000, 1, 32]⟩)
    (hc : (⟨3, ![2000, 1, 32]⟩ : Shape).ShapeCasts ⟨2, ![2000, 32]⟩)
    (hd : (⟨2, ![2000, 6]⟩ : Shape).Slices ![0, kk] ⟨2, ![2000, 1]⟩)
    (hw1 : (⟨2, ![198, 32]⟩ : Shape).Slices ![o1, 0] ⟨2, ![32, 32]⟩)
    (hw2 : (⟨2, ![198, 32]⟩ : Shape).Slices ![o2, 0] ⟨2, ![1, 32]⟩)
    (hb1 : (⟨2, ![2000, 1]⟩ : Shape).Broadcasts ⟨2, ![2000, 32]⟩) (hb2 : (⟨2, ![1, 32]⟩ : Shape).Broadcasts ⟨2, ![2000, 32]⟩)
    (hl : FTy.bits .bf16 < FTy.bits .f32) : FVec Ideal ⟨2, ![2000, 32]⟩ .f32 :=
  addf (matmul D none
      (truncf .bf16 (subf f (shapeCast ⟨2, ![2000, 32]⟩ (extractStridedSlice ⟨3, ![2000, 1, 32]⟩ ![0, kk, 0] g hg) hc)) hl)
      (truncf .bf16 (extractStridedSlice ⟨2, ![32, 32]⟩ ![o1, 0] w hw1) hl)
      (constant (F := Ideal) ⟨2, ![2000, 32]⟩ .f32 0x00000000#32))
    (mulf (broadcastTo ⟨2, ![2000, 32]⟩ (extractStridedSlice ⟨2, ![2000, 1]⟩ ![0, kk] d hd) hb1)
      (broadcastTo ⟨2, ![2000, 32]⟩ (extractStridedSlice ⟨2, ![1, 32]⟩ ![o2, 0] w hw2) hb2))

/-- A [2000, 1, 32] array read as [2000, 32]: entry (p, q) is entry (p, 0, q). -/
theorem squeeze_apply {α : Type} (x : (⟨3, ![2000, 1, 32]⟩ : Shape).Idx → α)
    (hc : (⟨3, ![2000, 1, 32]⟩ : Shape).ShapeCasts ⟨2, ![2000, 32]⟩) (p : Fin 2000) (q : Fin 32) :
    shapeCast ⟨2, ![2000, 32]⟩ x hc (ix2 p q) = x (ix3 p (0 : Fin 1) q) :=
  shapeCast_apply x hc _ _ (by
    rw [Shape.rowMajor_val_two, Shape.rowMajor_val_three]
    show (p.val * 1 + 0) * 32 + q.val = p.val * 32 + q.val
    omega)

/-- That contribution at entry (p, j), for neighbour k with o1 = 33k and o2 = 33k + 32. -/
theorem part_apply (f : FVec Ideal ⟨2, ![2000, 32]⟩ .f32) (g : FVec Ideal ⟨3, ![2000, 6, 32]⟩ .f32)
    (d : FVec Ideal ⟨2, ![2000, 6]⟩ .f32) (w : FVec Ideal ⟨2, ![198, 32]⟩ .f32) (kk o1 o2 : ℕ)
    (D : DotDims ⟨2, ![2000, 32]⟩ ⟨2, ![32, 32]⟩ ⟨2, ![2000, 32]⟩) (hD : D = DotDims.plain 2000 32 32)
    (hg) (hc) (hd) (hw1) (hw2) (hb1) (hb2) (hl)
    (k : Fin 6) (hk : k.val = kk) (h1 : o1 = 33 * kk) (h2 : o2 = 33 * kk + 32) (p : Fin 2000) (j : Fin 32) :
    part f g d w kk o1 o2 D hg hc hd hw1 hw2 hb1 hb2 hl (ix2 p j)
      = (∑ q : Fin 32, (f (ix2 p q) - g (ix3 p k q)) * w (ix2 (Spec.erow k ⟨q.val, by omega⟩) j))
        + d (ix2 p k) * w (ix2 (Spec.erow k ⟨32, by omega⟩) j) := by
  unfold part
  rw [addf_apply, Cert.PlainDot.matmul_zero_ix2 D hD, mulf_apply,
    Cert.LibColBroadcast.broadcastTo_a1_ab_apply, Cert.LibRowBroadcast.broadcastTo_1b_ab_apply,
    slice2_axis1_apply kk d hd p (0 : Fin 1) k (by rw [hk]; rfl),
    slice2_axis0_apply o2 w hw2 (0 : Fin 1) j (Spec.erow k ⟨32, by omega⟩) (by show 33 * k.val + 32 = o2 + 0; omega)]
  refine congrArg (· + _) (Finset.sum_congr rfl fun q _ => ?_)
  show (f (ix2 p q) - shapeCast ⟨2, ![2000, 32]⟩ (extractStridedSlice ⟨3, ![2000, 1, 32]⟩ ![0, kk, 0] g hg) hc (ix2 p q))
      * extractStridedSlice ⟨2, ![32, 32]⟩ ![o1, 0] w hw1 (ix2 q j) = _
  rw [squeeze_apply, slice3_axis1_apply kk g hg p (0 : Fin 1) q k (by rw [hk]; rfl),
    slice2_axis0_apply o1 w hw1 q j (Spec.erow k ⟨q.val, by omega⟩) (by show 33 * k.val + q.val = o1 + q.val; omega)]

/-- The self logit column joined with the six edge logits: entry (p, c) of the [2000, 7] block. -/
theorem logits_apply (s : FVec Ideal ⟨2, ![2000, 1]⟩ .f32) (e : FVec Ideal ⟨2, ![2000, 6]⟩ .f32)
    (hcat : Shape.Concatenates [(⟨2, ![2000, 1]⟩ : Shape), ⟨2, ![2000, 6]⟩] ⟨2, ![2000, 7]⟩ (1 : Fin 2))
    (p : Fin 2000) (c : Fin 7) :
    concatenate ⟨2, ![2000, 7]⟩ (1 : Fin 2) [⟨⟨2, ![2000, 1]⟩, s⟩, ⟨⟨2, ![2000, 6]⟩, e⟩] hcat (ix2 p c)
      = Spec.logit (s (ix2 p (0 : Fin 1))) (fun n => e (ix2 p n)) c := by
  unfold Spec.logit
  split
  · next h => exact Cert.LibMatrixLayout.concat_cols_left s e hcat p (0 : Fin 1) c h
  · next h => exact Cert.LibMatrixLayout.concat_cols_right s e hcat p ⟨c.val - 1, by omega⟩ c (by show c.val = 1 + (c.val - 1); omega)

/-- A [2000] vector as a column broadcast along seven columns reads, at (p, c), its entry p. -/
theorem colcast_apply (v : FVec Ideal ⟨1, ![2000]⟩ .f32) (hc : (⟨1, ![2000]⟩ : Shape).ShapeCasts ⟨2, ![2000, 1]⟩)
    (hb : (⟨2, ![2000, 1]⟩ : Shape).Broadcasts ⟨2, ![2000, 7]⟩) (p : Fin 2000) (c : Fin 7) :
    broadcastTo ⟨2, ![2000, 7]⟩ (shapeCast ⟨2, ![2000, 1]⟩ v hc) hb (ix2 p c) = v (ix1 p) := by
  rw [Cert.LibColBroadcast.broadcastTo_a1_ab_apply, Cert.LibMatrixLayout.shapeCast_a_a1_apply]

/-- The index of column k of row p, as the row reduction names it. -/
theorem lift_row (hred : (⟨2, ![2000, 7]⟩ : Shape).Reduces [(1 : Fin 2)] ⟨1, ![2000]⟩) (p : Fin 2000) (k : Fin 7) :
    hred.lift (ix1 p) k = ix2 p k :=
  funext fun a => Fin.ext (by
    match a with
    | ⟨0, _⟩ => rfl
    | ⟨1, _⟩ => rfl)

/-- The softmax of a row of seven logits as the second kernel's body spells it: the row maximum (a fold of max from −∞),
    the exponentials of the shifted logits, their sum, and the quotient. -/
theorem softmax_apply (z : FVec Ideal ⟨2, ![2000, 7]⟩ .f32)
    (hred : (⟨2, ![2000, 7]⟩ : Shape).Reduces [(1 : Fin 2)] ⟨1, ![2000]⟩)
    (hc : (⟨1, ![2000]⟩ : Shape).ShapeCasts ⟨2, ![2000, 1]⟩) (hb : (⟨2, ![2000, 1]⟩ : Shape).Broadcasts ⟨2, ![2000, 7]⟩)
    (hφ : FKind.Formats .f32) (ha1 : (0xFF800000#32 : BitVec FTy.f32.bits) = FKind.maximumf.neutral .f32 hφ)
    (ha2 : (0x00000000#32 : BitVec FTy.f32.bits) = FKind.add.neutral .f32 hφ) (p : Fin 2000) (c : Fin 7) :
    divf (exp (subf z (broadcastTo ⟨2, ![2000, 7]⟩ (shapeCast ⟨2, ![2000, 1]⟩
        (multiReduction .maximumf [(1 : Fin 2)] ⟨1, ![2000]⟩ z 0xFF800000#32 hred hφ ha1) hc) hb)))
      (broadcastTo ⟨2, ![2000, 7]⟩ (shapeCast ⟨2, ![2000, 1]⟩
        (multiReduction .add [(1 : Fin 2)] ⟨1, ![2000]⟩
          (exp (subf z (broadcastTo ⟨2, ![2000, 7]⟩ (shapeCast ⟨2, ![2000, 1]⟩
            (multiReduction .maximumf [(1 : Fin 2)] ⟨1, ![2000]⟩ z 0xFF800000#32 hred hφ ha1) hc) hb)))
          0x00000000#32 hred hφ ha2) hc) hb) (ix2 p c)
      = Spec.softmax (fun k => z (ix2 p k)) c := by
  have hmax : multiReduction .maximumf [(1 : Fin 2)] ⟨1, ![2000]⟩ z 0xFF800000#32 hred hφ ha1 (ix1 p)
      = Spec.top (fun k => z (ix2 p k)) := by
    have key : (Finset.univ : Finset (Fin 7)).fold max (Ideal.ofBits .f32 0xFF800000#32) (fun k : Fin 7 => z (hred.lift (ix1 p) k))
        = Spec.top (fun k => z (ix2 p k)) := by
      have hf : (fun k : Fin 7 => z (hred.lift (ix1 p) k)) = fun k => z (ix2 p k) := funext fun k => by rw [lift_row]
      rw [hf, Spec.ofBits_neg_inf]
      rfl
    exact (Ideal.multiReduction_maximumf_single z _ hred hφ ha1 (ix1 p)).trans key
  have hexp : ∀ k : Fin 7, exp (subf z (broadcastTo ⟨2, ![2000, 7]⟩ (shapeCast ⟨2, ![2000, 1]⟩
        (multiReduction .maximumf [(1 : Fin 2)] ⟨1, ![2000]⟩ z 0xFF800000#32 hred hφ ha1) hc) hb)) (ix2 p k)
      = Ideal.exp (z (ix2 p k) - Spec.top (fun k => z (ix2 p k))) := fun k => by
    show Ideal.exp (z (ix2 p k) - broadcastTo ⟨2, ![2000, 7]⟩ (shapeCast ⟨2, ![2000, 1]⟩
        (multiReduction .maximumf [(1 : Fin 2)] ⟨1, ![2000]⟩ z 0xFF800000#32 hred hφ ha1) hc) hb (ix2 p k)) = _
    rw [colcast_apply, hmax]
  rw [divf_apply, hexp c, colcast_apply, Ideal.multiReduction_add_single]
  unfold Spec.softmax
  refine congrArg (Ideal.div _) ?_
  have key : ∑ k : Fin 7, exp (subf z (broadcastTo ⟨2, ![2000, 7]⟩ (shapeCast ⟨2, ![2000, 1]⟩
        (multiReduction .maximumf [(1 : Fin 2)] ⟨1, ![2000]⟩ z 0xFF800000#32 hred hφ ha1) hc) hb)) (hred.lift (ix1 p) k)
      = ∑ c' : Fin 7, Ideal.exp (z (ix2 p c') - Spec.top (fun k => z (ix2 p k))) :=
    Finset.sum_congr rfl fun k _ => by rw [lift_row, hexp k]
  exact key

end Cert.KernelOps

end
-- ==== Proof.RegionBPay.lean ====
/-
  The second kernel's body at one entry.  Its block of the output is a function of the blocks it loads: the node features
  x0 [2000, 32], the gathered neighbour features x1 [2000, 6, 32], the squared distances x2 [2000, 6], the self logits
  x3 [2000, 1] and the edge weights.  The hidden layer is accumulated neighbour by neighbour from zero; then two dense
  layers, the self logit in front of the six edge logits, and the softmax of the seven.
-/
import proofs.«133679_j23562190586025_2_alg».proof.Proof.Gen.KernelIdeal.Skeleton
import proofs.«133679_j23562190586025_2_alg».proof.Proof.KernelOps

set_option maxRecDepth 16384

noncomputable section

namespace Cert.RegionBPay

open Idealize.ShloMosaic Idealize.ShloMosaic.ValueIdx Cert.KernelIdeal Cert.KernelIdeal.Gen

variable [Cert.KernelIdeal.Facts]

/-- The first edge layer before its elu is the sum, from zero, of the six neighbours' contributions, plus the bias row. -/
theorem hidden_eq (x0 : Vec Ideal S2000x32 .f32) (x1 : Vec Ideal S2000x6x32 .f32) (x2 : Vec Ideal S2000x6 .f32) (x3 : Vec Ideal S2000x1 .f32) (x4 : Vec Ideal S198x32 .f32) (x5 : Vec Ideal S32 .f32) (x6 : Vec Ideal S32x32 .f32) (x7 : Vec Ideal S32 .f32) (x8 : Vec Ideal S32x6 .f32) (x9 : Vec Ideal S6 .f32) :
    k1_pay10 (F := Ideal) (k1_pay2 x0) (k1_pay3 x1) x2 x4 (k1_pay5 x0 x1 x2 x4) (k1_pay6 x2) (k1_pay7 x4) (k1_pay8 x4) (k1_pay9 x0 x1) x5
      = addf (addf (addf (addf (addf (addf (addf (broadcast S2000x32 (Scalar.ofBits (F := Ideal) .f32 0x00000000#32))
          (KernelOps.part (k1_pay2 x0) (k1_pay3 x1) x2 x4 0 0 32 dot_S2000x32_S32x32_S2000x32_1_0_0_1_n_n slices_S2000x6x32_o0_0_0_S2000x1x32 shapeCasts_S2000x1x32_S2000x32 slices_S2000x6_o0_0_S2000x1 slices_S198x32_o0_0_S32x32 slices_S198x32_o32_0_S1x32 broadcasts_S2000x1_S2000x32 broadcasts_S1x32_S2000x32 bitsLt_bf16_f32))
          (KernelOps.part (k1_pay2 x0) (k1_pay3 x1) x2 x4 1 33 65 dot_S2000x32_S32x32_S2000x32_1_0_0_1_n_n slices_S2000x6x32_o0_1_0_S2000x1x32 shapeCasts_S2000x1x32_S2000x32 slices_S2000x6_o0_1_S2000x1 slices_S198x32_o33_0_S32x32 slices_S198x32_o65_0_S1x32 broadcasts_S2000x1_S2000x32 broadcasts_S1x32_S2000x32 bitsLt_bf16_f32))
          (KernelOps.part (k1_pay2 x0) (k1_pay3 x1) x2 x4 2 66 98 dot_S2000x32_S32x32_S2000x32_1_0_0_1_n_n slices_S2000x6x32_o0_2_0_S2000x1x32 shapeCasts_S2000x1x32_S2000x32 slices_S2000x6_o0_2_S2000x1 slices_S198x32_o66_0_S32x32 slices_S198x32_o98_0_S1x32 broadcasts_S2000x1_S2000x32 broadcasts_S1x32_S2000x32 bitsLt_bf16_f32))
          (KernelOps.part (k1_pay2 x0) (k1_pay3 x1) x2 x4 3 99 131 dot_S2000x32_S32x32_S2000x32_1_0_0_1_n_n slices_S2000x6x32_o0_3_0_S2000x1x32 shapeCasts_S2000x1x32_S2000x32 slices_S2000x6_o0_3_S2000x1 slices_S198x32_o99_0_S32x32 slices_S198x32_o131_0_S1x32 broadcasts_S2000x1_S2000x32 broadcasts_S1x32_S2000x32 bitsLt_bf16_f32))
          (KernelOps.part (k1_pay2 x0) (k1_pay3 x1) x2 x4 4 132 164 dot_S2000x32_S32x32_S2000x32_1_0_0_1_n_n slices_S2000x6x32_o0_4_0_S2000x1x32 shapeCasts_S2000x1x32_S2000x32 slices_S2000x6_o0_4_S2000x1 slices_S198x32_o132_0_S32x32 slices_S198x32_o164_0_S1x32 broadcasts_S2000x1_S2000x32 broadcasts_S1x32_S2000x32 bitsLt_bf16_f32))
          (KernelOps.part (k1_pay2 x0) (k1_pay3 x1) x2 x4 5 165 197 dot_S2000x32_S32x32_S2000x32_1_0_0_1_n_n slices_S2000x6x32_o0_5_0_S2000x1x32 shapeCasts_S2000x1x32_S2000x32 slices_S2000x6_o0_5_S2000x1 slices_S198x32_o165_0_S32x32 slices_S198x32_o197_0_S1x32 broadcasts_S2000x1_S2000x32 broadcasts_S1x32_S2000x32 bitsLt_bf16_f32))
          (broadcastTo S2000x32 (shapeCast S1x32 x5 shapeCasts_S32_S1x32) broadcasts_S1x32_S2000x32) := rfl

/-- Entry (p, j) of the first edge layer before its elu. -/
theorem hidden_apply (x0 : Vec Ideal S2000x32 .f32) (x1 : Vec Ideal S2000x6x32 .f32) (x2 : Vec Ideal S2000x6 .f32) (x3 : Vec Ideal S2000x1 .f32) (x4 : Vec Ideal S198x32 .f32) (x5 : Vec Ideal S32 .f32) (x6 : Vec Ideal S32x32 .f32) (x7 : Vec Ideal S32 .f32) (x8 : Vec Ideal S32x6 .f32) (x9 : Vec Ideal S6 .f32) (p : Fin 2000) (j : Fin 32) :
    k1_pay10 (F := Ideal) (k1_pay2 x0) (k1_pay3 x1) x2 x4 (k1_pay5 x0 x1 x2 x4) (k1_pay6 x2) (k1_pay7 x4) (k1_pay8 x4) (k1_pay9 x0 x1) x5 (ix2 p j)
      = Spec.edgeIn (fun q => x0 (ix2 p q)) (fun k q => x1 (ix3 p k q)) (fun k => x2 (ix2 p k)) x4 j + x5 (ix1 j) := by
  have e2 : k1_pay2 (F := Ideal) x0 = x0 := shapeCast_self _ _
  have e3 : k1_pay3 (F := Ideal) x1 = x1 := shapeCast_self _ _
  rw [hidden_eq x0 x1 x2 x3 x4 x5 x6 x7 x8 x9]
  simp only [addf_apply]
  rw [KernelOps.part_apply (k1_pay2 x0) (k1_pay3 x1) x2 x4 0 0 32 dot_S2000x32_S32x32_S2000x32_1_0_0_1_n_n rfl slices_S2000x6x32_o0_0_0_S2000x1x32 shapeCasts_S2000x1x32_S2000x32 slices_S2000x6_o0_0_S2000x1 slices_S198x32_o0_0_S32x32 slices_S198x32_o32_0_S1x32 broadcasts_S2000x1_S2000x32 broadcasts_S1x32_S2000x32 bitsLt_bf16_f32 (0 : Fin 6) rfl rfl rfl p j,
    KernelOps.part_apply (k1_pay2 x0) (k1_pay3 x1) x2 x4 1 33 65 dot_S2000x32_S32x32_S2000x32_1_0_0_1_n_n rfl slices_S2000x6x32_o0_1_0_S2000x1x32 shapeCasts_S2000x1x32_S2000x32 slices_S2000x6_o0_1_S2000x1 slices_S198x32_o33_0_S32x32 slices_S198x32_o65_0_S1x32 broadcasts_S2000x1_S2000x32 broadcasts_S1x32_S2000x32 bitsLt_bf16_f32 (1 : Fin 6) rfl rfl rfl p j,
    KernelOps.part_apply (k1_pay2 x0) (k1_pay3 x1) x2 x4 2 66 98 dot_S2000x32_S32x32_S2000x32_1_0_0_1_n_n rfl slices_S2000x6x32_o0_2_0_S2000x1x32 shapeCasts_S2000x1x32_S2000x32 slices_S2000x6_o0_2_S2000x1 slices_S198x32_o66_0_S32x32 slices_S198x32_o98_0_S1x32 broadcasts_S2000x1_S2000x32 broadcasts_S1x32_S2000x32 bitsLt_bf16_f32 (2 : Fin 6) rfl rfl rfl p j,
    KernelOps.part_apply (k1_pay2 x0) (k1_pay3 x1) x2 x4 3 99 131 dot_S2000x32_S32x32_S2000x32_1_0_0_1_n_n rfl slices_S2000x6x32_o0_3_0_S2000x1x32 shapeCasts_S2000x1x32_S2000x32 slices_S2000x6_o0_3_S2000x1 slices_S198x32_o99_0_S32x32 slices_S198x32_o131_0_S1x32 broadcasts_S2000x1_S2000x32 broadcasts_S1x32_S2000x32 bitsLt_bf16_f32 (3 : Fin 6) rfl rfl rfl p j,
    KernelOps.part_apply (k1_pay2 x0) (k1_pay3 x1) x2 x4 4 132 164 dot_S2000x32_S32x32_S2000x32_1_0_0_1_n_n rfl slices_S2000x6x32_o0_4_0_S2000x1x32 shapeCasts_S2000x1x32_S2000x32 slices_S2000x6_o0_4_S2000x1 slices_S198x32_o132_0_S32x32 slices_S198x32_o164_0_S1x32 broadcasts_S2000x1_S2000x32 broadcasts_S1x32_S2000x32 bitsLt_bf16_f32 (4 : Fin 6) rfl rfl rfl p j,
    KernelOps.part_apply (k1_pay2 x0) (k1_pay3 x1) x2 x4 5 165 197 dot_S2000x32_S32x32_S2000x32_1_0_0_1_n_n rfl slices_S2000x6x32_o0_5_0_S2000x1x32 shapeCasts_S2000x1x32_S2000x32 slices_S2000x6_o0_5_S2000x1 slices_S198x32_o165_0_S32x32 slices_S198x32_o197_0_S1x32 broadcasts_S2000x1_S2000x32 broadcasts_S1x32_S2000x32 bitsLt_bf16_f32 (5 : Fin 6) rfl rfl rfl p j,
    Cert.LibRowBroadcast.broadcastTo_1b_ab_apply, shapeCast_a_1a_apply, e2, e3]
  show Ideal.ofBits .f32 0x00000000#32 + _ + _ + _ + _ + _ + _ + _ = _
  rw [Spec.ofBits_zero, zero_add]
  unfold Spec.edgeIn
  rw [Fin.sum_univ_six]

/-- Entry (p, c) of the body's block of the output: the softmax of the node's seven logits. -/
theorem body_apply (x0 : Vec Ideal S2000x32 .f32) (x1 : Vec Ideal S2000x6x32 .f32) (x2 : Vec Ideal S2000x6 .f32) (x3 : Vec Ideal S2000x1 .f32) (x4 : Vec Ideal S198x32 .f32) (x5 : Vec Ideal S32 .f32) (x6 : Vec Ideal S32x32 .f32) (x7 : Vec Ideal S32 .f32) (x8 : Vec Ideal S32x6 .f32) (x9 : Vec Ideal S6 .f32) (p : Fin 2000) (c : Fin 7) :
    k1_pay1 (F := Ideal) (k1_pay4 x3) (k1_pay10 (k1_pay2 x0) (k1_pay3 x1) x2 x4 (k1_pay5 x0 x1 x2 x4) (k1_pay6 x2) (k1_pay7 x4) (k1_pay8 x4) (k1_pay9 x0 x1) x5) (k1_pay11 (k1_pay2 x0) (k1_pay3 x1) x2 x4 (k1_pay5 x0 x1 x2 x4) (k1_pay6 x2) (k1_pay7 x4) (k1_pay8 x4) (k1_pay9 x0 x1) x5) x6 x7 x8 x9 (ix2 p c)
      = Spec.softmax (Spec.logit (x3 (ix2 p (0 : Fin 1)))
          (Spec.edgeLogit (fun q => x0 (ix2 p q)) (fun k q => x1 (ix3 p k q)) (fun k => x2 (ix2 p k)) x4 x5 x6 x7 x8 x9)) c := by
  have hH := hidden_apply x0 x1 x2 x3 x4 x5 x6 x7 x8 x9 p
  unfold k1_pay11
  dsimp only
  generalize k1_pay10 (F := Ideal) (k1_pay2 x0) (k1_pay3 x1) x2 x4 (k1_pay5 x0 x1 x2 x4) (k1_pay6 x2) (k1_pay7 x4) (k1_pay8 x4) (k1_pay9 x0 x1) x5 = H at hH ⊢
  unfold k1_pay1 k1_pay4
  dsimp only
  refine (KernelOps.softmax_apply _ _ _ _ _ _ _ p c).trans ?_
  refine congrArg (fun z => Spec.softmax z c) (funext fun k => ?_)
  refine (KernelOps.logits_apply _ _ _ p k).trans ?_
  rw [shapeCast_self]
  refine congrArg (fun e => Spec.logit _ e k) (funext fun n => ?_)
  refine (KernelOps.dense_apply _ rfl _ _ _ _ _ _ p n).trans ?_
  unfold Spec.edgeLogit
  refine congrArg (fun h => Spec.dense h x8 x9 n) (funext fun q2 => ?_)
  refine (KernelOps.elu_apply _ _).trans (congrArg Spec.elu ?_)
  refine (KernelOps.dense_apply _ rfl _ _ _ _ _ _ p q2).trans ?_
  refine congrArg (fun h => Spec.dense h x6 x7 q2) (funext fun q1 => ?_)
  refine (KernelOps.elu_apply _ _).trans (congrArg Spec.elu ?_)
  exact hH q1

end Cert.RegionBPay

end
-- ==== Proof.RegionB.lean ====
/-
  The second pallas_call's output array.  Grid point t stages rows 2000 t … 2000 t + 1999 of the node features, the gathered
  neighbour features, the distances and the self logits (the weights whole), and writes back the same rows of the output;
  the 200 blocks tile the 400000 rows, so the array ends holding the row function of the arrays the region found.
-/
import proofs.«133679_j23562190586025_2_alg».proof.Proof.Gen.KernelIdeal.Frame
import proofs.«133679_j23562190586025_2_alg».proof.Proof.RegionBPay

set_option maxRecDepth 16384

noncomputable section

namespace Cert.RegionB

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the four row-blocked inputs and the output sit at block t of their rows, the weights at
    block 0. -/
theorem idx_facts : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = t.val ∧ win1_10.index t (1 : Fin 2) = 0 :=
  (by decide +kernel : ∀ t : Fin grid1.N, _)

/-- Row p of block t is row 2000 t + p of the array. -/
def row (t : Fin cfg1.N) (p : Fin 2000) : Fin 400000 :=
  ⟨t.val * 2000 + p.val, by have h : t.val < 200 := Nat.lt_of_lt_of_eq t.isLt N_1; have := p.isLt; omega⟩

/-- The row-blocked inputs' blocks read at an entry: the arrays at the block's rows. -/
theorem blk0 (c : Dev nD) (t : Fin cfg1.N) (p : Fin 2000) (q : Fin 32) :
    iblk1 V c 0 t (ix2 p q) = V c main_v0_0 (ix2 (row t p) q) := by
  obtain ⟨e0, e1, -⟩ := idx_facts t
  show V c main_v0_0 (((cfg1.win 0).blk t).view.emb (ix2 p q)) = V c main_v0_0 (ix2 (row t p) q)
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 32 + 1 * q.val = q.val; omega

theorem blk1 (c : Dev nD) (t : Fin cfg1.N) (p : Fin 2000) (k : Fin 6) (q : Fin 32) :
    iblk1 V c 1 t (ix3 p k q) = V c main_v13 (ix3 (row t p) k q) := by
  obtain ⟨-, -, e2, e3, e4, -⟩ := idx_facts t
  show V c main_v13 (((cfg1.win 1).blk t).view.emb (ix3 p k q)) = V c main_v13 (ix3 (row t p) k q)
  refine congrArg _ (funext fun a => Fin.ext ?_)
  match a with
  | ⟨0, _⟩ => show win1_1.index t (0 : Fin 3) * 2000 + 1 * p.val = t.val * 2000 + p.val; omega
  | ⟨1, _⟩ => show win1_1.index t (1 : Fin 3) * 6 + 1 * k.val = k.val; omega
  | ⟨2, _⟩ => show win1_1.index t (2 : Fin 3) * 32 + 1 * q.val = q.val; omega

theorem blk2 (c : Dev nD) (t : Fin cfg1.N) (p : Fin 2000) (k : Fin 6) :
    iblk1 V c 2 t (ix2 p k) = V c main_arg1 (ix2 (row t p) k) := by
  obtain ⟨-, -, -, -, -, e5, e6, -⟩ := idx_facts t
  show V c main_arg1 (((cfg1.win 2).blk t).view.emb (ix2 p k)) = V c main_arg1 (ix2 (row t p) k)
  refine congrArg _ (funext fun a => Fin.ext ?_)
  match a with
  | ⟨0, _⟩ => show win1_2.index t (0 : Fin 2) * 2000 + 1 * p.val = t.val * 2000 + p.val; omega
  | ⟨1, _⟩ => show win1_2.index t (1 : Fin 2) * 6 + 1 * k.val = k.val; omega

theorem blk3 (c : Dev nD) (t : Fin cfg1.N) (p : Fin 2000) (u : Fin 1) :
    iblk1 V c 3 t (ix2 p u) = V c main_v0_1 (ix2 (row t p) u) := by
  obtain ⟨-, -, -, -, -, -, -, e7, e8, -⟩ := idx_facts t
  show V c main_v0_1 (((cfg1.win 3).blk t).view.emb (ix2 p u)) = V c main_v0_1 (ix2 (row t p) u)
  refine congrArg _ (funext fun a => Fin.ext ?_)
  match a with
  | ⟨0, _⟩ => show win1_3.index t (0 : Fin 2) * 2000 + 1 * p.val = t.val * 2000 + p.val; omega
  | ⟨1, _⟩ => show win1_3.index t (1 : Fin 2) * 1 + 1 * u.val = u.val; omega

/-- The weights' blocks are the whole arrays. -/
theorem blk4 (c : Dev nD) (t : Fin cfg1.N) : iblk1 V c 4 t = V c main_arg5 := by
  obtain ⟨e0, e1, e2, e3, e4, e5, e6, e7, e8, e9, e10, e11, e12, e13, e14, e15, e16, e17, e18, e19⟩ := idx_facts t
  funext y
  show V c main_arg5 (((cfg1.win 4).blk t).view.emb y) = V c main_arg5 y
  refine congrArg _ (funext fun a => Fin.ext ?_)
  match a with
  | ⟨0, _⟩ => show win1_4.index t (0 : Fin 2) * 198 + 1 * (y 0).val = (y 0).val; omega
  | ⟨1, _⟩ => show win1_4.index t (1 : Fin 2) * 32 + 1 * (y 1).val = (y 1).val; omega
theorem blk5 (c : Dev nD) (t : Fin cfg1.N) : iblk1 V c 5 t = V c main_arg6 := by
  obtain ⟨e0, e1, e2, e3, e4, e5, e6, e7, e8, e9, e10, e11, e12, e13, e14, e15, e16, e17, e18, e19⟩ := idx_facts t
  funext y
  show V c main_arg6 (((cfg1.win 5).blk t).view.emb y) = V c main_arg6 y
  refine congrArg _ (funext fun a => Fin.ext ?_)
  match a with
  | ⟨0, _⟩ => show win1_5.index t (0 : Fin 1) * 32 + 1 * (y 0).val = (y 0).val; omega
theorem blk6 (c : Dev nD) (t : Fin cfg1.N) : iblk1 V c 6 t = V c main_arg7 := by
  obtain ⟨e0, e1, e2, e3, e4, e5, e6, e7, e8, e9, e10, e11, e12, e13, e14, e15, e16, e17, e18, e19⟩ := idx_facts t
  funext y
  show V c main_arg7 (((cfg1.win 6).blk t).view.emb y) = V c main_arg7 y
  refine congrArg _ (funext fun a => Fin.ext ?_)
  match a with
  | ⟨0, _⟩ => show win1_6.index t (0 : Fin 2) * 32 + 1 * (y 0).val = (y 0).val; omega
  | ⟨1, _⟩ => show win1_6.index t (1 : Fin 2) * 32 + 1 * (y 1).val = (y 1).val; omega
theorem blk7 (c : Dev nD) (t : Fin cfg1.N) : iblk1 V c 7 t = V c main_arg8 := by
  obtain ⟨e0, e1, e2, e3, e4, e5, e6, e7, e8, e9, e10, e11, e12, e13, e14, e15, e16, e17, e18, e19⟩ := idx_facts t
  funext y
  show V c main_arg8 (((cfg1.win 7).blk t).view.emb y) = V c main_arg8 y
  refine congrArg _ (funext fun a => Fin.ext ?_)
  match a with
  | ⟨0, _⟩ => show win1_7.index t (0 : Fin 1) * 32 + 1 * (y 0).val = (y 0).val; omega
theorem blk8 (c : Dev nD) (t : Fin cfg1.N) : iblk1 V c 8 t = V c main_arg9 := by
  obtain ⟨e0, e1, e2, e3, e4, e5, e6, e7, e8, e9, e10, e11, e12, e13, e14, e15, e16, e17, e18, e19⟩ := idx_facts t
  funext y
  show V c main_arg9 (((cfg1.win 8).blk t).view.emb y) = V c main_arg9 y
  refine congrArg _ (funext fun a => Fin.ext ?_)
  match a with
  | ⟨0, _⟩ => show win1_8.index t (0 : Fin 2) * 32 + 1 * (y 0).val = (y 0).val; omega
  | ⟨1, _⟩ => show win1_8.index t (1 : Fin 2) * 6 + 1 * (y 1).val = (y 1).val; omega
theorem blk9 (c : Dev nD) (t : Fin cfg1.N) : iblk1 V c 9 t = V c main_arg10 := by
  obtain ⟨e0, e1, e2, e3, e4, e5, e6, e7, e8, e9, e10, e11, e12, e13, e14, e15, e16, e17, e18, e19⟩ := idx_facts t
  funext y
  show V c main_arg10 (((cfg1.win 9).blk t).view.emb y) = V c main_arg10 y
  refine congrArg _ (funext fun a => Fin.ext ?_)
  match a with
  | ⟨0, _⟩ => show win1_9.index t (0 : Fin 1) * 6 + 1 * (y 0).val = (y 0).val; omega

/-- Entry (p, cc) of the output's block t is entry (2000 t + p, cc) of the array. -/
theorem emb10 (t : Fin cfg1.N) (p : Fin 2000) (cc : Fin 7) :
    ((cfg1.win 10).blk t).view.emb (ix2 p cc) = ix2 (row t p) cc := by
  obtain ⟨-, -, -, -, -, -, -, -, -, -, -, -, -, -, -, -, -, -, e18, e19⟩ := idx_facts t
  refine funext fun a => Fin.ext ?_
  match a with
  | ⟨0, _⟩ => show win1_10.index t (0 : Fin 2) * 2000 + 1 * p.val = t.val * 2000 + p.val; omega
  | ⟨1, _⟩ => show win1_10.index t (1 : Fin 2) * 7 + 1 * cc.val = cc.val; omega

/-- What point t writes back: block t of the row function of the arrays the region found. -/
theorem flushed_eq (c : Dev nD) (t : Fin cfg1.N) :
    (dat1 V c).flushed 10 t = ((cfg1.win 10).blk t).view.read (Elt Ideal)
      (Spec.outOfArr (V c main_v0_0) (V c main_v13) (V c main_arg1) (V c main_v0_1) (V c main_arg5) (V c main_arg6)
        (V c main_arg7) (V c main_arg8) (V c main_arg9) (V c main_arg10)) := by
  show (cfg1.win 10).cut (grid1.coords t) ((dat1 V c).after 10 t) = _
  rw [after1_10]
  unfold out1_10
  rw [View.canon_unit_zero hz2]
  simp only [View.ld_unit_zero (S := S2000x32) hz2, View.ld_unit_zero (S := S2000x6x32) hz3, View.ld_unit_zero (S := S2000x6) hz2,
    View.ld_unit_zero (S := S2000x1) hz2, View.ld_unit_zero (S := S198x32) hz2, View.ld_unit_zero (S := S32) hz1,
    View.ld_unit_zero (S := S32x32) hz2, View.ld_unit_zero (S := S32x6) hz2, View.ld_unit_zero (S := S6) hz1]
  funext y
  obtain ⟨p, cc, rfl⟩ : ∃ (p : Fin 2000) (cc : Fin 7), y = ix2 p cc := ⟨y 0, y 1, eq_ix2 y⟩
  show k1_pay1 (F := Ideal) _ _ _ _ _ _ _ (ix2 p cc) = Spec.outOfArr _ _ _ _ _ _ _ _ _ _ (((cfg1.win 10).blk t).view.emb (ix2 p cc))
  refine (RegionBPay.body_apply _ _ _ _ _ _ _ _ _ _ p cc).trans ?_
  rw [emb10, blk4, blk5, blk6, blk7, blk8, blk9, blk3]
  have h0 : (fun q => iblk1 V c 0 t (ix2 p q)) = fun q => V c main_v0_0 (ix2 (row t p) q) := funext fun q => blk0 V c t p q
  have h1 : (fun k q => iblk1 V c 1 t (ix3 p k q)) = fun k q => V c main_v13 (ix3 (row t p) k q) :=
    funext fun k => funext fun q => blk1 V c t p k q
  have h2 : (fun k => iblk1 V c 2 t (ix2 p k)) = fun k => V c main_arg1 (ix2 (row t p) k) := funext fun k => blk2 V c t p k
  rw [h0, h1, h2]
  rfl

/-- An index of the array is in point t's block iff each coordinate is in the block's range on its axis. -/
theorem mem_blk (t : Fin cfg1.N) (i : S400000x7.Idx) :
    i ∈ ((cfg1.win 10).blk t).view.set ↔ ∀ a : Fin 2, win1_10.index t a * S2000x7.size a ≤ (i a).val ∧ (i a).val < win1_10.index t a * S2000x7.size a + S2000x7.size a := by
  show i ∈ ((View.whole main_v14).slice (win1_10.rect t)).set ↔ _
  rw [View.set_slice_whole, Rect.mem_set_unit]
  exact Iff.rfl

/-- Every row of the output is in the block of the point that its row number divided by 2000 names. -/
theorem cover (i : S400000x7.Idx) : ∃ t : Fin cfg1.N, (cfg1.win 10).flush t = true ∧ i ∈ ((cfg1.win 10).blk t).view.set := by
  have hi0 : (i 0).val < 400000 := (i 0).isLt
  have hi1 : (i 1).val < 7 := (i 1).isLt
  let t : Fin cfg1.N := ⟨(i 0).val / 2000, Nat.lt_of_lt_of_eq (by omega : (i 0).val / 2000 < 200) N_1.symm⟩
  obtain ⟨-, -, -, -, -, -, -, -, -, -, -, -, -, -, -, -, -, -, e18, e19⟩ := idx_facts t
  refine ⟨t, flush1_10 t, ?_⟩
  rw [mem_blk]
  intro a
  have ht : t.val = (i 0).val / 2000 := rfl
  match a with
  | ⟨0, _⟩ => show win1_10.index t (0 : Fin 2) * 2000 ≤ (i 0).val ∧ (i 0).val < win1_10.index t (0 : Fin 2) * 2000 + 2000; omega
  | ⟨1, _⟩ => show win1_10.index t (1 : Fin 2) * 7 ≤ (i 1).val ∧ (i 1).val < win1_10.index t (1 : Fin 2) * 7 + 7; omega

/-- THE ARRAY after the region: the row function of the arrays the region found. -/
theorem final (c : Dev nD) : (dat1 V c).arrAt 10 cfg1.N
    = Spec.outOfArr (V c main_v0_0) (V c main_v13) (V c main_arg1) (V c main_v0_1) (V c main_arg5) (V c main_arg6)
        (V c main_arg7) (V c main_arg8) (V c main_arg9) (V c main_arg10) :=
  (dat1 V c).arrAt_eq_of_cover 10 _ (fun t _ => flushed_eq V c t) cover

end Cert.RegionB

end
-- ==== Proof.KernelValue.lean ====
/-
  The idealized kernel program's result array as a function of the argument arrays.  The second region writes the row
  function of what it finds; it finds the first region's two outputs (the pre-dense features and the self logits, each
  a row function of the arguments), the host's gather of the first of them, and argument arrays nothing has written.
-/
import proofs.«133679_j23562190586025_2_alg».proof.Proof.KernelRun
import proofs.«133679_j23562190586025_2_alg».proof.Proof.KernelHost
import proofs.«133679_j23562190586025_2_alg».proof.Proof.RegionA
import proofs.«133679_j23562190586025_2_alg».proof.Proof.RegionB

set_option maxRecDepth 16384

noncomputable section

namespace Cert.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## What no host operation between the regions writes -/

theorem keep_xp (c : Dev nD) : V3 m ρ c main_v0_0 = W1 m ρ c (Proc.devRef .tc main_v0_0) :=
  KernelHost.keep m ρ c main_v0_0
    (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_xs (c : Dev nD) : V3 m ρ c main_v0_1 = W1 m ρ c (Proc.devRef .tc main_v0_1) :=
  KernelHost.keep m ρ c main_v0_1
    (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_arg1 (c : Dev nD) : V3 m ρ c main_arg1 = W1 m ρ c (Proc.devRef .tc main_arg1) :=
  KernelHost.keep m ρ c main_arg1
    (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_arg5 (c : Dev nD) : V3 m ρ c main_arg5 = W1 m ρ c (Proc.devRef .tc main_arg5) :=
  KernelHost.keep m ρ c main_arg5
    (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_arg6 (c : Dev nD) : V3 m ρ c main_arg6 = W1 m ρ c (Proc.devRef .tc main_arg6) :=
  KernelHost.keep m ρ c main_arg6
    (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_arg7 (c : Dev nD) : V3 m ρ c main_arg7 = W1 m ρ c (Proc.devRef .tc main_arg7) :=
  KernelHost.keep m ρ c main_arg7
    (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_arg8 (c : Dev nD) : V3 m ρ c main_arg8 = W1 m ρ c (Proc.devRef .tc main_arg8) :=
  KernelHost.keep m ρ c main_arg8
    (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_arg9 (c : Dev nD) : V3 m ρ c main_arg9 = W1 m ρ c (Proc.devRef .tc main_arg9) :=
  KernelHost.keep m ρ c main_arg9
    (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_arg10 (c : Dev nD) : V3 m ρ c main_arg10 = W1 m ρ c (Proc.devRef .tc main_arg10) :=
  KernelHost.keep m ρ c main_arg10
    (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The first region's outputs, and the arguments it does not touch -/

theorem xp_eq (c : Dev nD) : W1 m ρ c (Proc.devRef .tc main_v0_0)
    = Spec.xpArr (m ((c.tc : Thread nD τ).loc main_arg0)) (m ((c.tc : Thread nD τ).loc main_arg3)) (m ((c.tc : Thread nD τ).loc main_arg4)) :=
  (W1_arr m ρ c 9).trans (RegionA.xp_final (V0 m ρ) c)

theorem xs_eq (c : Dev nD) : W1 m ρ c (Proc.devRef .tc main_v0_1)
    = Spec.xsArr (m ((c.tc : Thread nD τ).loc main_arg0)) (m ((c.tc : Thread nD τ).loc main_arg11)) (m ((c.tc : Thread nD τ).loc main_arg12))
        (m ((c.tc : Thread nD τ).loc main_arg13)) (m ((c.tc : Thread nD τ).loc main_arg14)) (m ((c.tc : Thread nD τ).loc main_arg15))
        (m ((c.tc : Thread nD τ).loc main_arg16)) :=
  (W1_arr m ρ c 10).trans (RegionA.xs_final (V0 m ρ) c)

theorem W1_arg1 (c : Dev nD) : W1 m ρ c (Proc.devRef .tc main_arg1) = m ((c.tc : Thread nD τ).loc main_arg1) :=
  W1_of_ne m ρ c main_arg1 (by decide)
theorem W1_arg2 (c : Dev nD) : W1 m ρ c (Proc.devRef .tc main_arg2) = m ((c.tc : Thread nD τ).loc main_arg2) :=
  W1_of_ne m ρ c main_arg2 (by decide)
theorem W1_arg5 (c : Dev nD) : W1 m ρ c (Proc.devRef .tc main_arg5) = m ((c.tc : Thread nD τ).loc main_arg5) :=
  W1_of_ne m ρ c main_arg5 (by decide)
theorem W1_arg6 (c : Dev nD) : W1 m ρ c (Proc.devRef .tc main_arg6) = m ((c.tc : Thread nD τ).loc main_arg6) :=
  W1_of_ne m ρ c main_arg6 (by decide)
theorem W1_arg7 (c : Dev nD) : W1 m ρ c (Proc.devRef .tc main_arg7) = m ((c.tc : Thread nD τ).loc main_arg7) :=
  W1_of_ne m ρ c main_arg7 (by decide)
theorem W1_arg8 (c : Dev nD) : W1 m ρ c (Proc.devRef .tc main_arg8) = m ((c.tc : Thread nD τ).loc main_arg8) :=
  W1_of_ne m ρ c main_arg8 (by decide)
theorem W1_arg9 (c : Dev nD) : W1 m ρ c (Proc.devRef .tc main_arg9) = m ((c.tc : Thread nD τ).loc main_arg9) :=
  W1_of_ne m ρ c main_arg9 (by decide)
theorem W1_arg10 (c : Dev nD) : W1 m ρ c (Proc.devRef .tc main_arg10) = m ((c.tc : Thread nD τ).loc main_arg10) :=
  W1_of_ne m ρ c main_arg10 (by decide)

/-! ## The result -/

/-- The result array the run leaves: the network's output with the host's gather of the pre-dense features. -/
theorem result (c : Dev nD) : W4 m ρ c (Proc.devRef .tc main_v14)
    = Spec.outArr (m ((c.tc : Thread nD τ).loc main_arg0)) (m ((c.tc : Thread nD τ).loc main_arg1))
        (KernelHost.chain (F := Ideal) (Spec.xpArr (m ((c.tc : Thread nD τ).loc main_arg0)) (m ((c.tc : Thread nD τ).loc main_arg3)) (m ((c.tc : Thread nD τ).loc main_arg4)))
          (m ((c.tc : Thread nD τ).loc main_arg2)))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) := by
  refine (W4_arr m ρ c 10).trans ?_
  refine (RegionB.final (V3 m ρ) c).trans ?_
  have hg : V3 m ρ c main_v13 = KernelHost.chain (F := Ideal) (W1 m ρ c (Proc.devRef .tc main_v0_0)) (W1 m ρ c (Proc.devRef .tc main_arg2)) :=
    KernelHost.gathered_eq m ρ c
  rw [keep_xp, hg, keep_xs, keep_arg1, keep_arg5, keep_arg6, keep_arg7, keep_arg8, keep_arg9, keep_arg10,
    xp_eq, xs_eq, W1_arg1, W1_arg2, W1_arg5, W1_arg6, W1_arg7, W1_arg8, W1_arg9, W1_arg10]
  rfl

/-- The idealized kernel program's run with its result read: the result array at the network's output, the argument
    arrays unchanged. -/
theorem run : θ_run defs (onTc (τ := τ) (main (F := Ideal))) ⟨m, fun _ => 0, ρ⟩ (fun r => ∀ c : Dev nD,
      r.2.mem ((c.tc : Thread nD τ).loc main_v14)
        = Spec.outArr (m ((c.tc : Thread nD τ).loc main_arg0)) (m ((c.tc : Thread nD τ).loc main_arg1))
            (KernelHost.chain (F := Ideal) (Spec.xpArr (m ((c.tc : Thread nD τ).loc main_arg0)) (m ((c.tc : Thread nD τ).loc main_arg3)) (m ((c.tc : Thread nD τ).loc main_arg4)))
              (m ((c.tc : Thread nD τ).loc main_arg2)))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14))
            (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (result m ρ c), (h c).2⟩) (KernelRun.run m ρ)

end Cert.KernelValue

end
-- ==== Proof.RefOps.lean ====
import proofs.«133679_j23562190586025_2_alg».proof.Proof.Gen.ReferenceIdeal
import Idealize.ShloMosaic.Lib.StableHlo.Run

/-! The reference program's @main as a list of its 145 host operations — the five calls of the
    outlined elu (fifteen operations each, its two where-calls inlined) and the call of the
    outlined three-operand where (four operations) listed inline over the buffers of their call
    records — cut into nine consecutive stages, each ending at a value a later stage reads:
    the projected features, the flattened edge inputs, the three hidden layers of the edge
    network and its six logits, the two hidden layers of the self network, the seven logits with
    their row maximum, and the softmax. -/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes %22: the 32 feature differences and the edge attribute side by
    side along the last axis. Applied by name, its operands are plain arguments. -/
def cat_main_v22 : (⟨S400000x6x32, .f32⟩ : BufTy).Contents (Elt F) → (⟨S400000x6x1, .f32⟩ : BufTy).Contents (Elt F) → (⟨S400000x6x33, .f32⟩ : BufTy).Contents (Elt F) :=
  fun a b => concatenate S400000x6x33 2 [⟨S400000x6x32, a⟩, ⟨S400000x6x1, b⟩] concatenates_S400000x6x32_S400000x6x1_S400000x6x33_d2

/-- The function of the operation that writes %52: the self logit column and the six edge logits side by side. -/
def cat_main_v52 : (⟨S400000x1, .f32⟩ : BufTy).Contents (Elt F) → (⟨S400000x6, .f32⟩ : BufTy).Contents (Elt F) → (⟨S400000x7, .f32⟩ : BufTy).Contents (Elt F) :=
  fun a b => concatenate S400000x7 1 [⟨S400000x1, a⟩, ⟨S400000x6, b⟩] concatenates_S400000x1_S400000x6_S400000x7_d1

/-- Stage 0: x @ Wp + bp and its elu (values %0 … %4). -/
abbrev ops_s0 : List (HloOp τ sig (Elt F)) :=
  [ binary main_arg0 main_arg3 main_v0 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    unary main_arg4 main_v1 (broadcastInDim S1x32 ![1] bcast_S32_S1x32_1 : (⟨S32, .f32⟩ : BufTy).Contents (Elt F) → (⟨S1x32, .f32⟩ : BufTy).Contents (Elt F)),
    unary main_v1 main_v2 (broadcastInDim S400000x32 ![0, 1] bcast_S1x32_S400000x32_0_1 : (⟨S1x32, .f32⟩ : BufTy).Contents (Elt F) → (⟨S400000x32, .f32⟩ : BufTy).Contents (Elt F)),
    binary main_v0 main_v2 main_v3 (addf : (⟨S400000x32, .f32⟩ : BufTy).Contents (Elt F) → (⟨S400000x32, .f32⟩ : BufTy).Contents (Elt F) → (⟨S400000x32, .f32⟩ : BufTy).Contents (Elt F)),
    nullary main_call0_cst (constant S_ .f32 0x00000000#32),
    unary main_call0_cst main_call0_v0 (broadcastInDim S400000x32 ![] bcast_S_S400000x32 : (⟨S_, .f32⟩ : BufTy).Contents (Elt F) → (⟨S400000x32, .f32⟩ : BufTy).Contents (Elt F)),
    binary main_v3 main_call0_v0 main_call0_v1 (cmpf .ogt : (⟨S400000x32, .f32⟩ : BufTy).Contents (Elt F) → (⟨S400000x32, .f32⟩ : BufTy).Contents (Elt F) → (⟨S400000x32, .i1⟩ : BufTy).Contents (Elt F)),
    nullary main_call0_cst_0 (constant S_ .f32 0x00000000#32),
    unary main_call0_cst_0 main_call0_v2 (broadcastInDim S400000x32 ![] bcast_S_S400000x32 : (⟨S_, .f32⟩ : BufTy).Contents (Elt F) → (⟨S400000x32, .f32⟩ : BufTy).Contents (Elt F)),
    binary main_v3 main_call0_v2 main_call0_v3 (cmpf .ogt : (⟨S400000x32, .f32⟩ : BufTy).Contents (Elt F) → (⟨S400000x32, .f32⟩ : BufTy).Contents (Elt F) → (⟨S400000x32, .i1⟩ : BufTy).Contents (Elt F)),
    nullary main_call0_cst_1 (constant S_ .f32 0x00000000#32),
    unary main_call0_cst_1 main_call0_call0_v0 (id : (⟨S_, .f32⟩ : BufTy).Contents (Elt F) → (⟨S_, .f32⟩ : BufTy).Contents (Elt F)),
    unary main_call0_call0_v0 main_call0_call0_v1 (broadcastInDim S400000x32 ![] bcast_S_S400000x32 : (⟨S_, .f32⟩ : BufTy).Contents (Elt F) → (⟨S400000x32, .f32⟩ : BufTy).Contents (Elt F)),
    ternary main_call0_v3 main_call0_call0_v1 main_v3 main_call0_v4 (select : (⟨S400000x32, .i1⟩ : BufTy).Contents (Elt F) → (⟨S400000x32, .f32⟩ : BufTy).Contents (Elt F) → (⟨S400000x32, .f32⟩ : BufTy).Contents (Elt F) → (⟨S400000x32, .f32⟩ : BufTy).Contents (Elt F)),
    unary main_call0_v4 main_call0_v5 (Host.expm1 : (⟨S400000x32, .f32⟩ : BufTy).Contents (Elt F) → (⟨S400000x32, .f32⟩ : BufTy).Contents (Elt F)),
    nullary main_call0_cst_2 (constant S_ .f32 0x3F800000#32),
    unary main_call0_cst_2 main_call0_v6 (broadcastInDim S400000x32 ![] bcast_S_S400000x32 : (⟨S_, .f32⟩ : BufTy).Contents (Elt F) → (⟨S400000x32, .f32⟩ : BufTy).Contents (Elt F)),
    binary main_call0_v6 main_call0_v5 main_call0_v7 (mulf : (⟨S400000x32, .f32⟩ : BufTy).Contents (Elt F) → (⟨S400000x32, .f32⟩ : BufTy).Contents (Elt F) → (⟨S400000x32, .f32⟩ : BufTy).Contents (Elt F)),
    ternary main_call0_v1 main_v3 main_call0_v7 main_v4 (select : (⟨S400000x32, .i1⟩ : BufTy).Contents (Elt F) → (⟨S400000x32, .f32⟩ : BufTy).Contents (Elt F) → (⟨S400000x32, .f32⟩ : BufTy).Contents (Elt F) → (⟨S400000x32, .f32⟩ : BufTy).Contents (Elt F)) ]

/-- Stage 1: the clamped and wrapped neighbour indices, the gathered rows masked where the index is negative, their difference from the centre row, the edge attribute appended, flattened (%5 … %23). -/
abbrev ops_s1 : List (HloOp τ sig (Elt F)) :=
  [ nullary main_c (constantI S_ 32 0#32),
    unary main_c main_v5 (broadcastInDim S400000x6 ![] bcast_S_S400000x6 : (⟨S_, .i32⟩ : BufTy).Contents (Elt F) → (⟨S400000x6, .i32⟩ : BufTy).Contents (Elt F)),
    binary main_arg2 main_v5 main_v6 (maxsi : (⟨S400000x6, .i32⟩ : BufTy).Contents (Elt F) → (⟨S400000x6, .i32⟩ : BufTy).Contents (Elt F) → (⟨S400000x6, .i32⟩ : BufTy).Contents (Elt F)),
    nullary main_c_0 (constantI S_ 32 0#32),
    unary main_c_0 main_v7 (broadcastInDim S400000x6 ![] bcast_S_S400000x6 : (⟨S_, .i32⟩ : BufTy).Contents (Elt F) → (⟨S400000x6, .i32⟩ : BufTy).Contents (Elt F)),
    binary main_v6 main_v7 main_v8 (cmpi .slt : (⟨S400000x6, .i32⟩ : BufTy).Contents (Elt F) → (⟨S400000x6, .i32⟩ : BufTy).Contents (Elt F) → (⟨S400000x6, .i1⟩ : BufTy).Contents (Elt F)),
    nullary main_c_1 (constantI S_ 32 400000#32),
    unary main_c_1 main_v9 (broadcastInDim S400000x6 ![] bcast_S_S400000x6 : (⟨S_, .i32⟩ : BufTy).Contents (Elt F) → (⟨S400000x6, .i32⟩ : BufTy).Contents (Elt F)),
    binary main_v6 main_v9 main_v10 (addi : (⟨S400000x6, .i32⟩ : BufTy).Contents (Elt F) → (⟨S400000x6, .i32⟩ : BufTy).Contents (Elt F) → (⟨S400000x6, .i32⟩ : BufTy).Contents (Elt F)),
    ternary main_v8 main_v10 main_v6 main_v11 (select : (⟨S400000x6, .i1⟩ : BufTy).Contents (Elt F) → (⟨S400000x6, .i32⟩ : BufTy).Contents (Elt F) → (⟨S400000x6, .i32⟩ : BufTy).Contents (Elt F) → (⟨S400000x6, .i32⟩ : BufTy).Contents (Elt F)),
    unary main_v11 main_v12 (broadcastInDim S400000x6x1 ![0, 1] bcast_S400000x6_S400000x6x1_0_1 : (⟨S400000x6, .i32⟩ : BufTy).Contents (Elt F) → (⟨S400000x6x1, .i32⟩ : BufTy).Contents (Elt F)),
    binary main_v4 main_v12 main_v13 ((fun x i => Host.gather gather_S400000x32_S400000x6x1_S400000x6x32_2_0_n_n_0_2_132 x i) : (⟨S400000x32, .f32⟩ : BufTy).Contents (Elt F) → (⟨S400000x6x1, .i32⟩ : BufTy).Contents (Elt F) → (⟨S400000x6x32, .f32⟩ : BufTy).Contents (Elt F)),
    unary main_arg2 main_v14 (broadcastInDim S400000x6x1 ![0, 1] bcast_S400000x6_S400000x6x1_0_1 : (⟨S400000x6, .i32⟩ : BufTy).Contents (Elt F) → (⟨S400000x6x1, .i32⟩ : BufTy).Contents (Elt F)),
    nullary main_c_2 (constantI S_ 32 0#32),
    unary main_c_2 main_v15 (broadcastInDim S400000x6x1 ![] bcast_S_S400000x6x1 : (⟨S_, .i32⟩ : BufTy).Contents (Elt F) → (⟨S400000x6x1, .i32⟩ : BufTy).Contents (Elt F)),
    binary main_v14 main_v15 main_v16 (cmpi .slt : (⟨S400000x6x1, .i32⟩ : BufTy).Contents (Elt F) → (⟨S400000x6x1, .i32⟩ : BufTy).Contents (Elt F) → (⟨S400000x6x1, .i1⟩ : BufTy).Contents (Elt F)),
    nullary main_cst (constant S_ .f32 0x00000000#32),
    unary main_cst main_call1_v0 (id : (⟨S_, .f32⟩ : BufTy).Contents (Elt F) → (⟨S_, .f32⟩ : BufTy).Contents (Elt F)),
    unary main_v16 main_call1_v1 (broadcastInDim S400000x6x32 ![0, 1, 2] bcast_S400000x6x1_S400000x6x32_0_1_2 : (⟨S400000x6x1, .i1⟩ : BufTy).Contents (Elt F) → (⟨S400000x6x32, .i1⟩ : BufTy).Contents (Elt F)),
    unary main_call1_v0 main_call1_v2 (broadcastInDim S400000x6x32 ![] bcast_S_S400000x6x32 : (⟨S_, .f32⟩ : BufTy).Contents (Elt F) → (⟨S400000x6x32, .f32⟩ : BufTy).Contents (Elt F)),
    ternary main_call1_v1 main_call1_v2 main_v13 main_v17 (select : (⟨S400000x6x32, .i1⟩ : BufTy).Contents (Elt F) → (⟨S400000x6x32, .f32⟩ : BufTy).Contents (Elt F) → (⟨S400000x6x32, .f32⟩ : BufTy).Contents (Elt F) → (⟨S400000x6x32, .f32⟩ : BufTy).Contents (Elt F)),
    unary main_v4 main_v18 (broadcastInDim S400000x1x32 ![0, 2] bcast_S400000x32_S400000x1x32_0_2 : (⟨S400000x32, .f32⟩ : BufTy).Contents (Elt F) → (⟨S400000x1x32, .f32⟩ : BufTy).Contents (Elt F)),
    unary main_v18 main_v19 (broadcastInDim S400000x6x32 ![0, 1, 2] bcast_S400000x1x32_S400000x6x32_0_1_2 : (⟨S400000x1x32, .f32⟩ : BufTy).Contents (Elt F) → (⟨S400000x6x32, .f32⟩ : BufTy).Contents (Elt F)),
    binary main_v19 main_v17 main_v20 (subf : (⟨S400000x6x32, .f32⟩ : BufTy).Contents (Elt F) → (⟨S400000x6x32, .f32⟩ : BufTy).Contents (Elt F) → (⟨S400000x6x32, .f32⟩ : BufTy).Contents (Elt F)),
    unary main_arg1 main_v21 (broadcastInDim S400000x6x1 ![0, 1] bcast_S400000x6_S400000x6x1_0_1 : (⟨S400000x6, .f32⟩ : BufTy).Contents (Elt F) → (⟨S400000x6x1, .f32⟩ : BufTy).Contents (Elt F)),
    binary main_v20 main_v21 main_v22 cat_main_v22,
    reshape main_v22 main_v23 rfl shapeCasts_S400000x6x33_S400000x198 ]

/-- Stage 2: the edge network's first layer and its elu (%24 … %28). -/
abbrev ops_s2 : List (HloOp τ sig (Elt F)) :=
  [ binary main_v23 main_arg5 main_v24 ((fun l r => Host.dotGeneral dot_S400000x198_S198x32_S400000x32_1_0_0_1_n_n none l r) : (⟨S400000x198, .f32⟩ : BufTy).Contents (Elt F) → (⟨S198x32, .f32⟩ : BufTy).Contents (Elt F) → (⟨S400000x32, .f32⟩ : BufTy).Contents (Elt F)),
    unary main_arg6 main_v25 (broadcastInDim S1x32 ![1] bcast_S32_S1x32_1 : (⟨S32, .f32⟩ : BufTy).Contents (Elt F) → (⟨S1x32, .f32⟩ : BufTy).Contents (Elt F)),
    unary main_v25 main_v26 (broadcastInDim S400000x32 ![0, 1] bcast_S1x32_S400000x32_0_1 : (⟨S1x32, .f32⟩ : BufTy).Contents (Elt F) → (⟨S400000x32, .f32⟩ : BufTy).Contents (Elt F)),
    binary main_v24 main_v26 main_v27 (addf : (⟨S400000x32, .f32⟩ : BufTy).Contents (Elt F) → (⟨S400000x32, .f32⟩ : BufTy).Contents (Elt F) → (⟨S400000x32, .f32⟩ : BufTy).Contents (Elt F)),
    nullary main_call2_cst (constant S_ .f32 0x00000000#32),
    unary main_call2_cst main_call2_v0 (broadcastInDim S400000x32 ![] bcast_S_S400000x32 : (⟨S_, .f32⟩ : BufTy).Contents (Elt F) → (⟨S400000x32, .f32⟩ : BufTy).Contents (Elt F)),
    binary main_v27 main_call2_v0 main_call2_v1 (cmpf .ogt : (⟨S400000x32, .f32⟩ : BufTy).Contents (Elt F) → (⟨S400000x32, .f32⟩ : BufTy).Contents (Elt F) → (⟨S400000x32, .i1⟩ : BufTy).Contents (Elt F)),
    nullary main_call2_cst_0 (constant S_ .f32 0x00000000#32),
    unary main_call2_cst_0 main_call2_v2 (broadcastInDim S400000x32 ![] bcast_S_S400000x32 : (⟨S_, .f32⟩ : BufTy).Contents (Elt F) → (⟨S400000x32, .f32⟩ : BufTy).Contents (Elt F)),
    binary main_v27 main_call2_v2 main_call2_v3 (cmpf .ogt : (⟨S400000x32, .f32⟩ : BufTy).Contents (Elt F) → (⟨S400000x32, .f32⟩ : BufTy).Contents (Elt F) → (⟨S400000x32, .i1⟩ : BufTy).Contents (Elt F)),
    nullary main_call2_cst_1 (constant S_ .f32 0x00000000#32),
    unary main_call2_cst_1 main_call2_call0_v0 (id : (⟨S_, .f32⟩ : BufTy).Contents (Elt F) → (⟨S_, .f32⟩ : BufTy).Contents (Elt F)),
    unary main_call2_call0_v0 main_call2_call0_v1 (broadcastInDim S400000x32 ![] bcast_S_S400000x32 : (⟨S_, .f32⟩ : BufTy).Contents (Elt F) → (⟨S400000x32, .f32⟩ : BufTy).Contents (Elt F)),
    ternary main_call2_v3 main_call2_call0_v1 main_v27 main_call2_v4 (select : (⟨S400000x32, .i1⟩ : BufTy).Contents (Elt F) → (⟨S400000x32, .f32⟩ : BufTy).Contents (Elt F) → (⟨S400000x32, .f32⟩ : BufTy).Contents (Elt F) → (⟨S400000x32, .f32⟩ : BufTy).Contents (Elt F)),
    unary main_call2_v4 main_call2_v5 (Host.expm1 : (⟨S400000x32, .f32⟩ : BufTy).Contents (Elt F) → (⟨S400000x32, .f32⟩ : BufTy).Contents (Elt F)),
    nullary main_call2_cst_2 (constant S_ .f32 0x3F800000#32),
    unary main_call2_cst_2 main_call2_v6 (broadcastInDim S400000x32 ![] bcast_S_S400000x32 : (⟨S_, .f32⟩ : BufTy).Contents (Elt F) → (⟨S400000x32, .f32⟩ : BufTy).Contents (Elt F)),
    binary main_call2_v6 main_call2_v5 main_call2_v7 (mulf : (⟨S400000x32, .f32⟩ : BufTy).Contents (Elt F) → (⟨S400000x32, .f32⟩ : BufTy).Contents (Elt F) → (⟨S400000x32, .f32⟩ : BufTy).Contents (Elt F)),
    ternary main_call2_v1 main_v27 main_call2_v7 main_v28 (select : (⟨S400000x32, .i1⟩ : BufTy).Contents (Elt F) → (⟨S400000x32, .f32⟩ : BufTy).Contents (Elt F) → (⟨S400000x32, .f32⟩ : BufTy).Contents (Elt F) → (⟨S400000x32, .f32⟩ : BufTy).Contents (Elt F)) ]

/-- Stage 3: the edge network's second layer and its elu (%29 … %33). -/
abbrev ops_s3 : List (HloOp τ sig (Elt F)) :=
  [ binary main_v28 main_arg7 main_v29 ((fun l r => Host.dotGeneral dot_S400000x32_S32x32_S400000x32_1_0_0_1_n_n none l r) : (⟨S400000x32, .f32⟩ : BufTy).Contents (Elt F) → (⟨S32x32, .f32⟩ : BufTy).Contents (Elt F) → (⟨S400000x32, .f32⟩ : BufTy).Contents (Elt F)),
    unary main_arg8 main_v30 (broadcastInDim S1x32 ![1] bcast_S32_S1x32_1 : (⟨S32, .f32⟩ : BufTy).Contents (Elt F) → (⟨S1x32, .f32⟩ : BufTy).Contents (Elt F)),
    unary main_v30 main_v31 (broadcastInDim S400000x32 ![0, 1] bcast_S1x32_S400000x32_0_1 : (⟨S1x32, .f32⟩ : BufTy).Contents (Elt F) → (⟨S400000x32, .f32⟩ : BufTy).Contents (Elt F)),
    binary main_v29 main_v31 main_v32 (addf : (⟨S400000x32, .f32⟩ : BufTy).Contents (Elt F) → (⟨S400000x32, .f32⟩ : BufTy).Contents (Elt F) → (⟨S400000x32, .f32⟩ : BufTy).Contents (Elt F)),
    nullary main_call3_cst (constant S_ .f32 0x00000000#32),
    unary main_call3_cst main_call3_v0 (broadcastInDim S400000x32 ![] bcast_S_S400000x32 : (⟨S_, .f32⟩ : BufTy).Contents (Elt F) → (⟨S400000x32, .f32⟩ : BufTy).Contents (Elt F)),
    binary main_v32 main_call3_v0 main_call3_v1 (cmpf .ogt : (⟨S400000x32, .f32⟩ : BufTy).Contents (Elt F) → (⟨S400000x32, .f32⟩ : BufTy).Contents (Elt F) → (⟨S400000x32, .i1⟩ : BufTy).Contents (Elt F)),
    nullary main_call3_cst_0 (constant S_ .f32 0x00000000#32),
    unary main_call3_cst_0 main_call3_v2 (broadcastInDim S400000x32 ![] bcast_S_S400000x32 : (⟨S_, .f32⟩ : BufTy).Contents (Elt F) → (⟨S400000x32, .f32⟩ : BufTy).Contents (Elt F)),
    binary main_v32 main_call3_v2 main_call3_v3 (cmpf .ogt : (⟨S400000x32, .f32⟩ : BufTy).Contents (Elt F) → (⟨S400000x32, .f32⟩ : BufTy).Contents (Elt F) → (⟨S400000x32, .i1⟩ : BufTy).Contents (Elt F)),
    nullary main_call3_cst_1 (constant S_ .f32 0x00000000#32),
    unary main_call3_cst_1 main_call3_call0_v0 (id : (⟨S_, .f32⟩ : BufTy).Contents (Elt F) → (⟨S_, .f32⟩ : BufTy).Contents (Elt F)),
    unary main_call3_call0_v0 main_call3_call0_v1 (broadcastInDim S400000x32 ![] bcast_S_S400000x32 : (⟨S_, .f32⟩ : BufTy).Contents (Elt F) → (⟨S400000x32, .f32⟩ : BufTy).Contents (Elt F)),
    ternary main_call3_v3 main_call3_call0_v1 main_v32 main_call3_v4 (select : (⟨S400000x32, .i1⟩ : BufTy).Contents (Elt F) → (⟨S400000x32, .f32⟩ : BufTy).Contents (Elt F) → (⟨S400000x32, .f32⟩ : BufTy).Contents (Elt F) → (⟨S400000x32, .f32⟩ : BufTy).Contents (Elt F)),
    unary main_call3_v4 main_call3_v5 (Host.expm1 : (⟨S400000x32, .f32⟩ : BufTy).Contents (Elt F) → (⟨S400000x32, .f32⟩ : BufTy).Contents (Elt F)),
    nullary main_call3_cst_2 (constant S_ .f32 0x3F800000#32),
    unary main_call3_cst_2 main_call3_v6 (broadcastInDim S400000x32 ![] bcast_S_S400000x32 : (⟨S_, .f32⟩ : BufTy).Contents (Elt F) → (⟨S400000x32, .f32⟩ : BufTy).Contents (Elt F)),
    binary main_call3_v6 main_call3_v5 main_call3_v7 (mulf : (⟨S400000x32, .f32⟩ : BufTy).Contents (Elt F) → (⟨S400000x32, .f32⟩ : BufTy).Contents (Elt F) → (⟨S400000x32, .f32⟩ : BufTy).Contents (Elt F)),
    ternary main_call3_v1 main_v32 main_call3_v7 main_v33 (select : (⟨S400000x32, .i1⟩ : BufTy).Contents (Elt F) → (⟨S400000x32, .f32⟩ : BufTy).Contents (Elt F) → (⟨S400000x32, .f32⟩ : BufTy).Contents (Elt F) → (⟨S400000x32, .f32⟩ : BufTy).Contents (Elt F)) ]

/-- Stage 4: the six edge logits (%34 … %37). -/
abbrev ops_s4 : List (HloOp τ sig (Elt F)) :=
  [ binary main_v33 main_arg9 main_v34 ((fun l r => Host.dotGeneral dot_S400000x32_S32x6_S400000x6_1_0_0_1_n_n none l r) : (⟨S400000x32, .f32⟩ : BufTy).Contents (Elt F) → (⟨S32x6, .f32⟩ : BufTy).Contents (Elt F) → (⟨S400000x6, .f32⟩ : BufTy).Contents (Elt F)),
    unary main_arg10 main_v35 (broadcastInDim S1x6 ![1] bcast_S6_S1x6_1 : (⟨S6, .f32⟩ : BufTy).Contents (Elt F) → (⟨S1x6, .f32⟩ : BufTy).Contents (Elt F)),
    unary main_v35 main_v36 (broadcastInDim S400000x6 ![0, 1] bcast_S1x6_S400000x6_0_1 : (⟨S1x6, .f32⟩ : BufTy).Contents (Elt F) → (⟨S400000x6, .f32⟩ : BufTy).Contents (Elt F)),
    binary main_v34 main_v36 main_v37 (addf : (⟨S400000x6, .f32⟩ : BufTy).Contents (Elt F) → (⟨S400000x6, .f32⟩ : BufTy).Contents (Elt F) → (⟨S400000x6, .f32⟩ : BufTy).Contents (Elt F)) ]

/-- Stage 5: the self network's first layer and its elu (%38 … %42). -/
abbrev ops_s5 : List (HloOp τ sig (Elt F)) :=
  [ binary main_arg0 main_arg11 main_v38 ((fun l r => Host.dotGeneral dot_S400000x64_S64x32_S400000x32_1_0_0_1_n_n none l r) : (⟨S400000x64, .f32⟩ : BufTy).Contents (Elt F) → (⟨S64x32, .f32⟩ : BufTy).Contents (Elt F) → (⟨S400000x32, .f32⟩ : BufTy).Contents (Elt F)),
    unary main_arg12 main_v39 (broadcastInDim S1x32 ![1] bcast_S32_S1x32_1 : (⟨S32, .f32⟩ : BufTy).Contents (Elt F) → (⟨S1x32, .f32⟩ : BufTy).Contents (Elt F)),
    unary main_v39 main_v40 (broadcastInDim S400000x32 ![0, 1] bcast_S1x32_S400000x32_0_1 : (⟨S1x32, .f32⟩ : BufTy).Contents (Elt F) → (⟨S400000x32, .f32⟩ : BufTy).Contents (Elt F)),
    binary main_v38 main_v40 main_v41 (addf : (⟨S400000x32, .f32⟩ : BufTy).Contents (Elt F) → (⟨S400000x32, .f32⟩ : BufTy).Contents (Elt F) → (⟨S400000x32, .f32⟩ : BufTy).Contents (Elt F)),
    nullary main_call4_cst (constant S_ .f32 0x00000000#32),
    unary main_call4_cst main_call4_v0 (broadcastInDim S400000x32 ![] bcast_S_S400000x32 : (⟨S_, .f32⟩ : BufTy).Contents (Elt F) → (⟨S400000x32, .f32⟩ : BufTy).Contents (Elt F)),
    binary main_v41 main_call4_v0 main_call4_v1 (cmpf .ogt : (⟨S400000x32, .f32⟩ : BufTy).Contents (Elt F) → (⟨S400000x32, .f32⟩ : BufTy).Contents (Elt F) → (⟨S400000x32, .i1⟩ : BufTy).Contents (Elt F)),
    nullary main_call4_cst_0 (constant S_ .f32 0x00000000#32),
    unary main_call4_cst_0 main_call4_v2 (broadcastInDim S400000x32 ![] bcast_S_S400000x32 : (⟨S_, .f32⟩ : BufTy).Contents (Elt F) → (⟨S400000x32, .f32⟩ : BufTy).Contents (Elt F)),
    binary main_v41 main_call4_v2 main_call4_v3 (cmpf .ogt : (⟨S400000x32, .f32⟩ : BufTy).Contents (Elt F) → (⟨S400000x32, .f32⟩ : BufTy).Contents (Elt F) → (⟨S400000x32, .i1⟩ : BufTy).Contents (Elt F)),
    nullary main_call4_cst_1 (constant S_ .f32 0x00000000#32),
    unary main_call4_cst_1 main_call4_call0_v0 (id : (⟨S_, .f32⟩ : BufTy).Contents (Elt F) → (⟨S_, .f32⟩ : BufTy).Contents (Elt F)),
    unary main_call4_call0_v0 main_call4_call0_v1 (broadcastInDim S400000x32 ![] bcast_S_S400000x32 : (⟨S_, .f32⟩ : BufTy).Contents (Elt F) → (⟨S400000x32, .f32⟩ : BufTy).Contents (Elt F)),
    ternary main_call4_v3 main_call4_call0_v1 main_v41 main_call4_v4 (select : (⟨S400000x32, .i1⟩ : BufTy).Contents (Elt F) → (⟨S400000x32, .f32⟩ : BufTy).Contents (Elt F) → (⟨S400000x32, .f32⟩ : BufTy).Contents (Elt F) → (⟨S400000x32, .f32⟩ : BufTy).Contents (Elt F)),
    unary main_call4_v4 main_call4_v5 (Host.expm1 : (⟨S400000x32, .f32⟩ : BufTy).Contents (Elt F) → (⟨S400000x32, .f32⟩ : BufTy).Contents (Elt F)),
    nullary main_call4_cst_2 (constant S_ .f32 0x3F800000#32),
    unary main_call4_cst_2 main_call4_v6 (broadcastInDim S400000x32 ![] bcast_S_S400000x32 : (⟨S_, .f32⟩ : BufTy).Contents (Elt F) → (⟨S400000x32, .f32⟩ : BufTy).Contents (Elt F)),
    binary main_call4_v6 main_call4_v5 main_call4_v7 (mulf : (⟨S400000x32, .f32⟩ : BufTy).Contents (Elt F) → (⟨S400000x32, .f32⟩ : BufTy).Contents (Elt F) → (⟨S400000x32, .f32⟩ : BufTy).Contents (Elt F)),
    ternary main_call4_v1 main_v41 main_call4_v7 main_v42 (select : (⟨S400000x32, .i1⟩ : BufTy).Contents (Elt F) → (⟨S400000x32, .f32⟩ : BufTy).Contents (Elt F) → (⟨S400000x32, .f32⟩ : BufTy).Contents (Elt F) → (⟨S400000x32, .f32⟩ : BufTy).Contents (Elt F)) ]

/-- Stage 6: the self network's second layer and its elu (%43 … %47). -/
abbrev ops_s6 : List (HloOp τ sig (Elt F)) :=
  [ binary main_v42 main_arg13 main_v43 ((fun l r => Host.dotGeneral dot_S400000x32_S32x32_S400000x32_1_0_0_1_n_n none l r) : (⟨S400000x32, .f32⟩ : BufTy).Contents (Elt F) → (⟨S32x32, .f32⟩ : BufTy).Contents (Elt F) → (⟨S400000x32, .f32⟩ : BufTy).Contents (Elt F)),
    unary main_arg14 main_v44 (broadcastInDim S1x32 ![1] bcast_S32_S1x32_1 : (⟨S32, .f32⟩ : BufTy).Contents (Elt F) → (⟨S1x32, .f32⟩ : BufTy).Contents (Elt F)),
    unary main_v44 main_v45 (broadcastInDim S400000x32 ![0, 1] bcast_S1x32_S400000x32_0_1 : (⟨S1x32, .f32⟩ : BufTy).Contents (Elt F) → (⟨S400000x32, .f32⟩ : BufTy).Contents (Elt F)),
    binary main_v43 main_v45 main_v46 (addf : (⟨S400000x32, .f32⟩ : BufTy).Contents (Elt F) → (⟨S400000x32, .f32⟩ : BufTy).Contents (Elt F) → (⟨S400000x32, .f32⟩ : BufTy).Contents (Elt F)),
    nullary main_call5_cst (constant S_ .f32 0x00000000#32),
    unary main_call5_cst main_call5_v0 (broadcastInDim S400000x32 ![] bcast_S_S400000x32 : (⟨S_, .f32⟩ : BufTy).Contents (Elt F) → (⟨S400000x32, .f32⟩ : BufTy).Contents (Elt F)),
    binary main_v46 main_call5_v0 main_call5_v1 (cmpf .ogt : (⟨S400000x32, .f32⟩ : BufTy).Contents (Elt F) → (⟨S400000x32, .f32⟩ : BufTy).Contents (Elt F) → (⟨S400000x32, .i1⟩ : BufTy).Contents (Elt F)),
    nullary main_call5_cst_0 (constant S_ .f32 0x00000000#32),
    unary main_call5_cst_0 main_call5_v2 (broadcastInDim S400000x32 ![] bcast_S_S400000x32 : (⟨S_, .f32⟩ : BufTy).Contents (Elt F) → (⟨S400000x32, .f32⟩ : BufTy).Contents (Elt F)),
    binary main_v46 main_call5_v2 main_call5_v3 (cmpf .ogt : (⟨S400000x32, .f32⟩ : BufTy).Contents (Elt F) → (⟨S400000x32, .f32⟩ : BufTy).Contents (Elt F) → (⟨S400000x32, .i1⟩ : BufTy).Contents (Elt F)),
    nullary main_call5_cst_1 (constant S_ .f32 0x00000000#32),
    unary main_call5_cst_1 main_call5_call0_v0 (id : (⟨S_, .f32⟩ : BufTy).Contents (Elt F) → (⟨S_, .f32⟩ : BufTy).Contents (Elt F)),
    unary main_call5_call0_v0 main_call5_call0_v1 (broadcastInDim S400000x32 ![] bcast_S_S400000x32 : (⟨S_, .f32⟩ : BufTy).Contents (Elt F) → (⟨S400000x32, .f32⟩ : BufTy).Contents (Elt F)),
    ternary main_call5_v3 main_call5_call0_v1 main_v46 main_call5_v4 (select : (⟨S400000x32, .i1⟩ : BufTy).Contents (Elt F) → (⟨S400000x32, .f32⟩ : BufTy).Contents (Elt F) → (⟨S400000x32, .f32⟩ : BufTy).Contents (Elt F) → (⟨S400000x32, .f32⟩ : BufTy).Contents (Elt F)),
    unary main_call5_v4 main_call5_v5 (Host.expm1 : (⟨S400000x32, .f32⟩ : BufTy).Contents (Elt F) → (⟨S400000x32, .f32⟩ : BufTy).Contents (Elt F)),
    nullary main_call5_cst_2 (constant S_ .f32 0x3F800000#32),
    unary main_call5_cst_2 main_call5_v6 (broadcastInDim S400000x32 ![] bcast_S_S400000x32 : (⟨S_, .f32⟩ : BufTy).Contents (Elt F) → (⟨S400000x32, .f32⟩ : BufTy).Contents (Elt F)),
    binary main_call5_v6 main_call5_v5 main_call5_v7 (mulf : (⟨S400000x32, .f32⟩ : BufTy).Contents (Elt F) → (⟨S400000x32, .f32⟩ : BufTy).Contents (Elt F) → (⟨S400000x32, .f32⟩ : BufTy).Contents (Elt F)),
    ternary main_call5_v1 main_v46 main_call5_v7 main_v47 (select : (⟨S400000x32, .i1⟩ : BufTy).Contents (Elt F) → (⟨S400000x32, .f32⟩ : BufTy).Contents (Elt F) → (⟨S400000x32, .f32⟩ : BufTy).Contents (Elt F) → (⟨S400000x32, .f32⟩ : BufTy).Contents (Elt F)) ]

/-- Stage 7: the self logit, the seven logits side by side, their row maximum (%48 … %53; the end of the first printed window). -/
abbrev ops_s7 : List (HloOp τ sig (Elt F)) :=
  [ binary main_v47 main_arg15 main_v48 ((fun l r => Host.dotGeneral dot_S400000x32_S32x1_S400000x1_1_0_0_1_n_n none l r) : (⟨S400000x32, .f32⟩ : BufTy).Contents (Elt F) → (⟨S32x1, .f32⟩ : BufTy).Contents (Elt F) → (⟨S400000x1, .f32⟩ : BufTy).Contents (Elt F)),
    unary main_arg16 main_v49 (broadcastInDim S1x1 ![1] bcast_S1_S1x1_1 : (⟨S1, .f32⟩ : BufTy).Contents (Elt F) → (⟨S1x1, .f32⟩ : BufTy).Contents (Elt F)),
    unary main_v49 main_v50 (broadcastInDim S400000x1 ![0, 1] bcast_S1x1_S400000x1_0_1 : (⟨S1x1, .f32⟩ : BufTy).Contents (Elt F) → (⟨S400000x1, .f32⟩ : BufTy).Contents (Elt F)),
    binary main_v48 main_v50 main_v51 (addf : (⟨S400000x1, .f32⟩ : BufTy).Contents (Elt F) → (⟨S400000x1, .f32⟩ : BufTy).Contents (Elt F) → (⟨S400000x1, .f32⟩ : BufTy).Contents (Elt F)),
    binary main_v51 main_v37 main_v52 cat_main_v52,
    nullary main_cst_3 (constant S_ .f32 0xFF800000#32),
    binary main_v52 main_cst_3 main_v53 ((fun x v => Host.reduce FloatOps.maximumf x v reducesTo_S400000x7_S400000_d1 h_S_) : (⟨S400000x7, .f32⟩ : BufTy).Contents (Elt F) → (⟨S_, .f32⟩ : BufTy).Contents (Elt F) → (⟨S400000, .f32⟩ : BufTy).Contents (Elt F)) ]

/-- Stage 8: the softmax of the seven logits (%54 … %63; the second printed window). -/
abbrev ops_s8 : List (HloOp τ sig (Elt F)) :=
  [ nullary main_cst_4 (constant S_ .f32 0xFF800000#32),
    unary main_cst_4 main_v54 (broadcastInDim S400000 ![] bcast_S_S400000 : (⟨S_, .f32⟩ : BufTy).Contents (Elt F) → (⟨S400000, .f32⟩ : BufTy).Contents (Elt F)),
    binary main_v54 main_v53 main_v55 (maximumf : (⟨S400000, .f32⟩ : BufTy).Contents (Elt F) → (⟨S400000, .f32⟩ : BufTy).Contents (Elt F) → (⟨S400000, .f32⟩ : BufTy).Contents (Elt F)),
    unary main_v55 main_v56 (broadcastInDim S400000x1 ![0] bcast_S400000_S400000x1_0 : (⟨S400000, .f32⟩ : BufTy).Contents (Elt F) → (⟨S400000x1, .f32⟩ : BufTy).Contents (Elt F)),
    unary main_v56 main_v57 (broadcastInDim S400000x7 ![0, 1] bcast_S400000x1_S400000x7_0_1 : (⟨S400000x1, .f32⟩ : BufTy).Contents (Elt F) → (⟨S400000x7, .f32⟩ : BufTy).Contents (Elt F)),
    binary main_v52 main_v57 main_v58 (subf : (⟨S400000x7, .f32⟩ : BufTy).Contents (Elt F) → (⟨S400000x7, .f32⟩ : BufTy).Contents (Elt F) → (⟨S400000x7, .f32⟩ : BufTy).Contents (Elt F)),
    unary main_v58 main_v59 (Host.exp : (⟨S400000x7, .f32⟩ : BufTy).Contents (Elt F) → (⟨S400000x7, .f32⟩ : BufTy).Contents (Elt F)),
    nullary main_cst_5 (constant S_ .f32 0x00000000#32),
    binary main_v59 main_cst_5 main_v60 ((fun x v => Host.reduceAdd x v reducesTo_S400000x7_S400000_d1 h_S_) : (⟨S400000x7, .f32⟩ : BufTy).Contents (Elt F) → (⟨S_, .f32⟩ : BufTy).Contents (Elt F) → (⟨S400000, .f32⟩ : BufTy).Contents (Elt F)),
    unary main_v60 main_v61 (broadcastInDim S400000x1 ![0] bcast_S400000_S400000x1_0 : (⟨S400000, .f32⟩ : BufTy).Contents (Elt F) → (⟨S400000x1, .f32⟩ : BufTy).Contents (Elt F)),
    unary main_v61 main_v62 (broadcastInDim S400000x7 ![0, 1] bcast_S400000x1_S400000x7_0_1 : (⟨S400000x1, .f32⟩ : BufTy).Contents (Elt F) → (⟨S400000x7, .f32⟩ : BufTy).Contents (Elt F)),
    binary main_v59 main_v62 main_v63 (Host.divf : (⟨S400000x7, .f32⟩ : BufTy).Contents (Elt F) → (⟨S400000x7, .f32⟩ : BufTy).Contents (Elt F) → (⟨S400000x7, .f32⟩ : BufTy).Contents (Elt F)) ]

/-- The first printed window's 133 operations. -/
abbrev ops_p0 : List (HloOp τ sig (Elt F)) :=
  ops_s0 ++ (ops_s1 ++ (ops_s2 ++ (ops_s3 ++ (ops_s4 ++ (ops_s5 ++ (ops_s6 ++ ops_s7))))))

/-- @main's 145 operations, in order. -/
abbrev ops : List (HloOp τ sig (Elt F)) := ops_p0 ++ ops_s8

set_option maxRecDepth 16384 in
set_option maxHeartbeats 4000000 in
theorem main_part0_eq (c : Dev nD) : main_part0 (F := F) c = seq ops_p0 := rfl

set_option maxRecDepth 8192 in
theorem main_part1_eq (c : Dev nD) : main_part1 (F := F) c = seq ops_s8 := rfl

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_s0_sub : (ops_s0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem ops_s1_sub : (ops_s1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., unary_bufs_sub .., unary_bufs_sub .., ternary_bufs_sub .., unary_bufs_sub .., unary_bufs_sub .., binary_bufs_sub .., unary_bufs_sub .., binary_bufs_sub .., reshape_bufs_sub ..⟩

set_option maxRecDepth 8192 in
theorem ops_s2_sub : (ops_s2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem ops_s3_sub : (ops_s3 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem ops_s4_sub : (ops_s4 : List (HloOp τ sig (Elt F))).Forall fun op => op.bufs ⊆ tcRefs τ sig :=
  ⟨binary_bufs_sub .., unary_bufs_sub .., unary_bufs_sub .., binary_bufs_sub ..⟩

set_option maxRecDepth 8192 in
theorem ops_s5_sub : (ops_s5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem ops_s6_sub : (ops_s6 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
theorem ops_s7_sub : (ops_s7 : List (HloOp τ sig (Elt F))).Forall fun op => op.bufs ⊆ tcRefs τ sig :=
  ⟨binary_bufs_sub .., unary_bufs_sub .., unary_bufs_sub .., binary_bufs_sub .., binary_bufs_sub .., nullary_bufs_sub .., binary_bufs_sub ..⟩

set_option maxRecDepth 8192 in
theorem ops_s8_sub : (ops_s8 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, ops_p0, List.mem_append] at h
    rcases h with (h | h | h | h | h | h | h | h) | h
    exacts [List.forall_iff_forall_mem.mp ops_s0_sub op h, List.forall_iff_forall_mem.mp ops_s1_sub op h,
      List.forall_iff_forall_mem.mp ops_s2_sub op h, List.forall_iff_forall_mem.mp ops_s3_sub op h,
      List.forall_iff_forall_mem.mp ops_s4_sub op h, List.forall_iff_forall_mem.mp ops_s5_sub op h,
      List.forall_iff_forall_mem.mp ops_s6_sub op h, List.forall_iff_forall_mem.mp ops_s7_sub op h,
      List.forall_iff_forall_mem.mp ops_s8_sub op h]

end Cert.RefRun

end
-- ==== Proof.RefTerm.lean ====
/-
  The reference program's result as one pure term of its seventeen argument arrays: the functions its StableHLO
  lines apply, composed in the order the values flow, in the spelling of the printed program.
-/
import proofs.«133679_j23562190586025_2_alg».proof.ReferenceIdeal

noncomputable section

namespace Cert.RefTerm

open Idealize.ShloMosaic
open Cert.ReferenceIdeal Cert.ReferenceIdeal.Facts₀

variable {F : FTy → Type} [FloatOps F] [Facts]

/-- The function @elu computes on a [400000, 32] array: v where v > 0, and 1 · expm1 (v where v ≤ 0, else 0)
    elsewhere. -/
def eluT (v : FVec F S400000x32 .f32) : FVec F S400000x32 .f32 :=
  select (cmpf .ogt v (broadcastInDim S400000x32 ![] bcast_S_S400000x32 (constant S_ .f32 0x00000000#32))) v
    (mulf (broadcastInDim S400000x32 ![] bcast_S_S400000x32 (constant S_ .f32 0x3F800000#32))
      (Host.expm1
        (select (cmpf .ogt v (broadcastInDim S400000x32 ![] bcast_S_S400000x32 (constant S_ .f32 0x00000000#32)))
          (broadcastInDim S400000x32 ![] bcast_S_S400000x32 (id (constant S_ .f32 0x00000000#32))) v)))

/-- The normalised neighbour indices: max(nidx, 0), plus 400000 where that is negative, as a [400000, 6, 1] array. -/
def normIdx (nidx : IVec S400000x6 32) : IVec S400000x6x1 32 :=
  broadcastInDim S400000x6x1 ![0, 1] bcast_S400000x6_S400000x6x1_0_1
    (select
      (cmpi .slt (maxsi nidx (broadcastInDim S400000x6 ![] bcast_S_S400000x6 (constantI S_ 32 0#32)))
        (broadcastInDim S400000x6 ![] bcast_S_S400000x6 (constantI S_ 32 0#32)))
      (addi (maxsi nidx (broadcastInDim S400000x6 ![] bcast_S_S400000x6 (constantI S_ 32 0#32)))
        (broadcastInDim S400000x6 ![] bcast_S_S400000x6 (constantI S_ 32 400000#32)))
      (maxsi nidx (broadcastInDim S400000x6 ![] bcast_S_S400000x6 (constantI S_ 32 0#32))))

/-- Where a neighbour index is negative, as a [400000, 6, 1] mask. -/
def negMask (nidx : IVec S400000x6 32) : IVec S400000x6x1 1 :=
  cmpi .slt (broadcastInDim S400000x6x1 ![0, 1] bcast_S400000x6_S400000x6x1_0_1 nidx)
    (broadcastInDim S400000x6x1 ![] bcast_S_S400000x6x1 (constantI S_ 32 0#32))

/-- The neighbours' feature rows: the rows of f at the normalised indices, and 0.0 where the index is negative. -/
def gathered (f : FVec F S400000x32 .f32) (nidx : IVec S400000x6 32) : FVec F S400000x6x32 .f32 :=
  select (broadcastInDim S400000x6x32 ![0, 1, 2] bcast_S400000x6x1_S400000x6x32_0_1_2 (negMask nidx))
    (broadcastInDim S400000x6x32 ![] bcast_S_S400000x6x32 (id (constant S_ .f32 0x00000000#32)))
    (Host.gather gather_S400000x32_S400000x6x1_S400000x6x32_2_0_n_n_0_2_132 f (normIdx nidx))

/-- A bias row [n] as a [400000, n] array, through [1, n]: the 32-wide one. -/
def bias32 (b : FVec F S32 .f32) : FVec F S400000x32 .f32 :=
  broadcastInDim S400000x32 ![0, 1] bcast_S1x32_S400000x32_0_1 (broadcastInDim S1x32 ![1] bcast_S32_S1x32_1 b)

/-- The 6-wide bias. -/
def bias6 (b : FVec F S6 .f32) : FVec F S400000x6 .f32 :=
  broadcastInDim S400000x6 ![0, 1] bcast_S1x6_S400000x6_0_1 (broadcastInDim S1x6 ![1] bcast_S6_S1x6_1 b)

/-- The 1-wide bias. -/
def bias1 (b : FVec F S1 .f32) : FVec F S400000x1 .f32 :=
  broadcastInDim S400000x1 ![0, 1] bcast_S1x1_S400000x1_0_1 (broadcastInDim S1x1 ![1] bcast_S1_S1x1_1 b)

/-- The pre-dense features: elu (x · Wp + bp). -/
def xpT (a0 : FVec F S400000x64 .f32) (a3 : FVec F S64x32 .f32) (a4 : FVec F S32 .f32) : FVec F S400000x32 .f32 :=
  eluT (addf (Host.dotGeneral dot_S400000x64_S64x32_S400000x32_1_0_0_1_n_n none a0 a3) (bias32 a4))

/-- The first edge layer's input rows: per neighbour the 32 feature differences and the squared distance, flattened
    to 198 columns. -/
def edgeInT (xp : FVec F S400000x32 .f32) (g : FVec F S400000x6x32 .f32) (a1 : FVec F S400000x6 .f32) :
    FVec F S400000x198 .f32 :=
  shapeCast S400000x198
    (concatenate S400000x6x33 2
      [⟨S400000x6x32,
          subf
            (broadcastInDim S400000x6x32 ![0, 1, 2] bcast_S400000x1x32_S400000x6x32_0_1_2
              (broadcastInDim S400000x1x32 ![0, 2] bcast_S400000x32_S400000x1x32_0_2 xp))
            g⟩,
        ⟨S400000x6x1, broadcastInDim S400000x6x1 ![0, 1] bcast_S400000x6_S400000x6x1_0_1 a1⟩]
      concatenates_S400000x6x32_S400000x6x1_S400000x6x33_d2)
    shapeCasts_S400000x6x33_S400000x198

/-- The six edge logits: three dense layers on the edge input, the first two followed by elu. -/
def edgeT (u : FVec F S400000x198 .f32) (a5 : FVec F S198x32 .f32) (a6 : FVec F S32 .f32) (a7 : FVec F S32x32 .f32)
    (a8 : FVec F S32 .f32) (a9 : FVec F S32x6 .f32) (a10 : FVec F S6 .f32) : FVec F S400000x6 .f32 :=
  addf
    (Host.dotGeneral dot_S400000x32_S32x6_S400000x6_1_0_0_1_n_n none
      (eluT (addf
        (Host.dotGeneral dot_S400000x32_S32x32_S400000x32_1_0_0_1_n_n none
          (eluT (addf (Host.dotGeneral dot_S400000x198_S198x32_S400000x32_1_0_0_1_n_n none u a5) (bias32 a6)))
          a7)
        (bias32 a8)))
      a9)
    (bias6 a10)

/-- The self logit column: three dense layers on x, the first two followed by elu. -/
def selfT (a0 : FVec F S400000x64 .f32) (a11 : FVec F S64x32 .f32) (a12 : FVec F S32 .f32) (a13 : FVec F S32x32 .f32)
    (a14 : FVec F S32 .f32) (a15 : FVec F S32x1 .f32) (a16 : FVec F S1 .f32) : FVec F S400000x1 .f32 :=
  addf
    (Host.dotGeneral dot_S400000x32_S32x1_S400000x1_1_0_0_1_n_n none
      (eluT (addf
        (Host.dotGeneral dot_S400000x32_S32x32_S400000x32_1_0_0_1_n_n none
          (eluT (addf (Host.dotGeneral dot_S400000x64_S64x32_S400000x32_1_0_0_1_n_n none a0 a11) (bias32 a12)))
          a13)
        (bias32 a14)))
      a15)
    (bias1 a16)

/-- The seven logits: the self logit column, then the six edge logits. -/
def logitsT (s : FVec F S400000x1 .f32) (e : FVec F S400000x6 .f32) : FVec F S400000x7 .f32 :=
  concatenate S400000x7 1 [⟨S400000x1, s⟩, ⟨S400000x6, e⟩] concatenates_S400000x1_S400000x6_S400000x7_d1

/-- The row maxima of the logits, as a [400000, 7] array. -/
def rowMaxT (z : FVec F S400000x7 .f32) : FVec F S400000x7 .f32 :=
  broadcastInDim S400000x7 ![0, 1] bcast_S400000x1_S400000x7_0_1
    (broadcastInDim S400000x1 ![0] bcast_S400000_S400000x1_0
      (maximumf (broadcastInDim S400000 ![] bcast_S_S400000 (constant S_ .f32 0xFF800000#32))
        (Host.reduce FloatOps.maximumf z (constant S_ .f32 0xFF800000#32) reducesTo_S400000x7_S400000_d1 h_S_)))

/-- The exponentials of the shifted logits. -/
def expT (z : FVec F S400000x7 .f32) : FVec F S400000x7 .f32 := Host.exp (subf z (rowMaxT z))

/-- The softmax of the rows of z. -/
def softmaxT (z : FVec F S400000x7 .f32) : FVec F S400000x7 .f32 :=
  Host.divf (expT z)
    (broadcastInDim S400000x7 ![0, 1] bcast_S400000x1_S400000x7_0_1
      (broadcastInDim S400000x1 ![0] bcast_S400000_S400000x1_0
        (Host.reduceAdd (expT z) (constant S_ .f32 0x00000000#32) reducesTo_S400000x7_S400000_d1 h_S_)))

/-- The reference's result from the pre-dense features, the gathered neighbour features and the remaining
    arguments. -/
def tail (xp : FVec F S400000x32 .f32) (g : FVec F S400000x6x32 .f32) (a0 : FVec F S400000x64 .f32)
    (a1 : FVec F S400000x6 .f32) (a5 : FVec F S198x32 .f32) (a6 : FVec F S32 .f32) (a7 : FVec F S32x32 .f32)
    (a8 : FVec F S32 .f32) (a9 : FVec F S32x6 .f32) (a10 : FVec F S6 .f32) (a11 : FVec F S64x32 .f32)
    (a12 : FVec F S32 .f32) (a13 : FVec F S32x32 .f32) (a14 : FVec F S32 .f32) (a15 : FVec F S32x1 .f32)
    (a16 : FVec F S1 .f32) : FVec F S400000x7 .f32 :=
  softmaxT (logitsT (selfT a0 a11 a12 a13 a14 a15 a16) (edgeT (edgeInT xp g a1) a5 a6 a7 a8 a9 a10))

/-- The reference's result (its value %63) as a function of its seventeen arguments. -/
def term (a0 : FVec F S400000x64 .f32) (a1 : FVec F S400000x6 .f32) (a2 : IVec S400000x6 32)
    (a3 : FVec F S64x32 .f32) (a4 : FVec F S32 .f32) (a5 : FVec F S198x32 .f32) (a6 : FVec F S32 .f32)
    (a7 : FVec F S32x32 .f32) (a8 : FVec F S32 .f32) (a9 : FVec F S32x6 .f32) (a10 : FVec F S6 .f32)
    (a11 : FVec F S64x32 .f32) (a12 : FVec F S32 .f32) (a13 : FVec F S32x32 .f32) (a14 : FVec F S32 .f32)
    (a15 : FVec F S32x1 .f32) (a16 : FVec F S1 .f32) : FVec F S400000x7 .f32 :=
  tail (xpT a0 a3 a4) (gathered (xpT a0 a3 a4) a2) a0 a1 a5 a6 a7 a8 a9 a10 a11 a12 a13 a14 a15 a16

end Cert.RefTerm

end
-- ==== Proof.RefRun.lean ====
import proofs.«133679_j23562190586025_2_alg».proof.Proof.RefOps
import proofs.«133679_j23562190586025_2_alg».proof.Proof.RefTerm
import Idealize.ShloMosaic.Lib.Pipeline.Frame

/-! The reference program's run read back: every weakly fair execution of @main ends with its
    result buffer at the composed term of the seventeen arguments and the arguments unchanged.
    The 145 operations are folded stage by stage: after each stage the value a later stage
    reads is a named term of the launch contents, and a buffer the stage does not write keeps
    what it held. -/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The staged values, as terms of the contents at launch -/

/-- elu (x · Wp + bp). -/
def xpV (V0 : Valuation τ sig (Elt F)) : FVec F S400000x32 .f32 :=
  RefTerm.xpT (V0 (Proc.devRef .tc main_arg0)) (V0 (Proc.devRef .tc main_arg3)) (V0 (Proc.devRef .tc main_arg4))

/-- The flattened input rows of the edge network. -/
def uV (V0 : Valuation τ sig (Elt F)) : FVec F S400000x198 .f32 :=
  RefTerm.edgeInT (xpV V0) (RefTerm.gathered (xpV V0) (V0 (Proc.devRef .tc main_arg2))) (V0 (Proc.devRef .tc main_arg1))

/-- The edge network's first hidden layer. -/
def e1V (V0 : Valuation τ sig (Elt F)) : FVec F S400000x32 .f32 :=
  RefTerm.eluT (addf (Host.dotGeneral dot_S400000x198_S198x32_S400000x32_1_0_0_1_n_n none (uV V0) (V0 (Proc.devRef .tc main_arg5))) (RefTerm.bias32 (V0 (Proc.devRef .tc main_arg6))))

/-- The edge network's second hidden layer. -/
def e2V (V0 : Valuation τ sig (Elt F)) : FVec F S400000x32 .f32 :=
  RefTerm.eluT (addf (Host.dotGeneral dot_S400000x32_S32x32_S400000x32_1_0_0_1_n_n none (e1V V0) (V0 (Proc.devRef .tc main_arg7))) (RefTerm.bias32 (V0 (Proc.devRef .tc main_arg8))))

/-- The six edge logits. -/
def e3V (V0 : Valuation τ sig (Elt F)) : FVec F S400000x6 .f32 :=
  addf (Host.dotGeneral dot_S400000x32_S32x6_S400000x6_1_0_0_1_n_n none (e2V V0) (V0 (Proc.devRef .tc main_arg9))) (RefTerm.bias6 (V0 (Proc.devRef .tc main_arg10)))

/-- The self network's first hidden layer. -/
def s1V (V0 : Valuation τ sig (Elt F)) : FVec F S400000x32 .f32 :=
  RefTerm.eluT (addf (Host.dotGeneral dot_S400000x64_S64x32_S400000x32_1_0_0_1_n_n none (V0 (Proc.devRef .tc main_arg0)) (V0 (Proc.devRef .tc main_arg11))) (RefTerm.bias32 (V0 (Proc.devRef .tc main_arg12))))

/-- The self network's second hidden layer. -/
def s2V (V0 : Valuation τ sig (Elt F)) : FVec F S400000x32 .f32 :=
  RefTerm.eluT (addf (Host.dotGeneral dot_S400000x32_S32x32_S400000x32_1_0_0_1_n_n none (s1V V0) (V0 (Proc.devRef .tc main_arg13))) (RefTerm.bias32 (V0 (Proc.devRef .tc main_arg14))))

/-- The seven logits. -/
def zV (V0 : Valuation τ sig (Elt F)) : FVec F S400000x7 .f32 :=
  RefTerm.logitsT (addf (Host.dotGeneral dot_S400000x32_S32x1_S400000x1_1_0_0_1_n_n none (s2V V0) (V0 (Proc.devRef .tc main_arg15))) (RefTerm.bias1 (V0 (Proc.devRef .tc main_arg16)))) (e3V V0)

/-- The row maxima of the seven logits, as the reduction leaves them. -/
def zmaxV (V0 : Valuation τ sig (Elt F)) : FVec F S400000 .f32 :=
  Host.reduce FloatOps.maximumf (zV V0) (constant S_ .f32 0xFF800000#32) reducesTo_S400000x7_S400000_d1 h_S_

/-- The softmax of the seven logits. -/
def outV (V0 : Valuation τ sig (Elt F)) : FVec F S400000x7 .f32 := RefTerm.softmaxT (zV V0)

/-- The staged value of the result is the composed term of the arguments. -/
theorem outV_eq (V0 : Valuation τ sig (Elt F)) :
    outV V0 = RefTerm.term (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := rfl

/-! ## The stages -/

/-- The buffers stage 0 writes. -/
abbrev ops_s0_W : List (Ref sig .tc) := [main_v0, main_v1, main_v2, main_v3, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v4]
set_option maxRecDepth 8192 in
theorem ops_s0_writes : (ops_s0 : List (HloOp τ sig (Elt F))).Forall fun op => op.writes ⊆ (ops_s0_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- The contents after stages 0 … 0. -/
def val1 (V0 : Valuation τ sig (Elt F)) : Valuation τ sig (Elt F) := after ops_s0 V0
/-- A buffer stage 0 does not write keeps its contents through it. -/
theorem val1_keep (V0 : Valuation τ sig (Elt F)) (r : Ref sig .tc) (h : r ∉ ops_s0_W) :
    val1 V0 (Proc.devRef .tc r) = V0 (Proc.devRef .tc r) :=
  after_of_writes_sub ops_s0 _ ops_s0_writes h

/-- The buffers stage 1 writes. -/
abbrev ops_s1_W : List (Ref sig .tc) := [main_c, main_v5, main_v6, main_c_0, main_v7, main_v8, main_c_1, main_v9, main_v10, main_v11, main_v12, main_v13, main_v14, main_c_2, main_v15, main_v16, main_cst, main_call1_v0, main_call1_v1, main_call1_v2, main_v17, main_v18, main_v19, main_v20, main_v21, main_v22, main_v23]
set_option maxRecDepth 8192 in
theorem ops_s1_writes : (ops_s1 : List (HloOp τ sig (Elt F))).Forall fun op => op.writes ⊆ (ops_s1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- The contents after stages 0 … 1. -/
def val2 (V0 : Valuation τ sig (Elt F)) : Valuation τ sig (Elt F) := after ops_s1 (val1 V0)
/-- A buffer stage 1 does not write keeps its contents through it. -/
theorem val2_keep (V0 : Valuation τ sig (Elt F)) (r : Ref sig .tc) (h : r ∉ ops_s1_W) :
    val2 V0 (Proc.devRef .tc r) = (val1 V0) (Proc.devRef .tc r) :=
  after_of_writes_sub ops_s1 _ ops_s1_writes h

/-- The buffers stage 2 writes. -/
abbrev ops_s2_W : List (Ref sig .tc) := [main_v24, main_v25, main_v26, main_v27, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v28]
set_option maxRecDepth 8192 in
theorem ops_s2_writes : (ops_s2 : List (HloOp τ sig (Elt F))).Forall fun op => op.writes ⊆ (ops_s2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- The contents after stages 0 … 2. -/
def val3 (V0 : Valuation τ sig (Elt F)) : Valuation τ sig (Elt F) := after ops_s2 (val2 V0)
/-- A buffer stage 2 does not write keeps its contents through it. -/
theorem val3_keep (V0 : Valuation τ sig (Elt F)) (r : Ref sig .tc) (h : r ∉ ops_s2_W) :
    val3 V0 (Proc.devRef .tc r) = (val2 V0) (Proc.devRef .tc r) :=
  after_of_writes_sub ops_s2 _ ops_s2_writes h

/-- The buffers stage 3 writes. -/
abbrev ops_s3_W : List (Ref sig .tc) := [main_v29, main_v30, main_v31, main_v32, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v33]
set_option maxRecDepth 8192 in
theorem ops_s3_writes : (ops_s3 : List (HloOp τ sig (Elt F))).Forall fun op => op.writes ⊆ (ops_s3_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- The contents after stages 0 … 3. -/
def val4 (V0 : Valuation τ sig (Elt F)) : Valuation τ sig (Elt F) := after ops_s3 (val3 V0)
/-- A buffer stage 3 does not write keeps its contents through it. -/
theorem val4_keep (V0 : Valuation τ sig (Elt F)) (r : Ref sig .tc) (h : r ∉ ops_s3_W) :
    val4 V0 (Proc.devRef .tc r) = (val3 V0) (Proc.devRef .tc r) :=
  after_of_writes_sub ops_s3 _ ops_s3_writes h

/-- The buffers stage 4 writes. -/
abbrev ops_s4_W : List (Ref sig .tc) := [main_v34, main_v35, main_v36, main_v37]
set_option maxRecDepth 8192 in
theorem ops_s4_writes : (ops_s4 : List (HloOp τ sig (Elt F))).Forall fun op => op.writes ⊆ (ops_s4_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- The contents after stages 0 … 4. -/
def val5 (V0 : Valuation τ sig (Elt F)) : Valuation τ sig (Elt F) := after ops_s4 (val4 V0)
/-- A buffer stage 4 does not write keeps its contents through it. -/
theorem val5_keep (V0 : Valuation τ sig (Elt F)) (r : Ref sig .tc) (h : r ∉ ops_s4_W) :
    val5 V0 (Proc.devRef .tc r) = (val4 V0) (Proc.devRef .tc r) :=
  after_of_writes_sub ops_s4 _ ops_s4_writes h

/-- The buffers stage 5 writes. -/
abbrev ops_s5_W : List (Ref sig .tc) := [main_v38, main_v39, main_v40, main_v41, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v42]
set_option maxRecDepth 8192 in
theorem ops_s5_writes : (ops_s5 : List (HloOp τ sig (Elt F))).Forall fun op => op.writes ⊆ (ops_s5_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- The contents after stages 0 … 5. -/
def val6 (V0 : Valuation τ sig (Elt F)) : Valuation τ sig (Elt F) := after ops_s5 (val5 V0)
/-- A buffer stage 5 does not write keeps its contents through it. -/
theorem val6_keep (V0 : Valuation τ sig (Elt F)) (r : Ref sig .tc) (h : r ∉ ops_s5_W) :
    val6 V0 (Proc.devRef .tc r) = (val5 V0) (Proc.devRef .tc r) :=
  after_of_writes_sub ops_s5 _ ops_s5_writes h

/-- The buffers stage 6 writes. -/
abbrev ops_s6_W : List (Ref sig .tc) := [main_v43, main_v44, main_v45, main_v46, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v47]
set_option maxRecDepth 8192 in
theorem ops_s6_writes : (ops_s6 : List (HloOp τ sig (Elt F))).Forall fun op => op.writes ⊆ (ops_s6_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- The contents after stages 0 … 6. -/
def val7 (V0 : Valuation τ sig (Elt F)) : Valuation τ sig (Elt F) := after ops_s6 (val6 V0)
/-- A buffer stage 6 does not write keeps its contents through it. -/
theorem val7_keep (V0 : Valuation τ sig (Elt F)) (r : Ref sig .tc) (h : r ∉ ops_s6_W) :
    val7 V0 (Proc.devRef .tc r) = (val6 V0) (Proc.devRef .tc r) :=
  after_of_writes_sub ops_s6 _ ops_s6_writes h

/-- The buffers stage 7 writes. -/
abbrev ops_s7_W : List (Ref sig .tc) := [main_v48, main_v49, main_v50, main_v51, main_v52, main_cst_3, main_v53]
set_option maxRecDepth 8192 in
theorem ops_s7_writes : (ops_s7 : List (HloOp τ sig (Elt F))).Forall fun op => op.writes ⊆ (ops_s7_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- The contents after stages 0 … 7. -/
def val8 (V0 : Valuation τ sig (Elt F)) : Valuation τ sig (Elt F) := after ops_s7 (val7 V0)
/-- A buffer stage 7 does not write keeps its contents through it. -/
theorem val8_keep (V0 : Valuation τ sig (Elt F)) (r : Ref sig .tc) (h : r ∉ ops_s7_W) :
    val8 V0 (Proc.devRef .tc r) = (val7 V0) (Proc.devRef .tc r) :=
  after_of_writes_sub ops_s7 _ ops_s7_writes h

/-- The buffers stage 8 writes. -/
abbrev ops_s8_W : List (Ref sig .tc) := [main_cst_4, main_v54, main_v55, main_v56, main_v57, main_v58, main_v59, main_cst_5, main_v60, main_v61, main_v62, main_v63]
set_option maxRecDepth 8192 in
theorem ops_s8_writes : (ops_s8 : List (HloOp τ sig (Elt F))).Forall fun op => op.writes ⊆ (ops_s8_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
/-- The contents after stages 0 … 8. -/
def val9 (V0 : Valuation τ sig (Elt F)) : Valuation τ sig (Elt F) := after ops_s8 (val8 V0)
/-- A buffer stage 8 does not write keeps its contents through it. -/
theorem val9_keep (V0 : Valuation τ sig (Elt F)) (r : Ref sig .tc) (h : r ∉ ops_s8_W) :
    val9 V0 (Proc.devRef .tc r) = (val8 V0) (Proc.devRef .tc r) :=
  after_of_writes_sub ops_s8 _ ops_s8_writes h

/-! ## What each stage leaves -/

set_option maxRecDepth 8192 in
set_option maxHeartbeats 2000000 in
theorem val1_main_v4 (V0 : Valuation τ sig (Elt F)) : val1 V0 (no_index (Proc.devRef .tc main_v4)) = xpV V0 := by
  unfold val1
  simp only [ops_s0]
  after_results_simp
  rfl
theorem val1_main_arg0 (V0 : Valuation τ sig (Elt F)) : val1 V0 (no_index (Proc.devRef .tc main_arg0)) = V0 (Proc.devRef .tc main_arg0) :=
  (val1_keep V0 main_arg0 (by decide)).trans rfl
theorem val1_main_arg1 (V0 : Valuation τ sig (Elt F)) : val1 V0 (no_index (Proc.devRef .tc main_arg1)) = V0 (Proc.devRef .tc main_arg1) :=
  (val1_keep V0 main_arg1 (by decide)).trans rfl
theorem val1_main_arg2 (V0 : Valuation τ sig (Elt F)) : val1 V0 (no_index (Proc.devRef .tc main_arg2)) = V0 (Proc.devRef .tc main_arg2) :=
  (val1_keep V0 main_arg2 (by decide)).trans rfl
theorem val1_main_arg3 (V0 : Valuation τ sig (Elt F)) : val1 V0 (no_index (Proc.devRef .tc main_arg3)) = V0 (Proc.devRef .tc main_arg3) :=
  (val1_keep V0 main_arg3 (by decide)).trans rfl
theorem val1_main_arg4 (V0 : Valuation τ sig (Elt F)) : val1 V0 (no_index (Proc.devRef .tc main_arg4)) = V0 (Proc.devRef .tc main_arg4) :=
  (val1_keep V0 main_arg4 (by decide)).trans rfl
theorem val1_main_arg5 (V0 : Valuation τ sig (Elt F)) : val1 V0 (no_index (Proc.devRef .tc main_arg5)) = V0 (Proc.devRef .tc main_arg5) :=
  (val1_keep V0 main_arg5 (by decide)).trans rfl
theorem val1_main_arg6 (V0 : Valuation τ sig (Elt F)) : val1 V0 (no_index (Proc.devRef .tc main_arg6)) = V0 (Proc.devRef .tc main_arg6) :=
  (val1_keep V0 main_arg6 (by decide)).trans rfl
theorem val1_main_arg7 (V0 : Valuation τ sig (Elt F)) : val1 V0 (no_index (Proc.devRef .tc main_arg7)) = V0 (Proc.devRef .tc main_arg7) :=
  (val1_keep V0 main_arg7 (by decide)).trans rfl
theorem val1_main_arg8 (V0 : Valuation τ sig (Elt F)) : val1 V0 (no_index (Proc.devRef .tc main_arg8)) = V0 (Proc.devRef .tc main_arg8) :=
  (val1_keep V0 main_arg8 (by decide)).trans rfl
theorem val1_main_arg9 (V0 : Valuation τ sig (Elt F)) : val1 V0 (no_index (Proc.devRef .tc main_arg9)) = V0 (Proc.devRef .tc main_arg9) :=
  (val1_keep V0 main_arg9 (by decide)).trans rfl
theorem val1_main_arg10 (V0 : Valuation τ sig (Elt F)) : val1 V0 (no_index (Proc.devRef .tc main_arg10)) = V0 (Proc.devRef .tc main_arg10) :=
  (val1_keep V0 main_arg10 (by decide)).trans rfl
theorem val1_main_arg11 (V0 : Valuation τ sig (Elt F)) : val1 V0 (no_index (Proc.devRef .tc main_arg11)) = V0 (Proc.devRef .tc main_arg11) :=
  (val1_keep V0 main_arg11 (by decide)).trans rfl
theorem val1_main_arg12 (V0 : Valuation τ sig (Elt F)) : val1 V0 (no_index (Proc.devRef .tc main_arg12)) = V0 (Proc.devRef .tc main_arg12) :=
  (val1_keep V0 main_arg12 (by decide)).trans rfl
theorem val1_main_arg13 (V0 : Valuation τ sig (Elt F)) : val1 V0 (no_index (Proc.devRef .tc main_arg13)) = V0 (Proc.devRef .tc main_arg13) :=
  (val1_keep V0 main_arg13 (by decide)).trans rfl
theorem val1_main_arg14 (V0 : Valuation τ sig (Elt F)) : val1 V0 (no_index (Proc.devRef .tc main_arg14)) = V0 (Proc.devRef .tc main_arg14) :=
  (val1_keep V0 main_arg14 (by decide)).trans rfl
theorem val1_main_arg15 (V0 : Valuation τ sig (Elt F)) : val1 V0 (no_index (Proc.devRef .tc main_arg15)) = V0 (Proc.devRef .tc main_arg15) :=
  (val1_keep V0 main_arg15 (by decide)).trans rfl
theorem val1_main_arg16 (V0 : Valuation τ sig (Elt F)) : val1 V0 (no_index (Proc.devRef .tc main_arg16)) = V0 (Proc.devRef .tc main_arg16) :=
  (val1_keep V0 main_arg16 (by decide)).trans rfl

set_option maxRecDepth 8192 in
set_option maxHeartbeats 2000000 in
theorem val2_main_v23 (V0 : Valuation τ sig (Elt F)) : val2 V0 (no_index (Proc.devRef .tc main_v23)) = uV V0 := by
  unfold val2
  simp only [ops_s1]
  after_results_simp
  simp only [val1_main_arg2, val1_main_v4, val1_main_arg1] <;> rfl
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)

set_option maxRecDepth 8192 in
set_option maxHeartbeats 2000000 in
theorem val3_main_v28 (V0 : Valuation τ sig (Elt F)) : val3 V0 (no_index (Proc.devRef .tc main_v28)) = e1V V0 := by
  unfold val3
  simp only [ops_s2]
  after_results_simp
  simp only [val2_main_v23, val2_main_arg5, val2_main_arg6] <;> rfl
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)

set_option maxRecDepth 8192 in
set_option maxHeartbeats 2000000 in
theorem val4_main_v33 (V0 : Valuation τ sig (Elt F)) : val4 V0 (no_index (Proc.devRef .tc main_v33)) = e2V V0 := by
  unfold val4
  simp only [ops_s3]
  after_results_simp
  simp only [val3_main_v28, val3_main_arg7, val3_main_arg8] <;> rfl
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)

set_option maxRecDepth 8192 in
set_option maxHeartbeats 2000000 in
theorem val5_main_v37 (V0 : Valuation τ sig (Elt F)) : val5 V0 (no_index (Proc.devRef .tc main_v37)) = e3V V0 := by
  unfold val5
  simp only [ops_s4]
  after_results_simp
  simp only [val4_main_v33, val4_main_arg9, val4_main_arg10] <;> rfl
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)

set_option maxRecDepth 8192 in
set_option maxHeartbeats 2000000 in
theorem val6_main_v42 (V0 : Valuation τ sig (Elt F)) : val6 V0 (no_index (Proc.devRef .tc main_v42)) = s1V V0 := by
  unfold val6
  simp only [ops_s5]
  after_results_simp
  simp only [val5_main_arg0, val5_main_arg11, val5_main_arg12] <;> rfl
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_v37 (V0 : Valuation τ sig (Elt F)) : val6 V0 (no_index (Proc.devRef .tc main_v37)) = e3V V0 :=
  (val6_keep V0 main_v37 (by decide)).trans (val5_main_v37 V0)

set_option maxRecDepth 8192 in
set_option maxHeartbeats 2000000 in
theorem val7_main_v47 (V0 : Valuation τ sig (Elt F)) : val7 V0 (no_index (Proc.devRef .tc main_v47)) = s2V V0 := by
  unfold val7
  simp only [ops_s6]
  after_results_simp
  simp only [val6_main_v42, val6_main_arg13, val6_main_arg14] <;> rfl
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_v37 (V0 : Valuation τ sig (Elt F)) : val7 V0 (no_index (Proc.devRef .tc main_v37)) = e3V V0 :=
  (val7_keep V0 main_v37 (by decide)).trans (val6_main_v37 V0)

set_option maxRecDepth 8192 in
set_option maxHeartbeats 2000000 in
theorem val8_main_v52 (V0 : Valuation τ sig (Elt F)) : val8 V0 (no_index (Proc.devRef .tc main_v52)) = zV V0 := by
  unfold val8
  simp only [ops_s7]
  after_results_simp
  simp only [val7_main_v47, val7_main_arg15, val7_main_arg16, val7_main_v37] <;> rfl

set_option maxRecDepth 8192 in
set_option maxHeartbeats 2000000 in
theorem val8_main_v53 (V0 : Valuation τ sig (Elt F)) : val8 V0 (no_index (Proc.devRef .tc main_v53)) = zmaxV V0 := by
  unfold val8
  simp only [ops_s7]
  after_results_simp
  simp only [val7_main_v47, val7_main_arg15, val7_main_arg16, val7_main_v37] <;> rfl
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)

set_option maxRecDepth 8192 in
set_option maxHeartbeats 2000000 in
theorem val9_main_v63 (V0 : Valuation τ sig (Elt F)) : val9 V0 (no_index (Proc.devRef .tc main_v63)) = outV V0 := by
  unfold val9
  simp only [ops_s8]
  after_results_simp
  simp only [val8_main_v53, val8_main_v52] <;> rfl
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)

/-! ## The whole line -/

theorem after_ops (V0 : Valuation τ sig (Elt F)) : after ops V0 = val9 V0 := by
  simp only [ops, ops_p0, after_append]
  rfl

set_option maxRecDepth 8192 in
/-- On every device, for any float values, from any memory with zero counters: every weakly fair execution of
    @main terminates with the result buffer at the composed term of the arguments' launch contents and every
    argument unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v63) = RefTerm.term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v63).trans (by simp only [after_ops]; exact (val9_main_v63 (launchContents m c)).trans (outV_eq _)),
      (h c main_arg0).trans (by simp only [after_ops]; exact val9_main_arg0 (launchContents m c)),
      (h c main_arg1).trans (by simp only [after_ops]; exact val9_main_arg1 (launchContents m c)),
      (h c main_arg2).trans (by simp only [after_ops]; exact val9_main_arg2 (launchContents m c)),
      (h c main_arg3).trans (by simp only [after_ops]; exact val9_main_arg3 (launchContents m c)),
      (h c main_arg4).trans (by simp only [after_ops]; exact val9_main_arg4 (launchContents m c)),
      (h c main_arg5).trans (by simp only [after_ops]; exact val9_main_arg5 (launchContents m c)),
      (h c main_arg6).trans (by simp only [after_ops]; exact val9_main_arg6 (launchContents m c)),
      (h c main_arg7).trans (by simp only [after_ops]; exact val9_main_arg7 (launchContents m c)),
      (h c main_arg8).trans (by simp only [after_ops]; exact val9_main_arg8 (launchContents m c)),
      (h c main_arg9).trans (by simp only [after_ops]; exact val9_main_arg9 (launchContents m c)),
      (h c main_arg10).trans (by simp only [after_ops]; exact val9_main_arg10 (launchContents m c)),
      (h c main_arg11).trans (by simp only [after_ops]; exact val9_main_arg11 (launchContents m c)),
      (h c main_arg12).trans (by simp only [after_ops]; exact val9_main_arg12 (launchContents m c)),
      (h c main_arg13).trans (by simp only [after_ops]; exact val9_main_arg13 (launchContents m c)),
      (h c main_arg14).trans (by simp only [after_ops]; exact val9_main_arg14 (launchContents m c)),
      (h c main_arg15).trans (by simp only [after_ops]; exact val9_main_arg15 (launchContents m c)),
      (h c main_arg16).trans (by simp only [after_ops]; exact val9_main_arg16 (launchContents m c))⟩)
    (run_seq scopedRefs_eq scopedSems_eq defs main (fun _ => ops) main_eq (fun _ => ops_sub) m ρ)

/-- The arguments are unchanged by the run. -/
theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run _ _ _).mono (fun _ h c => (h c).2) (run m ρ)

end Cert.RefRun

end
-- ==== Proof.RefValueElu.lean ====
/-
  The reference's elu, read at an entry: on the extended reals it is the exponential linear unit of the entry.

  The program computes  select (v > 0) v (1 · expm1 (select (v > 0) 0 v)).  Where v > 0 the outer select returns v
  and never looks at the other branch; elsewhere the inner select returns v, expm1 v = e^v − 1 and 1 · y = y.
-/
import proofs.«133679_j23562190586025_2_alg».proof.Proof.Spec
import proofs.«133679_j23562190586025_2_alg».proof.Proof.RefTerm
import proofs.«133679_j23562190586025_2_alg».proof.Proof.LibMatrixLayout

noncomputable section

namespace Cert.RefValue

open Idealize.ShloMosaic Idealize.ShloMosaic.ValueIdx
open Cert.ReferenceIdeal Cert.ReferenceIdeal.Facts₀ Cert.RefTerm

variable [Facts]

/-- A scalar broadcast to [400000, 32] reads the scalar everywhere. -/
theorem bcast_scalar_32 {α : Type} (x : S_.Idx → α) (i : S400000x32.Idx) :
    broadcastInDim S400000x32 ![] bcast_S_S400000x32 x i = x ix0 :=
  Cert.LibMatrixLayout.bcast_scalar_apply x bcast_S_S400000x32 i

/-- The reference's elu at any entry. -/
theorem eluT_idx (v : FVec Ideal S400000x32 .f32) (i : S400000x32.Idx) :
    eluT (F := Ideal) v i = Spec.elu (v i) := by
  have h0 : broadcastInDim S400000x32 ![] bcast_S_S400000x32 (constant (F := Ideal) S_ .f32 0x00000000#32) i = 0 := by
    rw [bcast_scalar_32, constant_apply, Spec.ofBits_zero]
  have h0' : broadcastInDim S400000x32 ![] bcast_S_S400000x32 (id (constant (F := Ideal) S_ .f32 0x00000000#32)) i = 0 := h0
  have h1 : broadcastInDim S400000x32 ![] bcast_S_S400000x32 (constant (F := Ideal) S_ .f32 0x3F800000#32) i = 1 := by
    rw [bcast_scalar_32, constant_apply, Spec.ofBits_one]
  unfold eluT Spec.elu
  simp only [select_apply, cmpf_apply, mulf_apply, Host.expm1, Ideal.hostUnary_expm1_def, Ideal.cmpf_def, h0, h0', h1,
    one_mul]
  by_cases hc : Ideal.cmp .ogt (v i) 0 = 1#1
  · rw [hc, select_one, select_one]
  · rw [eq_zero_of_ne_one hc, select_zero, select_zero, select_zero]

/-- The reference's elu at entry (r, j). -/
theorem eluT_apply (v : FVec Ideal S400000x32 .f32) (r : Fin 400000) (j : Fin 32) :
    eluT (F := Ideal) v (ix2 r j) = Spec.elu (v (ix2 r j)) := eluT_idx v _

end Cert.RefValue

end
-- ==== Proof.RefValueDense.lean ====
/-
  A dense layer of the reference, read at an entry.

  The reference computes a layer as  dot_general h W + (b broadcast to a row, the row broadcast down the rows).  At
  entry (r, j) that is  ∑_q h[r, q] · W[q, j] + b[j],  the function Spec.dense of row r of h.  One lemma per pair of
  extents the network uses.
-/
import proofs.«133679_j23562190586025_2_alg».proof.Proof.Spec
import proofs.«133679_j23562190586025_2_alg».proof.Proof.RefTerm
import proofs.«133679_j23562190586025_2_alg».proof.Proof.LibPlainDot
import proofs.«133679_j23562190586025_2_alg».proof.Proof.LibMatrixLayout

noncomputable section

namespace Cert.RefValue

open Idealize.ShloMosaic Idealize.ShloMosaic.ValueIdx
open Cert.ReferenceIdeal Cert.ReferenceIdeal.Facts₀ Cert.RefTerm

variable [Facts]

open Cert.LibMatrixLayout

/-- The 32-wide bias at entry (r, j) is b[j]. -/
theorem bias32_apply (b : FVec Ideal S32 .f32) (r : Fin 400000) (j : Fin 32) :
    bias32 (F := Ideal) b (ix2 r j) = b (ix1 j) := by
  unfold bias32
  rw [bcast_1b_ab_apply, bcast_b_1b_apply]

/-- The 6-wide bias at entry (r, j) is b[j]. -/
theorem bias6_apply (b : FVec Ideal S6 .f32) (r : Fin 400000) (j : Fin 6) :
    bias6 (F := Ideal) b (ix2 r j) = b (ix1 j) := by
  unfold bias6
  rw [bcast_1b_ab_apply, bcast_b_1b_apply]

/-- The 1-wide bias at entry (r, j) is b[j]. -/
theorem bias1_apply (b : FVec Ideal S1 .f32) (r : Fin 400000) (j : Fin 1) :
    bias1 (F := Ideal) b (ix2 r j) = b (ix1 j) := by
  unfold bias1
  rw [bcast_1b_ab_apply, bcast_b_1b_apply]

/-- A 64 → 32 layer. -/
theorem dense_64_32 (h : FVec Ideal S400000x64 .f32) (W : FVec Ideal S64x32 .f32) (b : FVec Ideal S32 .f32)
    (r : Fin 400000) (j : Fin 32) :
    addf (Host.dotGeneral dot_S400000x64_S64x32_S400000x32_1_0_0_1_n_n none h W) (bias32 (F := Ideal) b) (ix2 r j)
      = Spec.dense (fun q => h (ix2 r q)) W b j := by
  rw [addf_apply, bias32_apply, Cert.PlainDot.dotGeneral_ix2 dot_S400000x64_S64x32_S400000x32_1_0_0_1_n_n rfl]
  rfl

/-- A 198 → 32 layer. -/
theorem dense_198_32 (h : FVec Ideal S400000x198 .f32) (W : FVec Ideal S198x32 .f32) (b : FVec Ideal S32 .f32)
    (r : Fin 400000) (j : Fin 32) :
    addf (Host.dotGeneral dot_S400000x198_S198x32_S400000x32_1_0_0_1_n_n none h W) (bias32 (F := Ideal) b) (ix2 r j)
      = Spec.dense (fun q => h (ix2 r q)) W b j := by
  rw [addf_apply, bias32_apply, Cert.PlainDot.dotGeneral_ix2 dot_S400000x198_S198x32_S400000x32_1_0_0_1_n_n rfl]
  rfl

/-- A 32 → 32 layer. -/
theorem dense_32_32 (h : FVec Ideal S400000x32 .f32) (W : FVec Ideal S32x32 .f32) (b : FVec Ideal S32 .f32)
    (r : Fin 400000) (j : Fin 32) :
    addf (Host.dotGeneral dot_S400000x32_S32x32_S400000x32_1_0_0_1_n_n none h W) (bias32 (F := Ideal) b) (ix2 r j)
      = Spec.dense (fun q => h (ix2 r q)) W b j := by
  rw [addf_apply, bias32_apply, Cert.PlainDot.dotGeneral_ix2 dot_S400000x32_S32x32_S400000x32_1_0_0_1_n_n rfl]
  rfl

/-- A 32 → 6 layer. -/
theorem dense_32_6 (h : FVec Ideal S400000x32 .f32) (W : FVec Ideal S32x6 .f32) (b : FVec Ideal S6 .f32)
    (r : Fin 400000) (j : Fin 6) :
    addf (Host.dotGeneral dot_S400000x32_S32x6_S400000x6_1_0_0_1_n_n none h W) (bias6 (F := Ideal) b) (ix2 r j)
      = Spec.dense (fun q => h (ix2 r q)) W b j := by
  rw [addf_apply, bias6_apply, Cert.PlainDot.dotGeneral_ix2 dot_S400000x32_S32x6_S400000x6_1_0_0_1_n_n rfl]
  rfl

/-- A 32 → 1 layer. -/
theorem dense_32_1 (h : FVec Ideal S400000x32 .f32) (W : FVec Ideal S32x1 .f32) (b : FVec Ideal S1 .f32)
    (r : Fin 400000) (j : Fin 1) :
    addf (Host.dotGeneral dot_S400000x32_S32x1_S400000x1_1_0_0_1_n_n none h W) (bias1 (F := Ideal) b) (ix2 r j)
      = Spec.dense (fun q => h (ix2 r q)) W b j := by
  rw [addf_apply, bias1_apply, Cert.PlainDot.dotGeneral_ix2 dot_S400000x32_S32x1_S400000x1_1_0_0_1_n_n rfl]
  rfl

end Cert.RefValue

end
-- ==== Proof.RefValueLayout3.lean ====
/-
  Rank-3 layout operations read at an index written by coordinates.  General lemmas: any element type, any extents.

  * a matrix [a, b] broadcast in dimensions (0, 2) to [a, 1, b], and in dimensions (0, 1) to [a, b, 1];
  * [a, 1, b] broadcast in dimensions (0, 1, 2) to [a, c, b], and [a, c, 1] to [a, c, b];
  * two arrays [a, b, c] and [a, b, d] joined along the last axis into [a, b, n], read in either part;
  * [a, b, c] reshaped to [a, b·c]: column k·c + p of row i is entry (i, k, p).
-/
import Idealize.ShloMosaic.Lib.Pipeline.Value
import Idealize.ShloMosaic.Lib.ValueIdx

namespace Cert.RefValue.Layout3

open Idealize.ShloMosaic Idealize.ShloMosaic.ValueIdx

variable {α : Type}

/-- A matrix broadcast in dimensions (0, 2) to [a, 1, b] reads, at (i, 0, j), the matrix's entry (i, j). -/
theorem bcast_ab_a1b_apply {a b : ℕ} (x : (⟨2, ![a, b]⟩ : Shape).Idx → α)
    (h : (⟨2, ![a, b]⟩ : Shape).BroadcastsInDim ⟨3, ![a, 1, b]⟩ ![0, 2]) (i : Fin a) (u : Fin 1) (j : Fin b) :
    broadcastInDim ⟨3, ![a, 1, b]⟩ ![0, 2] h x (ix3 i u j) = x (ix2 i j) := by
  refine broadcastInDim_apply _ h x (ix3 i u j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- A matrix broadcast in dimensions (0, 1) to [a, b, 1] reads, at (i, j, 0), the matrix's entry (i, j). -/
theorem bcast_ab_ab1_apply {a b : ℕ} (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, 1, b] broadcast in dimensions (0, 1, 2) to [a, c, b] reads, at (i, k, j), the operand's entry (i, 0, j). -/
theorem bcast_a1b_acb_apply {a c b : ℕ} (x : (⟨3, ![a, 1, b]⟩ : Shape).Idx → α)
    (h : (⟨3, ![a, 1, b]⟩ : Shape).BroadcastsInDim ⟨3, ![a, c, b]⟩ ![0, 1, 2]) (i : Fin a) (k : Fin c) (j : Fin b) :
    broadcastInDim ⟨3, ![a, c, b]⟩ ![0, 1, 2] h x (ix3 i k j) = x (ix3 i (0 : Fin 1) j) := by
  refine broadcastInDim_apply _ h x (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- [a, c, 1] broadcast in dimensions (0, 1, 2) to [a, c, b] reads, at (i, k, j), the operand's entry (i, k, 0). -/
theorem bcast_ac1_acb_apply {a c b : ℕ} (x : (⟨3, ![a, c, 1]⟩ : Shape).Idx → α)
    (h : (⟨3, ![a, c, 1]⟩ : Shape).BroadcastsInDim ⟨3, ![a, c, b]⟩ ![0, 1, 2]) (i : Fin a) (k : Fin c) (j : Fin b) :
    broadcastInDim ⟨3, ![a, c, b]⟩ ![0, 1, 2] h x (ix3 i k j) = x (ix3 i k (0 : Fin 1)) := by
  refine broadcastInDim_apply _ h x (ix3 i k j) (ix3 i k (0 : Fin 1)) fun ax => ?_
  match ax with
  | ⟨0, _⟩ =>
    show i.val = if a = 1 then 0 else i.val
    split
    · have := i.isLt; omega
    · rfl
  | ⟨1, _⟩ =>
    show k.val = if c = 1 then 0 else k.val
    split
    · have := k.isLt; omega
    · rfl
  | ⟨2, _⟩ => rfl

/-- Two rank-3 arrays joined along the last axis read, in the first c places, the left one. -/
theorem concat3_left {a b c d n : ℕ} (x₁ : (⟨3, ![a, b, c]⟩ : Shape).Idx → α) (x₂ : (⟨3, ![a, b, d]⟩ : Shape).Idx → α)
    (h : Shape.Concatenates [(⟨3, ![a, b, c]⟩ : Shape), ⟨3, ![a, b, d]⟩] ⟨3, ![a, b, n]⟩ (2 : Fin 3))
    (i : Fin a) (k : Fin b) (q : Fin c) (p : Fin n) (hp : p.val = q.val) :
    concatenate ⟨3, ![a, b, n]⟩ (2 : Fin 3) [⟨⟨3, ![a, b, c]⟩, x₁⟩, ⟨⟨3, ![a, b, d]⟩, x₂⟩] h (ix3 i k p)
      = x₁ (ix3 i k q) := by
  refine concatenate_pair_apply_left (2 : Fin 3) x₁ x₂ h (ix3 i k p) rfl (ix3 i k q) fun ax => ?_
  match ax with
  | ⟨0, _⟩ => rfl
  | ⟨1, _⟩ => rfl
  | ⟨2, _⟩ => exact hp.symm

/-- Two rank-3 arrays joined along the last axis read, past the first c places, the right one. -/
theorem concat3_right {a b c d n : ℕ} (x₁ : (⟨3, ![a, b, c]⟩ : Shape).Idx → α) (x₂ : (⟨3, ![a, b, d]⟩ : Shape).Idx → α)
    (h : Shape.Concatenates [(⟨3, ![a, b, c]⟩ : Shape), ⟨3, ![a, b, d]⟩] ⟨3, ![a, b, n]⟩ (2 : Fin 3))
    (i : Fin a) (k : Fin b) (q : Fin d) (p : Fin n) (hp : p.val = c + q.val) :
    concatenate ⟨3, ![a, b, n]⟩ (2 : Fin 3) [⟨⟨3, ![a, b, c]⟩, x₁⟩, ⟨⟨3, ![a, b, d]⟩, x₂⟩] h (ix3 i k p)
      = x₂ (ix3 i k q) := by
  refine concatenate_pair_apply_right (2 : Fin 3) x₁ x₂ h (ix3 i k p) rfl rfl (ix3 i k q) (fun ax hax => ?_) ?_
  · match ax with
    | ⟨0, _⟩ => rfl
    | ⟨1, _⟩ => rfl
    | ⟨2, _⟩ => exact absurd rfl hax
  · show q.val + c = p.val
    omega

/-- [a, b, c] reshaped to [a, n] with n = b · c reads, at (i, k·c + p), the operand's entry (i, k, p). -/
theorem shapeCast_abc_an_apply {a b c n : ℕ} (x : (⟨3, ![a, b, c]⟩ : Shape).Idx → α)
    (h : (⟨3, ![a, b, c]⟩ : Shape).ShapeCasts ⟨2, ![a, n]⟩) (hn : n = b * c)
    (i : Fin a) (k : Fin b) (p : Fin c) (q : Fin n) (hq : q.val = k.val * c + p.val) :
    shapeCast ⟨2, ![a, n]⟩ x h (ix2 i q) = x (ix3 i k p) :=
  shapeCast_apply x h _ _ (by
    rw [Shape.rowMajor_val_two, Shape.rowMajor_val_three]
    show (i.val * b + k.val) * c + p.val = i.val * n + q.val
    subst hn
    rw [hq]
    ring)

end Cert.RefValue.Layout3
-- ==== Proof.RefValueSum.lean ====
/-
  A sum over the 198 rows of the first edge weight matrix, regrouped neighbour by neighbour.

  Row 33k + p (k < 6, p < 33) is Spec.erow k p, and (k, p) ↦ 33k + p is a bijection of Fin 6 × Fin 33 with Fin 198; so
  in any commutative monoid a sum over Fin 198 is the sum over k of the sum over p, and the inner sum splits into its
  first 32 terms and the last.
-/
import proofs.«133679_j23562190586025_2_alg».proof.Proof.Spec

namespace Cert.RefValue

open Cert.Spec

/-- The pair (k, p) sits at row 33k + p. -/
theorem finProd_eq_erow (k : Fin 6) (p : Fin 33) : (finProdFinEquiv (k, p) : Fin (6 * 33)) = erow k p := by
  apply Fin.ext
  show p.val + 33 * k.val = 33 * k.val + p.val
  omega

/-- A sum over the 198 rows, neighbour by neighbour: 32 feature rows and the distance row. -/
theorem sum_fin198 {M : Type*} [AddCommMonoid M] (f : Fin 198 → M) :
    ∑ j : Fin 198, f j
      = ∑ k : Fin 6, ((∑ p : Fin 32, f (erow k ⟨p.val, by omega⟩)) + f (erow k ⟨32, by omega⟩)) := by
  have e : ∑ j : Fin 198, f j = ∑ kp : Fin 6 × Fin 33, f (erow kp.1 kp.2) := by
    refine (Fintype.sum_equiv (finProdFinEquiv (m := 6) (n := 33)) (fun kp => f (erow kp.1 kp.2)) f ?_).symm
    rintro ⟨k, p⟩
    exact congrArg f (finProd_eq_erow k p).symm
  rw [e, Fintype.sum_prod_type]
  refine Finset.sum_congr rfl fun k _ => ?_
  rw [Fin.sum_univ_castSucc]
  rfl

end Cert.RefValue
-- ==== Proof.RefValueEdgeIn.lean ====
/-
  The first edge layer of the reference, read at an entry.

  Its input row for node r is, neighbour by neighbour, the 32 differences xp[r, p] − g[r, k, p] followed by the squared
  distance d[r, k]: a [400000, 6, 33] concatenation reshaped to [400000, 198], so that column 33k + p of row r is entry
  (r, k, p).  Against the 198 rows of the weights, summed neighbour by neighbour, that is Spec.edgeIn.
-/
import proofs.«133679_j23562190586025_2_alg».proof.Proof.Spec
import proofs.«133679_j23562190586025_2_alg».proof.Proof.RefTerm
import proofs.«133679_j23562190586025_2_alg».proof.Proof.RefValueLayout3
import proofs.«133679_j23562190586025_2_alg».proof.Proof.RefValueSum
import proofs.«133679_j23562190586025_2_alg».proof.Proof.RefValueDense

noncomputable section

namespace Cert.RefValue

open Idealize.ShloMosaic Idealize.ShloMosaic.ValueIdx
open Cert.ReferenceIdeal Cert.ReferenceIdeal.Facts₀ Cert.RefTerm

variable [Facts]

open Cert.RefValue.Layout3

/-- Column 33k + p (p < 32) of row r of the edge input is the feature difference xp[r, p] − g[r, k, p]. -/
theorem edgeInT_feat (xp : FVec Ideal S400000x32 .f32) (g : FVec Ideal S400000x6x32 .f32) (a1 : FVec Ideal S400000x6 .f32)
    (r : Fin 400000) (k : Fin 6) (p : Fin 32) :
    edgeInT (F := Ideal) xp g a1 (ix2 r (Spec.erow k ⟨p.val, by omega⟩)) = xp (ix2 r p) - g (ix3 r k p) := by
  unfold edgeInT
  rw [shapeCast_abc_an_apply _ _ (by norm_num) r k (⟨p.val, by omega⟩ : Fin 33) _
    (by show 33 * k.val + p.val = k.val * 33 + p.val; omega)]
  rw [concat3_left (c := 32) (d := 1) (n := 33) _ _ _ r k p ⟨p.val, by omega⟩ rfl]
  rw [subf_apply, bcast_a1b_acb_apply, bcast_ab_a1b_apply]

/-- Column 33k + 32 of row r of the edge input is the squared distance d[r, k]. -/
theorem edgeInT_dist (xp : FVec Ideal S400000x32 .f32) (g : FVec Ideal S400000x6x32 .f32) (a1 : FVec Ideal S400000x6 .f32)
    (r : Fin 400000) (k : Fin 6) :
    edgeInT (F := Ideal) xp g a1 (ix2 r (Spec.erow k ⟨32, by omega⟩)) = a1 (ix2 r k) := by
  unfold edgeInT
  rw [shapeCast_abc_an_apply _ _ (by norm_num) r k (⟨32, by omega⟩ : Fin 33) _
    (by show 33 * k.val + 32 = k.val * 33 + 32; omega)]
  rw [concat3_right (c := 32) (d := 1) (n := 33) _ _ _ r k (0 : Fin 1) ⟨32, by omega⟩ rfl]
  rw [bcast_ab_ab1_apply]

/-- The first edge layer at entry (r, j): the regrouped sum plus the bias. -/
theorem edge1_apply (xp : FVec Ideal S400000x32 .f32) (g : FVec Ideal S400000x6x32 .f32) (a1 : FVec Ideal S400000x6 .f32)
    (a5 : FVec Ideal S198x32 .f32) (a6 : FVec Ideal S32 .f32) (r : Fin 400000) (j : Fin 32) :
    addf (Host.dotGeneral dot_S400000x198_S198x32_S400000x32_1_0_0_1_n_n none (edgeInT (F := Ideal) xp g a1) a5)
        (bias32 (F := Ideal) a6) (ix2 r j)
      = Spec.edgeIn (fun p => xp (ix2 r p)) (fun k p => g (ix3 r k p)) (fun k => a1 (ix2 r k)) a5 j + a6 (ix1 j) := by
  rw [dense_198_32]
  unfold Spec.dense Spec.edgeIn
  rw [sum_fin198 (fun q : Fin 198 => edgeInT (F := Ideal) xp g a1 (ix2 r q) * a5 (ix2 q j))]
  refine congrArg (· + a6 (ix1 j)) (Finset.sum_congr rfl fun k _ => ?_)
  rw [edgeInT_dist]
  refine congrArg (· + a1 (ix2 r k) * a5 (ix2 (Spec.erow k ⟨32, by omega⟩) j)) (Finset.sum_congr rfl fun p _ => ?_)
  rw [edgeInT_feat]

end Cert.RefValue

end
-- ==== Proof.RefValueStages.lean ====
/-
  The stages of the reference between its arguments and its softmax, read at an entry.

  * the pre-dense features are the array Spec.xpArr;
  * the self logit column is Spec.xs, node by node;
  * the six edge logits are Spec.edgeLogit of the node's own features, its neighbours' and the distances.
  Each is a chain of dense layers and elu's, read layer by layer.
-/
import proofs.«133679_j23562190586025_2_alg».proof.Proof.Spec
import proofs.«133679_j23562190586025_2_alg».proof.Proof.RefTerm
import proofs.«133679_j23562190586025_2_alg».proof.Proof.RefValueElu
import proofs.«133679_j23562190586025_2_alg».proof.Proof.RefValueDense
import proofs.«133679_j23562190586025_2_alg».proof.Proof.RefValueEdgeIn

noncomputable section

namespace Cert.RefValue

open Idealize.ShloMosaic Idealize.ShloMosaic.ValueIdx
open Cert.ReferenceIdeal Cert.ReferenceIdeal.Facts₀ Cert.RefTerm

variable [Facts]

/-- The pre-dense features, as an array. -/
theorem xpT_eq (a0 : FVec Ideal S400000x64 .f32) (a3 : FVec Ideal S64x32 .f32) (a4 : FVec Ideal S32 .f32) :
    xpT (F := Ideal) a0 a3 a4 = Spec.xpArr a0 a3 a4 := by
  funext i
  obtain ⟨r, j, rfl⟩ : ∃ (r : Fin 400000) (j : Fin 32), i = ix2 r j := ⟨i 0, i 1, eq_ix2 i⟩
  unfold xpT
  rw [eluT_apply, dense_64_32]
  rfl

/-- A 64 → 32 layer followed by elu, along row r. -/
theorem layer_64_32 (h : FVec Ideal S400000x64 .f32) (W : FVec Ideal S64x32 .f32) (b : FVec Ideal S32 .f32) (r : Fin 400000) :
    (fun q : Fin 32 => eluT (F := Ideal)
        (addf (Host.dotGeneral dot_S400000x64_S64x32_S400000x32_1_0_0_1_n_n none h W) (bias32 (F := Ideal) b)) (ix2 r q))
      = fun q => Spec.elu (Spec.dense (fun q' => h (ix2 r q')) W b q) :=
  funext fun q => by rw [eluT_apply, dense_64_32]

/-- A 32 → 32 layer followed by elu, along row r. -/
theorem layer_32_32 (h : FVec Ideal S400000x32 .f32) (W : FVec Ideal S32x32 .f32) (b : FVec Ideal S32 .f32) (r : Fin 400000) :
    (fun q : Fin 32 => eluT (F := Ideal)
        (addf (Host.dotGeneral dot_S400000x32_S32x32_S400000x32_1_0_0_1_n_n none h W) (bias32 (F := Ideal) b)) (ix2 r q))
      = fun q => Spec.elu (Spec.dense (fun q' => h (ix2 r q')) W b q) :=
  funext fun q => by rw [eluT_apply, dense_32_32]

/-- The first edge layer followed by elu, along row r. -/
theorem layer_edge1 (xp : FVec Ideal S400000x32 .f32) (g : FVec Ideal S400000x6x32 .f32) (a1 : FVec Ideal S400000x6 .f32)
    (a5 : FVec Ideal S198x32 .f32) (a6 : FVec Ideal S32 .f32) (r : Fin 400000) :
    (fun q : Fin 32 => eluT (F := Ideal)
        (addf (Host.dotGeneral dot_S400000x198_S198x32_S400000x32_1_0_0_1_n_n none (edgeInT (F := Ideal) xp g a1) a5)
          (bias32 (F := Ideal) a6)) (ix2 r q))
      = fun q => Spec.elu
          (Spec.edgeIn (fun p => xp (ix2 r p)) (fun k p => g (ix3 r k p)) (fun k => a1 (ix2 r k)) a5 q + a6 (ix1 q)) :=
  funext fun q => by rw [eluT_apply, edge1_apply]

/-- The self logit of node r. -/
theorem selfT_apply (a0 : FVec Ideal S400000x64 .f32) (a11 : FVec Ideal S64x32 .f32) (a12 : FVec Ideal S32 .f32)
    (a13 : FVec Ideal S32x32 .f32) (a14 : FVec Ideal S32 .f32) (a15 : FVec Ideal S32x1 .f32) (a16 : FVec Ideal S1 .f32)
    (r : Fin 400000) :
    selfT (F := Ideal) a0 a11 a12 a13 a14 a15 a16 (ix2 r (0 : Fin 1)) = Spec.xs a0 a11 a12 a13 a14 a15 a16 r := by
  unfold selfT Spec.xs
  rw [dense_32_1, layer_32_32, layer_64_32]

/-- Edge logit n of node r. -/
theorem edgeT_apply (xp : FVec Ideal S400000x32 .f32) (g : FVec Ideal S400000x6x32 .f32) (a1 : FVec Ideal S400000x6 .f32)
    (a5 : FVec Ideal S198x32 .f32) (a6 : FVec Ideal S32 .f32) (a7 : FVec Ideal S32x32 .f32) (a8 : FVec Ideal S32 .f32)
    (a9 : FVec Ideal S32x6 .f32) (a10 : FVec Ideal S6 .f32) (r : Fin 400000) (n : Fin 6) :
    edgeT (F := Ideal) (edgeInT (F := Ideal) xp g a1) a5 a6 a7 a8 a9 a10 (ix2 r n)
      = Spec.edgeLogit (fun p => xp (ix2 r p)) (fun k p => g (ix3 r k p)) (fun k => a1 (ix2 r k)) a5 a6 a7 a8 a9 a10 n := by
  unfold edgeT Spec.edgeLogit
  rw [dense_32_6, layer_32_32, layer_edge1]

end Cert.RefValue

end
-- ==== Proof.RefValueLogits.lean ====
/-
  The seven logits of a node, read at an entry: the self logit column joined with the six edge logits along the
  columns is Spec.logit — column 0 the self logit, column c ≥ 1 edge logit c − 1.
-/
import proofs.«133679_j23562190586025_2_alg».proof.Proof.Spec
import proofs.«133679_j23562190586025_2_alg».proof.Proof.RefTerm
import proofs.«133679_j23562190586025_2_alg».proof.Proof.LibMatrixLayout

noncomputable section

namespace Cert.RefValue

open Idealize.ShloMosaic Idealize.ShloMosaic.ValueIdx
open Cert.ReferenceIdeal Cert.ReferenceIdeal.Facts₀ Cert.RefTerm

variable [Facts]

open Cert.LibMatrixLayout

/-- The joined logits at entry (r, c). -/
theorem logitsT_apply (s : FVec Ideal S400000x1 .f32) (e : FVec Ideal S400000x6 .f32) (r : Fin 400000) (c : Fin 7) :
    logitsT (F := Ideal) s e (ix2 r c) = Spec.logit (s (ix2 r (0 : Fin 1))) (fun n => e (ix2 r n)) c := by
  unfold logitsT Spec.logit
  by_cases h : c.val = 0
  · rw [dif_pos h]
    exact concat_cols_left s e _ r (0 : Fin 1) c h
  · rw [dif_neg h]
    exact concat_cols_right s e _ r (⟨c.val - 1, by omega⟩ : Fin 6) c (by show c.val = 1 + (c.val - 1); omega)

end Cert.RefValue

end
-- ==== Proof.RefValueSoftmax.lean ====
/-
  The reference's softmax over the seven logits of a node, read at an entry.

  The program takes the row maximum by a reduce from −∞, takes its maximum with −∞ once more (max ⊥ m = m), broadcasts
  it along the row, subtracts, exponentiates, sums the row from 0 and divides.  At entry (r, c) that is Spec.softmax
  of row r of the logits.
-/
import proofs.«133679_j23562190586025_2_alg».proof.Proof.Spec
import proofs.«133679_j23562190586025_2_alg».proof.Proof.RefTerm
import proofs.«133679_j23562190586025_2_alg».proof.Proof.LibMatrixLayout

noncomputable section

namespace Cert.RefValue

open Idealize.ShloMosaic Idealize.ShloMosaic.ValueIdx
open Cert.ReferenceIdeal Cert.ReferenceIdeal.Facts₀ Cert.RefTerm

variable [Facts]

open Cert.LibMatrixLayout

/-- The reduced index r with column k put back is (r, k). -/
theorem lift_row (h : S400000x7.Reduces [1] S400000) (r : Fin 400000) (k : Fin (S400000x7.size 1)) :
    h.lift (ix1 r) k = ix2 r (⟨k.val, k.isLt⟩ : Fin 7) := by
  funext c; apply Fin.ext
  fin_cases c <;> rfl

/-- The row maximum the program computes, at (r, c): the largest of the row's seven entries. -/
theorem rowMaxT_apply (z : FVec Ideal S400000x7 .f32) (r : Fin 400000) (c : Fin 7) :
    rowMaxT (F := Ideal) z (ix2 r c) = Spec.top fun c' => z (ix2 r c') := by
  have hR : S400000x7.Reduces [1] S400000 := by decide
  unfold rowMaxT
  rw [bcast_a1_ab_apply, bcast_a_a1_apply, maximumf_apply, bcast_scalar_apply, constant_apply, Spec.ofBits_neg_inf,
    max_bot_left]
  rw [Host.reduce_eq_fold_single FloatOps.maximumf z _ reducesTo_S400000x7_S400000_d1 hR h_S_]
  have hf : (z ∘ hR.lift (ix1 r)) = fun c' : Fin 7 => z (ix2 r c') :=
    funext fun k => congrArg z (lift_row hR r k)
  rw [hf, constant_apply, Spec.ofBits_neg_inf]
  rfl

/-- The exponential of a shifted logit. -/
theorem expT_apply (z : FVec Ideal S400000x7 .f32) (r : Fin 400000) (c : Fin 7) :
    expT (F := Ideal) z (ix2 r c) = Ideal.exp (z (ix2 r c) - Spec.top fun c' => z (ix2 r c')) := by
  show Ideal.exp (subf z (rowMaxT (F := Ideal) z) (ix2 r c)) = _
  rw [subf_apply, rowMaxT_apply]

/-- The row sum of the exponentials, from 0. -/
theorem sumExp_apply (z : FVec Ideal S400000x7 .f32) (r : Fin 400000) :
    Host.reduceAdd (expT (F := Ideal) z) (constant (F := Ideal) S_ .f32 0x00000000#32) reducesTo_S400000x7_S400000_d1 h_S_
        (ix1 r)
      = ∑ c' : Fin 7, Ideal.exp (z (ix2 r c') - Spec.top fun c'' => z (ix2 r c'')) := by
  have hR : S400000x7.Reduces [1] S400000 := by decide
  show Ideal.hostReduceAdd reducesTo_S400000x7_S400000_d1 (expT (F := Ideal) z)
      (constant (F := Ideal) S_ .f32 0x00000000#32 (Shape.Idx.first h_S_)) (ix1 r) = _
  rw [Ideal.hostReduceAdd_single reducesTo_S400000x7_S400000_d1 hR, constant_apply, Spec.ofBits_zero, zero_add]
  show ∑ k : Fin 7, expT (F := Ideal) z (hR.lift (ix1 r) k) = _
  refine Finset.sum_congr rfl fun k _ => ?_
  rw [lift_row hR r k]
  exact expT_apply z r k

/-- The host's quotient at an entry. -/
theorem hostDivf_idx (a b : FVec Ideal S400000x7 .f32) (i : S400000x7.Idx) :
    Host.divf a b i = Ideal.div (a i) (b i) := rfl

/-- The reference's softmax at entry (r, c). -/
theorem softmaxT_apply (z : FVec Ideal S400000x7 .f32) (r : Fin 400000) (c : Fin 7) :
    softmaxT (F := Ideal) z (ix2 r c) = Spec.softmax (fun c' => z (ix2 r c')) c := by
  unfold softmaxT Spec.softmax
  rw [hostDivf_idx, expT_apply, bcast_a1_ab_apply, bcast_a_a1_apply, sumExp_apply]

end Cert.RefValue

end
-- ==== Proof.RefValue.lean ====
/-
  The reference's result is the network's output Spec.outArr, with the gathered neighbour features an opaque function
  of the pre-dense feature array and the neighbour indices.

  Entry (r, c) of the result is the softmax, at c, of the seven logits of node r: the self logit, and the six edge
  logits of the node's features, its neighbours' gathered features and the squared distances.
-/
import proofs.«133679_j23562190586025_2_alg».proof.Proof.Spec
import proofs.«133679_j23562190586025_2_alg».proof.Proof.RefTerm
import proofs.«133679_j23562190586025_2_alg».proof.Proof.RefValueStages
import proofs.«133679_j23562190586025_2_alg».proof.Proof.RefValueLogits
import proofs.«133679_j23562190586025_2_alg».proof.Proof.RefValueSoftmax

noncomputable section

namespace Cert.RefValue

open Idealize.ShloMosaic Idealize.ShloMosaic.ValueIdx
open Cert.ReferenceIdeal Cert.ReferenceIdeal.Facts₀ Cert.RefTerm

variable [Facts]

/-- The part of the reference after the gather, at entry (r, c). -/
theorem tail_apply (xp : FVec Ideal S400000x32 .f32) (g : FVec Ideal S400000x6x32 .f32) (a0 : FVec Ideal S400000x64 .f32)
    (a1 : FVec Ideal S400000x6 .f32) (a5 : FVec Ideal S198x32 .f32) (a6 : FVec Ideal S32 .f32) (a7 : FVec Ideal S32x32 .f32)
    (a8 : FVec Ideal S32 .f32) (a9 : FVec Ideal S32x6 .f32) (a10 : FVec Ideal S6 .f32) (a11 : FVec Ideal S64x32 .f32)
    (a12 : FVec Ideal S32 .f32) (a13 : FVec Ideal S32x32 .f32) (a14 : FVec Ideal S32 .f32) (a15 : FVec Ideal S32x1 .f32)
    (a16 : FVec Ideal S1 .f32) (r : Fin 400000) (c : Fin 7) :
    tail (F := Ideal) xp g a0 a1 a5 a6 a7 a8 a9 a10 a11 a12 a13 a14 a15 a16 (ix2 r c)
      = Spec.outOf xp g a1 (Spec.xsArr a0 a11 a12 a13 a14 a15 a16) a5 a6 a7 a8 a9 a10 r c := by
  unfold tail Spec.outOf
  rw [softmaxT_apply]
  refine congrArg (fun z => Spec.softmax z c) (funext fun c' => ?_)
  rw [logitsT_apply, selfT_apply]
  refine congrArg (fun e => Spec.logit _ e c') (funext fun n => ?_)
  exact edgeT_apply xp g a1 a5 a6 a7 a8 a9 a10 r n

/-- The reference's result, as an array: the network's output over the gathered neighbour features. -/
theorem term_eq (a0 : FVec Ideal S400000x64 .f32) (a1 : FVec Ideal S400000x6 .f32) (a2 : IVec S400000x6 32)
    (a3 : FVec Ideal S64x32 .f32) (a4 : FVec Ideal S32 .f32) (a5 : FVec Ideal S198x32 .f32) (a6 : FVec Ideal S32 .f32)
    (a7 : FVec Ideal S32x32 .f32) (a8 : FVec Ideal S32 .f32) (a9 : FVec Ideal S32x6 .f32) (a10 : FVec Ideal S6 .f32)
    (a11 : FVec Ideal S64x32 .f32) (a12 : FVec Ideal S32 .f32) (a13 : FVec Ideal S32x32 .f32) (a14 : FVec Ideal S32 .f32)
    (a15 : FVec Ideal S32x1 .f32) (a16 : FVec Ideal S1 .f32) :
    term (F := Ideal) a0 a1 a2 a3 a4 a5 a6 a7 a8 a9 a10 a11 a12 a13 a14 a15 a16
      = Spec.outArr a0 a1 (gathered (F := Ideal) (Spec.xpArr a0 a3 a4) a2) a3 a4 a5 a6 a7 a8 a9 a10 a11 a12 a13 a14 a15 a16 := by
  funext i
  obtain ⟨r, c, rfl⟩ : ∃ (r : Fin 400000) (c : Fin 7), i = ix2 r c := ⟨i 0, i 1, eq_ix2 i⟩
  unfold term
  rw [xpT_eq, tail_apply]
  rfl

end Cert.RefValue

end
-- ==== Proof.lean ====
/-
  The certificate.  Both programs compute, for every node r and class c, the softmax over the node's seven logits — the
  self logit (three dense layers on the node's features) and six edge logits (three dense layers on the differences
  between the node's pre-dense features and its six neighbours', with the squared distances).

  The kernel program does it in two row-blocked regions with a host gather between them; its result array is read off
  the run region by region.  The reference is one host program; its run is read operation by operation and its result,
  index by index, is the same function: its first edge layer's one sum over 198 inputs is the kernel's sum of six groups
  of 32 + 1 (a re-indexing of a finite sum in a commutative monoid), its expm1 is e^v − 1, its maximum with −∞ changes
  nothing.  No law used needs finiteness, so the precondition is never opened.  The host operations that gather the
  neighbours' rows are the same function of the pre-dense features and the indices in both programs; they differ only in
  comparing the indices with zero before or after a unit axis is added.
-/
import proofs.«133679_j23562190586025_2_alg».proof.Defs
import proofs.«133679_j23562190586025_2_alg».proof.Proof.Gen.Kernel
import proofs.«133679_j23562190586025_2_alg».proof.Proof.Gen.Kernel.Frame
import proofs.«133679_j23562190586025_2_alg».proof.Proof.Gen.KernelIdeal
import proofs.«133679_j23562190586025_2_alg».proof.Proof.Gen.KernelIdeal.Frame
import proofs.«133679_j23562190586025_2_alg».proof.Proof.Gen.ReferenceIdeal
import proofs.«133679_j23562190586025_2_alg».proof.Proof.Gen.Pre_finite_inputs
import proofs.«133679_j23562190586025_2_alg».proof.Proof.KernelValue
import proofs.«133679_j23562190586025_2_alg».proof.Proof.RefRun
import proofs.«133679_j23562190586025_2_alg».proof.Proof.RefValue

set_option maxRecDepth 16384

noncomputable section

namespace Cert.Proof

open Idealize.ShloMosaic Idealize.ShloMosaic.TcCoe Idealize.SL.Sem

/-- The host operations between the kernel program's regions and the reference's gather stage are one function of the
    feature array and the neighbour indices: the same index normalisation and gather, and the same mask — "index below
    zero", taken before a unit axis is added in one program and after in the other. -/
theorem gather_eq (f : FVec Ideal Cert.KernelIdeal.S400000x32 .f32) (n : IVec Cert.KernelIdeal.S400000x6 32) :
    Cert.KernelHost.chain (F := Ideal) f n = Cert.RefTerm.gathered (F := Ideal) f n := by
  unfold Cert.KernelHost.chain Cert.RefTerm.gathered Cert.RefTerm.negMask Cert.RefTerm.normIdx
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.RefRun.frame m ρ

/-- The ideal pass rewrote nothing. -/
theorem preserves : Cert.preserves_Kernel_KernelIdeal := trivial

/-- From memories agreeing on the arguments both idealized programs end with the network's output in their result
    arrays. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun r h c => ⟨(h c).1.trans ?_, (h c).2⟩)
    (Cert.RefRun.run (F := Ideal) m' ρ')
  obtain ⟨h0, h1, h2, h3, h4, h5, h6, h7, h8, h9, h10, h11, h12, h13, h14, h15, h16⟩ := hagree c
  rw [h0, h1, h2, h3, h4, h5, h6, h7, h8, h9, h10, h11, h12, h13, h14, h15, h16, Cert.RefValue.term_eq, gather_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
